-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v85)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v85) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x16 : Shape := ⟨2, ![100000, 16]⟩
abbrev S2x1600000 : Shape := ⟨2, ![2, 1600000]⟩
abbrev S16x32 : Shape := ⟨2, ![16, 32]⟩
abbrev S32 : Shape := ⟨1, ![32]⟩
abbrev S32x16 : Shape := ⟨2, ![32, 16]⟩
abbrev S16 : Shape := ⟨1, ![16]⟩
abbrev S_ : Shape := ⟨0, ![]⟩

class Facts : Prop where
  bcast_S_S100000x16 : S_.BroadcastsInDim S100000x16 (![] : Fin 0 → Fin S100000x16.rank)
  reducesTo_S100000x16_S_d0_1 : S100000x16.ReducesTo [0, 1] S_
  h_S_ : 0 < S_.numel
  bcast_S_S16x32 : S_.BroadcastsInDim S16x32 (![] : Fin 0 → Fin S16x32.rank)
  reducesTo_S16x32_S_d0_1 : S16x32.ReducesTo [0, 1] S_
  bcast_S_S32 : S_.BroadcastsInDim S32 (![] : Fin 0 → Fin S32.rank)
  reducesTo_S32_S_d0 : S32.ReducesTo [0] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg5 : FVec F S16 .f32) (main_v13 : IVec S_ 1) (main_v16 : IVec S32x16 1) : IVec S_ 1 :=
  let main_c_5 : IVec S_ 1 := constantI S_ 1 1#1
  let main_v17 : IVec S_ 1 := (fun x v => Host.reduce IntOp.andi x v reducesTo_S32x16_S_d0_1 h_S_) main_v16 main_c_5
  let main_v18 : IVec S_ 1 := andi main_v13 main_v17
  let main_v19 : FVec F S16 .f32 := Host.absf main_arg5
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  main_v23

def fn {F : FTy → Type} [FloatOps F] (main_arg0 : FVec F S100000x16 .f32) (main_arg1 : IVec S2x1600000 32) (main_arg2 : FVec F S16x32 .f32) (main_arg3 : FVec F S32 .f32) (main_arg4 : FVec F S32x16 .f32) (main_arg5 : FVec F S16 .f32) : IVec S_ 1 :=
  let main_v0 : FVec F S100000x16 .f32 := Host.absf main_arg0
  let main_cst : FVec F S_ .f32 := constant S_ .f32 0x7F800000#32
  let main_v1 : FVec F S100000x16 .f32 := broadcastInDim S100000x16 ![] bcast_S_S100000x16 main_cst
  let main_v2 : IVec S100000x16 1 := cmpf .olt main_v0 main_v1
  let main_c : IVec S_ 1 := constantI S_ 1 1#1
  let main_v3 : IVec S_ 1 := (fun x v => Host.reduce IntOp.andi x v reducesTo_S100000x16_S_d0_1 h_S_) main_v2 main_c
  let main_v4 : FVec F S16x32 .f32 := Host.absf main_arg2
  let main_cst_0 : FVec F S_ .f32 := constant S_ .f32 0x7F800000#32
  let main_v5 : FVec F S16x32 .f32 := broadcastInDim S16x32 ![] bcast_S_S16x32 main_cst_0
  let main_v6 : IVec S16x32 1 := cmpf .olt main_v4 main_v5
  let main_c_1 : IVec S_ 1 := constantI S_ 1 1#1
  let main_v7 : IVec S_ 1 := (fun x v => Host.reduce IntOp.andi x v reducesTo_S16x32_S_d0_1 h_S_) main_v6 main_c_1
  let main_v8 : IVec S_ 1 := andi main_v3 main_v7
  let main_v9 : FVec F S32 .f32 := Host.absf main_arg3
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x16 .f32 := Host.absf main_arg4
  let main_cst_4 : FVec F S_ .f32 := constant S_ .f32 0x7F800000#32
  let main_v15 : FVec F S32x16 .f32 := broadcastInDim S32x16 ![] bcast_S_S32x16 main_cst_4
  let main_v16 : IVec S32x16 1 := cmpf .olt main_v14 main_v15
  fn_part1 (F := F) main_arg5 main_v13 main_v16
-- ==== Kernel.lean ====
abbrev S100000x16 : Shape := ⟨2, ![100000, 16]⟩
abbrev S2x1600000 : Shape := ⟨2, ![2, 1600000]⟩
abbrev S16x32 : Shape := ⟨2, ![16, 32]⟩
abbrev S32 : Shape := ⟨1, ![32]⟩
abbrev S32x16 : Shape := ⟨2, ![32, 16]⟩
abbrev S16 : Shape := ⟨1, ![16]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S100000x32 : Shape := ⟨2, ![100000, 32]⟩
abbrev S5000x16 : Shape := ⟨2, ![5000, 16]⟩
abbrev S5000x32 : Shape := ⟨2, ![5000, 32]⟩
abbrev S_ : Shape := ⟨0, ![]⟩
abbrev S1700000x1 : Shape := ⟨2, ![1700000, 1]⟩
abbrev S1700000x32 : Shape := ⟨2, ![1700000, 32]⟩
abbrev S4000x1 : Shape := ⟨2, ![4000, 1]⟩
abbrev S4000x32 : Shape := ⟨2, ![4000, 32]⟩
abbrev S1x32 : Shape := ⟨2, ![1, 32]⟩
abbrev S1700000x16 : Shape := ⟨2, ![1700000, 16]⟩
abbrev S4000x16 : Shape := ⟨2, ![4000, 16]⟩
abbrev S1x16 : Shape := ⟨2, ![1, 16]⟩

abbrev nBuf : Space → Nat
  | .hbm => 116
  | .vmem => 32
  | .smem => 0
  | _ => 0

abbrev bufTy : (tb : Table) → Fin (tcTables nBuf tb) → BufTy
  | .hbm, ⟨0, _⟩ => ⟨S100000x16, .f32⟩
  | .hbm, ⟨1, _⟩ => ⟨S2x1600000, .i32⟩
  | .hbm, ⟨2, _⟩ => ⟨S16x32, .f32⟩
  | .hbm, ⟨3, _⟩ => ⟨S32, .f32⟩
  | .hbm, ⟨4, _⟩ => ⟨S32x16, .f32⟩
  | .hbm, ⟨5, _⟩ => ⟨S16, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000, .i32⟩
  | .hbm, ⟨11, _⟩ => ⟨S1700000, .i32⟩
  | .hbm, ⟨12, _⟩ => ⟨S1700000, .i32⟩
  | .hbm, ⟨13, _⟩ => ⟨S100000x32, .f32⟩
  | .hbm, ⟨14, _⟩ => ⟨S_, .f32⟩
  | .hbm, ⟨15, _⟩ => ⟨S1700000, .f32⟩
  | .hbm, ⟨16, _⟩ => ⟨S_, .f32⟩
  | .hbm, ⟨17, _⟩ => ⟨S100000, .f32⟩
  | .hbm, ⟨18, _⟩ => ⟨S1700000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S_, .i32⟩
  | .hbm, ⟨47, _⟩ => ⟨S1700000, .i32⟩
  | .hbm, ⟨48, _⟩ => ⟨S1700000, .i1⟩
  | .hbm, ⟨49, _⟩ => ⟨S_, .i32⟩
  | .hbm, ⟨50, _⟩ => ⟨S1700000, .i32⟩
  | .hbm, ⟨51, _⟩ => ⟨S1700000, .i32⟩
  | .hbm, ⟨52, _⟩ => ⟨S1700000, .i32⟩
  | .hbm, ⟨53, _⟩ => ⟨S1700000x1, .i32⟩
  | .hbm, ⟨54, _⟩ => ⟨S1700000x32, .f32⟩
  | .hbm, ⟨55, _⟩ => ⟨S1700000x1, .f32⟩
  | .hbm, ⟨56, _⟩ => ⟨S1700000x32, .f32⟩
  | .hbm, ⟨57, _⟩ => ⟨S_, .f32⟩
  | .hbm, ⟨58, _⟩ => ⟨S100000x32, .f32⟩
  | .hbm, ⟨59, _⟩ => ⟨S1700000x1, .i32⟩
  | .hbm, ⟨60, _⟩ => ⟨S100000x32, .f32⟩
  | .hbm, ⟨61, _⟩ => ⟨S1x32, .f32⟩
  | .hbm, ⟨62, _⟩ => ⟨S100000x32, .f32⟩
  | .hbm, ⟨63, _⟩ => ⟨S100000, .i32⟩
  | .hbm, ⟨64, _⟩ => ⟨S1700000, .i32⟩
  | .hbm, ⟨65, _⟩ => ⟨S1700000, .i32⟩
  | .hbm, ⟨66, _⟩ => ⟨S100000x16, .f32⟩
  | .hbm, ⟨67, _⟩ => ⟨S_, .f32⟩
  | .hbm, ⟨68, _⟩ => ⟨S1700000, .f32⟩
  | .hbm, ⟨69, _⟩ => ⟨S_, .f32⟩
  | .hbm, ⟨70, _⟩ => ⟨S100000, .f32⟩
  | .hbm, ⟨71, _⟩ => ⟨S1700000x1, .i32⟩
  | .hbm, ⟨72, _⟩ => ⟨S100000, .f32⟩
  | .hbm, ⟨73, _⟩ => ⟨S_, .f32⟩
  | .hbm, ⟨74, _⟩ => ⟨S100000, .f32⟩
  | .hbm, ⟨75, _⟩ => ⟨S100000, .i1⟩
  | .hbm, ⟨76, _⟩ => ⟨S100000, .f32⟩
  | .hbm, ⟨77, _⟩ => ⟨S_, .f32⟩
  | .hbm, ⟨78, _⟩ => ⟨S100000, .f32⟩
  | .hbm, ⟨79, _⟩ => ⟨S100000, .f32⟩
  | .hbm, ⟨80, _⟩ => ⟨S_, .i32⟩
  | .hbm, ⟨81, _⟩ => ⟨S1700000, .i32⟩
  | .hbm, ⟨82, _⟩ => ⟨S1700000, .i1⟩
  | .hbm, ⟨83, _⟩ => ⟨S_, .i32⟩
  | .hbm, ⟨84, _⟩ => ⟨S1700000, .i32⟩
  | .hbm, ⟨85, _⟩ => ⟨S1700000, .i32⟩
  | .hbm, ⟨86, _⟩ => ⟨S1700000, .i32⟩
  | .hbm, ⟨87, _⟩ => ⟨S1700000x1, .i32⟩
  | .hbm, ⟨88, _⟩ => ⟨S1700000, .f32⟩
  | .hbm, ⟨89, _⟩ => ⟨S_, .i32⟩
  | .hbm, ⟨90, _⟩ => ⟨S1700000, .i32⟩
  | .hbm, ⟨91, _⟩ => ⟨S1700000, .i1⟩
  | .hbm, ⟨92, _⟩ => ⟨S_, .i32⟩
  | .hbm, ⟨93, _⟩ => ⟨S1700000, .i32⟩
  | .hbm, ⟨94, _⟩ => ⟨S1700000, .i32⟩
  | .hbm, ⟨95, _⟩ => ⟨S1700000, .i32⟩
  | .hbm, ⟨96, _⟩ => ⟨S1700000x1, .i32⟩
  | .hbm, ⟨97, _⟩ => ⟨S1700000, .f32⟩
  | .hbm, ⟨98, _⟩ => ⟨S1700000, .f32⟩
  | .hbm, ⟨99, _⟩ => ⟨S_, .i32⟩
  | .hbm, ⟨100, _⟩ => ⟨S1700000, .i32⟩
  | .hbm, ⟨101, _⟩ => ⟨S1700000, .i1⟩
  | .hbm, ⟨102, _⟩ => ⟨S_, .i32⟩
  | .hbm, ⟨103, _⟩ => ⟨S1700000, .i32⟩
  | .hbm, ⟨104, _⟩ => ⟨S1700000, .i32⟩
  | .hbm, ⟨105, _⟩ => ⟨S1700000, .i32⟩
  | .hbm, ⟨106, _⟩ => ⟨S1700000x1, .i32⟩
  | .hbm, ⟨107, _⟩ => ⟨S1700000x16, .f32⟩
  | .hbm, ⟨108, _⟩ => ⟨S1700000x1, .f32⟩
  | .hbm, ⟨109, _⟩ => ⟨S1700000x16, .f32⟩
  | .hbm, ⟨110, _⟩ => ⟨S_, .f32⟩
  | .hbm, ⟨111, _⟩ => ⟨S100000x16, .f32⟩
  | .hbm, ⟨112, _⟩ => ⟨S1700000x1, .i32⟩
  | .hbm, ⟨113, _⟩ => ⟨S100000x16, .f32⟩
  | .hbm, ⟨114, _⟩ => ⟨S1x16, .f32⟩
  | .hbm, ⟨115, _⟩ => ⟨S100000x16, .f32⟩
  | .local _ .vmem, ⟨0, _⟩ => ⟨S5000x16, .f32⟩
  | .local _ .vmem, ⟨1, _⟩ => ⟨S5000x16, .f32⟩
  | .local _ .vmem, ⟨2, _⟩ => ⟨S16x32, .f32⟩
  | .local _ .vmem, ⟨3, _⟩ => ⟨S5000x32, .f32⟩
  | .local _ .vmem, ⟨4, _⟩ => ⟨S5000x32, .f32⟩
  | .local _ .vmem, ⟨5, _⟩ => ⟨S4000x1, .f32⟩
  | .local _ .vmem, ⟨6, _⟩ => ⟨S4000x1, .f32⟩
  | .local _ .vmem, ⟨7, _⟩ => ⟨S4000x32, .f32⟩
  | .local _ .vmem, ⟨8, _⟩ => ⟨S4000x32, .f32⟩
  | .local _ .vmem, ⟨9, _⟩ => ⟨S4000x32, .f32⟩
  | .local _ .vmem, ⟨10, _⟩ => ⟨S4000x32, .f32⟩
  | .local _ .vmem, ⟨11, _⟩ => ⟨S5000x32, .f32⟩
  | .local _ .vmem, ⟨12, _⟩ => ⟨S5000x32, .f32⟩
  | .local _ .vmem, ⟨13, _⟩ => ⟨S1x32, .f32⟩
  | .local _ .vmem, ⟨14, _⟩ => ⟨S5000x32, .f32⟩
  | .local _ .vmem, ⟨15, _⟩ => ⟨S5000x32, .f32⟩
  | .local _ .vmem, ⟨16, _⟩ => ⟨S5000x32, .f32⟩
  | .local _ .vmem, ⟨17, _⟩ => ⟨S5000x32, .f32⟩
  | .local _ .vmem, ⟨18, _⟩ => ⟨S32x16, .f32⟩
  | .local _ .vmem, ⟨19, _⟩ => ⟨S5000x16, .f32⟩
  | .local _ .vmem, ⟨20, _⟩ => ⟨S5000x16, .f32⟩
  | .local _ .vmem, ⟨21, _⟩ => ⟨S4000x1, .f32⟩
  | .local _ .vmem, ⟨22, _⟩ => ⟨S4000x1, .f32⟩
  | .local _ .vmem, ⟨23, _⟩ => ⟨S4000x16, .f32⟩
  | .local _ .vmem, ⟨24, _⟩ => ⟨S4000x16, .f32⟩
  | .local _ .vmem, ⟨25, _⟩ => ⟨S4000x16, .f32⟩
  | .local _ .vmem, ⟨26, _⟩ => ⟨S4000x16, .f32⟩
  | .local _ .vmem, ⟨27, _⟩ => ⟨S5000x16, .f32⟩
  | .local _ .vmem, ⟨28, _⟩ => ⟨S5000x16, .f32⟩
  | .local _ .vmem, ⟨29, _⟩ => ⟨S1x16, .f32⟩
  | .local _ .vmem, ⟨30, _⟩ => ⟨S5000x16, .f32⟩
  | .local _ .vmem, ⟨31, _⟩ => ⟨S5000x16, .f32⟩
  | _, _ => ⟨S100000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_v15 : Ref sig .tc := ⟨.hbm, 26, rfl⟩
abbrev main_c : Ref sig .tc := ⟨.hbm, 27, rfl⟩
abbrev main_v16 : Ref sig .tc := ⟨.hbm, 28, rfl⟩
abbrev main_v17 : Ref sig .tc := ⟨.hbm, 29, rfl⟩
abbrev main_c_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c_4 : Ref sig .tc := ⟨.hbm, 36, rfl⟩
abbrev main_v23 : Ref sig .tc := ⟨.hbm, 37, rfl⟩
abbrev main_v24 : Ref sig .tc := ⟨.hbm, 38, rfl⟩
abbrev main_c_5 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_c_6 : Ref sig .tc := ⟨.hbm, 46, rfl⟩
abbrev main_v31 : Ref sig .tc := ⟨.hbm, 47, rfl⟩
abbrev main_v32 : Ref sig .tc := ⟨.hbm, 48, rfl⟩
abbrev main_c_7 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_8 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_9 : Ref sig .tc := ⟨.hbm, 67, rfl⟩
abbrev main_v49 : Ref sig .tc := ⟨.hbm, 68, rfl⟩
abbrev main_cst_10 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_11 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_12 : Ref sig .tc := ⟨.hbm, 77, rfl⟩
abbrev main_call1_v0 : Ref sig .tc := ⟨.hbm, 78, rfl⟩
abbrev main_v56 : Ref sig .tc := ⟨.hbm, 79, rfl⟩
abbrev main_c_13 : Ref sig .tc := ⟨.hbm, 80, rfl⟩
abbrev main_v57 : Ref sig .tc := ⟨.hbm, 81, rfl⟩
abbrev main_v58 : Ref sig .tc := ⟨.hbm, 82, rfl⟩
abbrev main_c_14 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_c_15 : Ref sig .tc := ⟨.hbm, 89, rfl⟩
abbrev main_v64 : Ref sig .tc := ⟨.hbm, 90, rfl⟩
abbrev main_v65 : Ref sig .tc := ⟨.hbm, 91, rfl⟩
abbrev main_c_16 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_c_17 : Ref sig .tc := ⟨.hbm, 99, rfl⟩
abbrev main_v72 : Ref sig .tc := ⟨.hbm, 100, rfl⟩
abbrev main_v73 : Ref sig .tc := ⟨.hbm, 101, rfl⟩
abbrev main_c_18 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_cst_19 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg2_1 : Ref sig .tc := ⟨.vmem, 20, rfl⟩
abbrev cc4_stg0_0 : Ref sig .tc := ⟨.vmem, 21, rfl⟩
abbrev cc4_stg0_1 : Ref sig .tc := ⟨.vmem, 22, rfl⟩
abbrev cc4_stg1_0 : Ref sig .tc := ⟨.vmem, 23, rfl⟩
abbrev cc4_stg1_1 : Ref sig .tc := ⟨.vmem, 24, rfl⟩
abbrev cc4_stg2_0 : Ref sig .tc := ⟨.vmem, 25, rfl⟩
abbrev cc4_stg2_1 : Ref sig .tc := ⟨.vmem, 26, rfl⟩
abbrev cc5_stg0_0 : Ref sig .tc := ⟨.vmem, 27, rfl⟩
abbrev cc5_stg0_1 : Ref sig .tc := ⟨.vmem, 28, rfl⟩
abbrev cc5_stg1_0 : Ref sig .tc := ⟨.vmem, 29, rfl⟩
abbrev cc5_stg2_0 : Ref sig .tc := ⟨.vmem, 30, rfl⟩
abbrev cc5_stg2_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem2_1 : DmaSem sig := 20
abbrev cc4_sem0_0 : DmaSem sig := 21
abbrev cc4_sem0_1 : DmaSem sig := 22
abbrev cc4_sem1_0 : DmaSem sig := 23
abbrev cc4_sem1_1 : DmaSem sig := 24
abbrev cc4_sem2_0 : DmaSem sig := 25
abbrev cc4_sem2_1 : DmaSem sig := 26
abbrev cc5_sem0_0 : DmaSem sig := 27
abbrev cc5_sem0_1 : DmaSem sig := 28
abbrev cc5_sem1_0 : DmaSem sig := 29
abbrev cc5_sem2_0 : DmaSem sig := 30
abbrev cc5_sem2_1 : DmaSem sig := 31

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![425], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x1 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x32 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S32x16 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x16 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![425], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4000x1 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S4000x16 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S4000x16 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x16 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x16 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x16 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  inb_S5000x16_S5000x16_0_0 : ∀ a, (![0, 0] : Fin 2 → Nat) a + S5000x16.size a ≤ S5000x16.size a
  h_S5000x16 : 0 < S5000x16.numel
  bitsLt_bf16_f32 : FTy.bits .bf16 < FTy.bits .f32
  inb_S16x32_S16x32_0_0 : ∀ a, (![0, 0] : Fin 2 → Nat) a + S16x32.size a ≤ S16x32.size a
  h_S16x32 : 0 < S16x32.numel
  inb_S5000x32_S5000x32_0_0 : ∀ a, (![0, 0] : Fin 2 → Nat) a + S5000x32.size a ≤ S5000x32.size a
  h_S5000x32 : 0 < S5000x32.numel
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S1700000_S1700000x1 : S1700000.ShapeCasts S1700000x1
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  inb_S4000x32_S4000x32_0_0 : ∀ a, (![0, 0] : Fin 2 → Nat) a + S4000x32.size a ≤ S4000x32.size a
  h_S4000x32 : 0 < S4000x32.numel
  shapeCasts_S4000x32_S4000x32 : S4000x32.ShapeCasts S4000x32
  broadcasts_S4000x1_S4000x32 : S4000x1.Broadcasts S4000x32
  bcast_S_S100000x32 : S_.BroadcastsInDim S100000x32 (![] : Fin 0 → Fin S100000x32.rank)
  shapeCasts_S32_S1x32 : S32.ShapeCasts S1x32
  shapeCasts_S5000x32_S5000x32 : S5000x32.ShapeCasts S5000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  inb_S32x16_S32x16_0_0 : ∀ a, (![0, 0] : Fin 2 → Nat) a + S32x16.size a ≤ S32x16.size a
  h_S32x16 : 0 < S32x16.numel
  inb_S4000x16_S4000x16_0_0 : ∀ a, (![0, 0] : Fin 2 → Nat) a + S4000x16.size a ≤ S4000x16.size a
  h_S4000x16 : 0 < S4000x16.numel
  shapeCasts_S4000x16_S4000x16 : S4000x16.ShapeCasts S4000x16
  broadcasts_S4000x1_S4000x16 : S4000x1.Broadcasts S4000x16
  bcast_S_S100000x16 : S_.BroadcastsInDim S100000x16 (![] : Fin 0 → Fin S100000x16.rank)
  shapeCasts_S16_S1x16 : S16.ShapeCasts S1x16
  shapeCasts_S5000x16_S5000x16 : S5000x16.ShapeCasts S5000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  dot_S5000x16_S16x32_S5000x32_1_0_0_1_n_n_wf : DotDims.WF S5000x16 S16x32 S5000x32 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  dot_S5000x32_S32x16_S5000x16_1_0_0_1_n_n_wf : DotDims.WF S5000x32 S32x16 S5000x16 [1] [0] [0] [1] [] []
  gather_S100000x16_S1700000x1_S1700000x16_1_0_n_n_0_1_116_wf : GatherDims.WF S100000x16 S1700000x1 S1700000x16 [1] [0] [] [0] [] 1 ![1, 16]
  scatter_S100000x16_S1700000x1_S1700000x16_1_0_0_1_wf : ScatterDims.WF S100000x16 S1700000x1 S1700000x16 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x16.size a ≤ S100000x16.size a
  hwx0_0 : ∀ i : grid0.Coords, EltTy.bits .f32 = 32 ∨ (Rect.block (s := S100000x16) S5000x16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x32.size a ≤ S16x32.size a
  hwx0_1 : ∀ i : grid0.Coords, EltTy.bits .f32 = 32 ∨ (Rect.block (s := S16x32) S16x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x32.size a ≤ S100000x32.size a
  hwx0_2 : ∀ i : grid0.Coords, EltTy.bits .f32 = 32 ∨ (Rect.block (s := S100000x32) S5000x32.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x1.size a ≤ S1700000x1.size a
  hwx1_0 : ∀ i : grid1.Coords, EltTy.bits .f32 = 32 ∨ (Rect.block (s := S1700000x1) S4000x1.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x32.size a ≤ S1700000x32.size a
  hwx1_1 : ∀ i : grid1.Coords, EltTy.bits .f32 = 32 ∨ (Rect.block (s := S1700000x32) S4000x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x32.size a ≤ S1700000x32.size a
  hwx1_2 : ∀ i : grid1.Coords, EltTy.bits .f32 = 32 ∨ (Rect.block (s := S1700000x32) S4000x32.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x32.size a ≤ S100000x32.size a
  hwx2_0 : ∀ i : grid2.Coords, EltTy.bits .f32 = 32 ∨ (Rect.block (s := S100000x32) S5000x32.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x32.size a ≤ S1x32.size a
  hwx2_1 : ∀ i : grid2.Coords, EltTy.bits .f32 = 32 ∨ (Rect.block (s := S1x32) S1x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x32.size a ≤ S100000x32.size a
  hwx2_2 : ∀ i : grid2.Coords, EltTy.bits .f32 = 32 ∨ (Rect.block (s := S100000x32) S5000x32.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x32.size a ≤ S100000x32.size a
  hwx3_0 : ∀ i : grid3.Coords, EltTy.bits .f32 = 32 ∨ (Rect.block (s := S100000x32) S5000x32.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S32x16.size a ≤ S32x16.size a
  hwx3_1 : ∀ i : grid3.Coords, EltTy.bits .f32 = 32 ∨ (Rect.block (s := S32x16) S32x16.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x16.size a ≤ S100000x16.size a
  hwx3_2 : ∀ i : grid3.Coords, EltTy.bits .f32 = 32 ∨ (Rect.block (s := S100000x16) S5000x16.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4000x1.size a ≤ S1700000x1.size a
  hwx4_0 : ∀ i : grid4.Coords, EltTy.bits .f32 = 32 ∨ (Rect.block (s := S1700000x1) S4000x1.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S4000x16.size a ≤ S1700000x16.size a
  hwx4_1 : ∀ i : grid4.Coords, EltTy.bits .f32 = 32 ∨ (Rect.block (s := S1700000x16) S4000x16.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S4000x16.size a ≤ S1700000x16.size a
  hwx4_2 : ∀ i : grid4.Coords, EltTy.bits .f32 = 32 ∨ (Rect.block (s := S1700000x16) S4000x16.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x16.size a ≤ S100000x16.size a
  hwx5_0 : ∀ i : grid5.Coords, EltTy.bits .f32 = 32 ∨ (Rect.block (s := S100000x16) S5000x16.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x16.size a ≤ S1x16.size a
  hwx5_1 : ∀ i : grid5.Coords, EltTy.bits .f32 = 32 ∨ (Rect.block (s := S1x16) S1x16.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x16.size a ≤ S100000x16.size a
  hwx5_2 : ∀ i : grid5.Coords, EltTy.bits .f32 = 32 ∨ (Rect.block (s := S100000x16) S5000x16.size (cc5_transform_2 i) (hinb5_2 i)).WholeWords (EltTy.packing .f32)

variable [Facts₀]

def dot_S5000x16_S16x32_S5000x32_1_0_0_1_n_n : DotDims S5000x16 S16x32 S5000x32 where
  lhsContracting := [1]
  rhsContracting := [0]
  lhsNonContracting := [0]
  rhsNonContracting := [1]
  lhsBatch := []
  rhsBatch := []
  wf := dot_S5000x16_S16x32_S5000x32_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf
def dot_S5000x32_S32x16_S5000x16_1_0_0_1_n_n : DotDims S5000x32 S32x16 S5000x16 where
  lhsContracting := [1]
  rhsContracting := [0]
  lhsNonContracting := [0]
  rhsNonContracting := [1]
  lhsBatch := []
  rhsBatch := []
  wf := dot_S5000x32_S32x16_S5000x16_1_0_0_1_n_n_wf
def gather_S100000x16_S1700000x1_S1700000x16_1_0_n_n_0_1_116 : GatherDims S100000x16 S1700000x1 S1700000x16 where
  offsetDims := [1]
  collapsedSliceDims := [0]
  operandBatchingDims := []
  startIndicesBatchingDims := []
  startIndexMap := [0]
  indexVectorDim := 1
  sliceSizes := ![1, 16]
  wf := gather_S100000x16_S1700000x1_S1700000x16_1_0_n_n_0_1_116_wf
def scatter_S100000x16_S1700000x1_S1700000x16_1_0_0_1 : ScatterDims S100000x16 S1700000x1 S1700000x16 where
  updateWindowDims := [1]
  insertedWindowDims := [0]
  scatterDimsToOperandDims := [0]
  indexVectorDim := 1
  wf := scatter_S100000x16_S1700000x1_S1700000x16_1_0_0_1_wf

abbrev win0_0 : Pipeline.Window sig grid0 :=
  Pipeline.Window.ofSpec (Memref.whole main_arg0) S5000x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S16x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S5000x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v38) S4000x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v37) S4000x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v39) S4000x32.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v42) S5000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v43) S1x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v44) S5000x32.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v44) S5000x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg4) S32x16.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v48) S5000x16.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v79) S4000x1.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v78) S4000x16.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v80) S4000x16.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v83) S5000x16.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v84) S1x16.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v85) S5000x16.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S100000x16 : Shape := ⟨2, ![100000, 16]⟩
abbrev S2x1600000 : Shape := ⟨2, ![2, 1600000]⟩
abbrev S16x32 : Shape := ⟨2, ![16, 32]⟩
abbrev S32 : Shape := ⟨1, ![32]⟩
abbrev S32x16 : Shape := ⟨2, ![32, 16]⟩
abbrev S16 : Shape := ⟨1, ![16]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S100000x32 : Shape := ⟨2, ![100000, 32]⟩
abbrev S_ : Shape := ⟨0, ![]⟩
abbrev S1700000x1 : Shape := ⟨2, ![1700000, 1]⟩
abbrev S1700000x32 : Shape := ⟨2, ![1700000, 32]⟩
abbrev S1x32 : Shape := ⟨2, ![1, 32]⟩
abbrev S1700000x16 : Shape := ⟨2, ![1700000, 16]⟩
abbrev S1x16 : Shape := ⟨2, ![1, 16]⟩

abbrev nBuf : Space → Nat
  | .hbm => 125
  | .vmem => 0
  | .smem => 0
  | _ => 0

abbrev bufTy : (tb : Table) → Fin (tcTables nBuf tb) → BufTy
  | .hbm, ⟨0, _⟩ => ⟨S100000x16, .f32⟩
  | .hbm, ⟨1, _⟩ => ⟨S2x1600000, .i32⟩
  | .hbm, ⟨2, _⟩ => ⟨S16x32, .f32⟩
  | .hbm, ⟨3, _⟩ => ⟨S32, .f32⟩
  | .hbm, ⟨4, _⟩ => ⟨S32x16, .f32⟩
  | .hbm, ⟨5, _⟩ => ⟨S16, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000, .i32⟩
  | .hbm, ⟨11, _⟩ => ⟨S1700000, .i32⟩
  | .hbm, ⟨12, _⟩ => ⟨S1700000, .i32⟩
  | .hbm, ⟨13, _⟩ => ⟨S100000x32, .f32⟩
  | .hbm, ⟨14, _⟩ => ⟨S_, .f32⟩
  | .hbm, ⟨15, _⟩ => ⟨S1700000, .f32⟩
  | .hbm, ⟨16, _⟩ => ⟨S_, .f32⟩
  | .hbm, ⟨17, _⟩ => ⟨S100000, .f32⟩
  | .hbm, ⟨18, _⟩ => ⟨S1700000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S1700000, .i32⟩
  | .hbm, ⟨30, _⟩ => ⟨S1700000, .i1⟩
  | .hbm, ⟨31, _⟩ => ⟨S_, .i32⟩
  | .hbm, ⟨32, _⟩ => ⟨S1700000, .i32⟩
  | .hbm, ⟨33, _⟩ => ⟨S1700000, .i32⟩
  | .hbm, ⟨34, _⟩ => ⟨S1700000, .i32⟩
  | .hbm, ⟨35, _⟩ => ⟨S1700000x1, .i32⟩
  | .hbm, ⟨36, _⟩ => ⟨S1700000, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000, .f32⟩
  | .hbm, ⟨46, _⟩ => ⟨S1700000, .f32⟩
  | .hbm, ⟨47, _⟩ => ⟨S1700000x1, .f32⟩
  | .hbm, ⟨48, _⟩ => ⟨S_, .i32⟩
  | .hbm, ⟨49, _⟩ => ⟨S1700000, .i32⟩
  | .hbm, ⟨50, _⟩ => ⟨S1700000, .i1⟩
  | .hbm, ⟨51, _⟩ => ⟨S_, .i32⟩
  | .hbm, ⟨52, _⟩ => ⟨S1700000, .i32⟩
  | .hbm, ⟨53, _⟩ => ⟨S1700000, .i32⟩
  | .hbm, ⟨54, _⟩ => ⟨S1700000, .i32⟩
  | .hbm, ⟨55, _⟩ => ⟨S1700000x1, .i32⟩
  | .hbm, ⟨56, _⟩ => ⟨S1700000x32, .f32⟩
  | .hbm, ⟨57, _⟩ => ⟨S1700000x32, .f32⟩
  | .hbm, ⟨58, _⟩ => ⟨S1700000x32, .f32⟩
  | .hbm, ⟨59, _⟩ => ⟨S_, .f32⟩
  | .hbm, ⟨60, _⟩ => ⟨S100000x32, .f32⟩
  | .hbm, ⟨61, _⟩ => ⟨S1700000x1, .i32⟩
  | .hbm, ⟨62, _⟩ => ⟨S100000x32, .f32⟩
  | .hbm, ⟨63, _⟩ => ⟨S1x32, .f32⟩
  | .hbm, ⟨64, _⟩ => ⟨S100000x32, .f32⟩
  | .hbm, ⟨65, _⟩ => ⟨S100000x32, .f32⟩
  | .hbm, ⟨66, _⟩ => ⟨S_, .f32⟩
  | .hbm, ⟨67, _⟩ => ⟨S100000x32, .f32⟩
  | .hbm, ⟨68, _⟩ => ⟨S100000x32, .f32⟩
  | .hbm, ⟨69, _⟩ => ⟨S100000, .i32⟩
  | .hbm, ⟨70, _⟩ => ⟨S1700000, .i32⟩
  | .hbm, ⟨71, _⟩ => ⟨S1700000, .i32⟩
  | .hbm, ⟨72, _⟩ => ⟨S100000x16, .f32⟩
  | .hbm, ⟨73, _⟩ => ⟨S_, .f32⟩
  | .hbm, ⟨74, _⟩ => ⟨S1700000, .f32⟩
  | .hbm, ⟨75, _⟩ => ⟨S_, .f32⟩
  | .hbm, ⟨76, _⟩ => ⟨S100000, .f32⟩
  | .hbm, ⟨77, _⟩ => ⟨S1700000x1, .i32⟩
  | .hbm, ⟨78, _⟩ => ⟨S100000, .f32⟩
  | .hbm, ⟨79, _⟩ => ⟨S_, .f32⟩
  | .hbm, ⟨80, _⟩ => ⟨S100000, .f32⟩
  | .hbm, ⟨81, _⟩ => ⟨S100000, .i1⟩
  | .hbm, ⟨82, _⟩ => ⟨S100000, .f32⟩
  | .hbm, ⟨83, _⟩ => ⟨S_, .f32⟩
  | .hbm, ⟨84, _⟩ => ⟨S_, .f32⟩
  | .hbm, ⟨85, _⟩ => ⟨S100000, .f32⟩
  | .hbm, ⟨86, _⟩ => ⟨S100000, .f32⟩
  | .hbm, ⟨87, _⟩ => ⟨S_, .i32⟩
  | .hbm, ⟨88, _⟩ => ⟨S1700000, .i32⟩
  | .hbm, ⟨89, _⟩ => ⟨S1700000, .i1⟩
  | .hbm, ⟨90, _⟩ => ⟨S_, .i32⟩
  | .hbm, ⟨91, _⟩ => ⟨S1700000, .i32⟩
  | .hbm, ⟨92, _⟩ => ⟨S1700000, .i32⟩
  | .hbm, ⟨93, _⟩ => ⟨S1700000, .i32⟩
  | .hbm, ⟨94, _⟩ => ⟨S1700000x1, .i32⟩
  | .hbm, ⟨95, _⟩ => ⟨S1700000, .f32⟩
  | .hbm, ⟨96, _⟩ => ⟨S_, .i32⟩
  | .hbm, ⟨97, _⟩ => ⟨S1700000, .i32⟩
  | .hbm, ⟨98, _⟩ => ⟨S1700000, .i1⟩
  | .hbm, ⟨99, _⟩ => ⟨S_, .i32⟩
  | .hbm, ⟨100, _⟩ => ⟨S1700000, .i32⟩
  | .hbm, ⟨101, _⟩ => ⟨S1700000, .i32⟩
  | .hbm, ⟨102, _⟩ => ⟨S1700000, .i32⟩
  | .hbm, ⟨103, _⟩ => ⟨S1700000x1, .i32⟩
  | .hbm, ⟨104, _⟩ => ⟨S1700000, .f32⟩
  | .hbm, ⟨105, _⟩ => ⟨S1700000, .f32⟩
  | .hbm, ⟨106, _⟩ => ⟨S1700000x1, .f32⟩
  | .hbm, ⟨107, _⟩ => ⟨S_, .i32⟩
  | .hbm, ⟨108, _⟩ => ⟨S1700000, .i32⟩
  | .hbm, ⟨109, _⟩ => ⟨S1700000, .i1⟩
  | .hbm, ⟨110, _⟩ => ⟨S_, .i32⟩
  | .hbm, ⟨111, _⟩ => ⟨S1700000, .i32⟩
  | .hbm, ⟨112, _⟩ => ⟨S1700000, .i32⟩
  | .hbm, ⟨113, _⟩ => ⟨S1700000, .i32⟩
  | .hbm, ⟨114, _⟩ => ⟨S1700000x1, .i32⟩
  | .hbm, ⟨115, _⟩ => ⟨S1700000x16, .f32⟩
  | .hbm, ⟨116, _⟩ => ⟨S1700000x16, .f32⟩
  | .hbm, ⟨117, _⟩ => ⟨S1700000x16, .f32⟩
  | .hbm, ⟨118, _⟩ => ⟨S_, .f32⟩
  | .hbm, ⟨119, _⟩ => ⟨S100000x16, .f32⟩
  | .hbm, ⟨120, _⟩ => ⟨S1700000x1, .i32⟩
  | .hbm, ⟨121, _⟩ => ⟨S100000x16, .f32⟩
  | .hbm, ⟨122, _⟩ => ⟨S1x16, .f32⟩
  | .hbm, ⟨123, _⟩ => ⟨S100000x16, .f32⟩
  | .hbm, ⟨124, _⟩ => ⟨S100000x16, .f32⟩
  | _, _ => ⟨S100000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_9 : Ref sig .tc := ⟨.hbm, 73, rfl⟩
abbrev main_v52 : Ref sig .tc := ⟨.hbm, 74, rfl⟩
abbrev main_cst_10 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_11 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_12 : Ref sig .tc := ⟨.hbm, 83, rfl⟩
abbrev main_call2_v0 : Ref sig .tc := ⟨.hbm, 84, rfl⟩
abbrev main_call2_v1 : Ref sig .tc := ⟨.hbm, 85, rfl⟩
abbrev main_v59 : Ref sig .tc := ⟨.hbm, 86, rfl⟩
abbrev main_c_13 : Ref sig .tc := ⟨.hbm, 87, rfl⟩
abbrev main_v60 : Ref sig .tc := ⟨.hbm, 88, rfl⟩
abbrev main_v61 : Ref sig .tc := ⟨.hbm, 89, rfl⟩
abbrev main_c_14 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_c_15 : Ref sig .tc := ⟨.hbm, 96, rfl⟩
abbrev main_v67 : Ref sig .tc := ⟨.hbm, 97, rfl⟩
abbrev main_v68 : Ref sig .tc := ⟨.hbm, 98, rfl⟩
abbrev main_c_16 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_c_17 : Ref sig .tc := ⟨.hbm, 107, rfl⟩
abbrev main_v76 : Ref sig .tc := ⟨.hbm, 108, rfl⟩
abbrev main_v77 : Ref sig .tc := ⟨.hbm, 109, rfl⟩
abbrev main_c_18 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_19 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S1700000x1_S1700000x16_0_1 : S1700000x1.BroadcastsInDim S1700000x16 (![0, 1] : Fin 2 → Fin S1700000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  dot_S100000x16_S16x32_S100000x32_1_0_0_1_n_n_wf : DotDims.WF S100000x16 S16x32 S100000x32 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  dot_S100000x32_S32x16_S100000x16_1_0_0_1_n_n_wf : DotDims.WF S100000x32 S32x16 S100000x16 [1] [0] [0] [1] [] []
  gather_S100000x16_S1700000x1_S1700000x16_1_0_n_n_0_1_116_wf : GatherDims.WF S100000x16 S1700000x1 S1700000x16 [1] [0] [] [0] [] 1 ![1, 16]
  scatter_S100000x16_S1700000x1_S1700000x16_1_0_0_1_wf : ScatterDims.WF S100000x16 S1700000x1 S1700000x16 [1] [0] [0] 1

variable [Facts₀]

def dot_S100000x16_S16x32_S100000x32_1_0_0_1_n_n : DotDims S100000x16 S16x32 S100000x32 where
  lhsContracting := [1]
  rhsContracting := [0]
  lhsNonContracting := [0]
  rhsNonContracting := [1]
  lhsBatch := []
  rhsBatch := []
  wf := dot_S100000x16_S16x32_S100000x32_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf
def dot_S100000x32_S32x16_S100000x16_1_0_0_1_n_n : DotDims S100000x32 S32x16 S100000x16 where
  lhsContracting := [1]
  rhsContracting := [0]
  lhsNonContracting := [0]
  rhsNonContracting := [1]
  lhsBatch := []
  rhsBatch := []
  wf := dot_S100000x32_S32x16_S100000x16_1_0_0_1_n_n_wf
def gather_S100000x16_S1700000x1_S1700000x16_1_0_n_n_0_1_116 : GatherDims S100000x16 S1700000x1 S1700000x16 where
  offsetDims := [1]
  collapsedSliceDims := [0]
  operandBatchingDims := []
  startIndicesBatchingDims := []
  startIndexMap := [0]
  indexVectorDim := 1
  sliceSizes := ![1, 16]
  wf := gather_S100000x16_S1700000x1_S1700000x16_1_0_n_n_0_1_116_wf
def scatter_S100000x16_S1700000x1_S1700000x16_1_0_0_1 : ScatterDims S100000x16 S1700000x1 S1700000x16 where
  updateWindowDims := [1]
  insertedWindowDims := [0]
  scatterDimsToOperandDims := [0]
  indexVectorDim := 1
  wf := scatter_S100000x16_S1700000x1_S1700000x16_1_0_0_1_wf

class Facts : Prop extends Facts₀ where

variable [Facts]
-- ==== Proof.KernelRun.lean ====
/-
  The idealized kernel's run with its result named. Every weakly fair execution of the program from a launch memory
  `m` terminates without fault; its six pipelined regions and the host operations between them leave each unscoped
  buffer at the contents the fold of the program's segments computes from `m` (`W16`), so the result buffer ends at
  that fold read at the result, and the six argument arrays end as launched.
-/
import proofs.«114408_j70360154243503_2_alg».proof.Proof.Gen.KernelIdeal.Frame

set_option maxRecDepth 16384

noncomputable section

namespace Cert.KernelIdeal.Outcome

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the segments' fold read at the result; the arguments end as launched. -/
theorem run_named : θ_run defs (onTc (τ := τ) (main (F := F))) ⟨m, fun _ => 0, ρ⟩ (fun r => ∀ c : Dev nD,
      r.2.mem ((c.tc : Thread nD τ).loc main_v85) = W16 m ρ c (Proc.devRef .tc main_v85)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := fun s h c =>
      ⟨h c _ (mem_uc main_v85 (by decide)),
       (h c _ (mem_uc main_arg0 (by decide))).trans (W16_main_arg0 m ρ c),
       (h c _ (mem_uc main_arg1 (by decide))).trans (W16_main_arg1 m ρ c),
       (h c _ (mem_uc main_arg2 (by decide))).trans (W16_main_arg2 m ρ c),
       (h c _ (mem_uc main_arg3 (by decide))).trans (W16_main_arg3 m ρ c),
       (h c _ (mem_uc main_arg4 (by decide))).trans (W16_main_arg4 m ρ c),
       (h c _ (mem_uc main_arg5 (by decide))).trans (W16_main_arg5 m ρ c)⟩)

end Cert.KernelIdeal.Outcome

end
-- ==== Proof.Spec.lean ====
/-
  The two-layer graph convolution as ONE function of the six argument arrays, written as a composition of whole-array
  operations. With `s`, `t` the source and target endpoints of the 1 600 000 edges followed by the 100 000 self-loops,
  `deg t` the in-degree of every node (a scatter-add of ones over `t`), and `d = 1/√deg` where the degree is positive
  (else 0), an edge's coefficient is `d[s] · d[t]`; a layer gathers the transformed features `x·W` at the sources, scales
  each gathered row by its edge's coefficient, scatter-adds the rows at the targets and adds the bias; the first layer
  is followed by a clamp at zero from below. Indices below zero are wrapped around by the node count before a gather.
-/
import proofs.«114408_j70360154243503_2_alg».proof.ReferenceIdeal
import proofs.«114408_j70360154243503_2_alg».proof.Proof.Gen.ReferenceIdeal
import Idealize.ShloMosaic.PureOps.Ideal

noncomputable section

namespace Cert.Gcn

open Cert.ReferenceIdeal Cert.ReferenceIdeal.Gen Idealize.ShloMosaic

variable {F : FTy → Type} [FloatOps F]

/-- Row `r` of the edge list as a vector. -/
def edgeRow0 (e : IVec S2x1600000 32) : IVec S1600000 32 :=
  shapeCast _ (extractStridedSlice S1x1600000 ![0, 0] e slices_S2x1600000_S1x1600000_0_0) shapeCasts_S1x1600000_S1600000
@[inherit_doc edgeRow0]
def edgeRow1 (e : IVec S2x1600000 32) : IVec S1600000 32 :=
  shapeCast _ (extractStridedSlice S1x1600000 ![1, 0] e slices_S2x1600000_S1x1600000_1_0) shapeCasts_S1x1600000_S1600000

/-- An edge-list row followed by one self-loop per node. -/
def withLoops (r : IVec S1600000 32) : IVec S1700000 32 :=
  concatenate S1700000 0 [⟨S1600000, r⟩, ⟨S100000, iotaInDim S100000 32 0⟩] concatenates_S1600000_S100000_S1700000_d0

/-- The source endpoints, self-loops included. -/
def sources (e : IVec S2x1600000 32) : IVec S1700000 32 := withLoops (edgeRow0 e)
/-- The target endpoints, self-loops included. -/
def targets (e : IVec S2x1600000 32) : IVec S1700000 32 := withLoops (edgeRow1 e)

/-- An index vector as a one-column matrix of indices. -/
def column (v : IVec S1700000 32) : IVec S1700000x1 32 := broadcastInDim S1700000x1 ![0] bcast_S1700000_S1700000x1_0 v

/-- The index column with every negative index shifted up by the node count. -/
def wrapped (v : IVec S1700000 32) : IVec S1700000x1 32 :=
  column (select (cmpi .slt v (broadcastInDim S1700000 ![] bcast_S_S1700000 (constantI S_ 32 0#32)))
    (addi v (broadcastInDim S1700000 ![] bcast_S_S1700000 (constantI S_ 32 100000#32))) v)

/-- The in-degree of every node: ones scatter-added at the targets. -/
def degree (t : IVec S1700000 32) : FVec F S100000 .f32 :=
  Host.scatterAdd (F := F) scatter_S100000_S1700000x1_S1700000_n_0_0_1
    (broadcastInDim S100000 ![] bcast_S_S100000 (constant (F := F) S_ .f32 0x00000000#32)) (column t)
    (broadcastInDim S1700000 ![] bcast_S_S1700000 (constant (F := F) S_ .f32 0x3F800000#32))

/-- Which degrees are positive. -/
def positive (t : IVec S1700000 32) : IVec S100000 1 :=
  cmpf (F := F) .ogt (degree (F := F) t) (broadcastInDim S100000 ![] bcast_S_S100000 (constant (F := F) S_ .f32 0x00000000#32))

/-- `1/√deg` where the degree is positive, else 0. -/
def invSqrtDegree (t : IVec S1700000 32) : FVec F S100000 .f32 :=
  select (positive (F := F) t) (Host.rsqrt (F := F) (degree (F := F) t))
    (broadcastInDim S100000 ![] bcast_S_S100000 (constant (F := F) S_ .f32 0x00000000#32))

/-- Every edge's coefficient `d[s] · d[t]`. -/
def coefficient (s t : IVec S1700000 32) : FVec F S1700000 .f32 :=
  mulf (Host.gather gather_S100000_S1700000x1_S1700000_n_0_n_n_0_1_1 (invSqrtDegree (F := F) t) (wrapped s))
    (Host.gather gather_S100000_S1700000x1_S1700000_n_0_n_n_0_1_1 (invSqrtDegree (F := F) t) (wrapped t))

/-- First layer: the rows of `h` gathered at the sources, each scaled by its edge's coefficient. -/
def messages32 (s t : IVec S1700000 32) (h : FVec F S100000x32 .f32) : FVec F S1700000x32 .f32 :=
  mulf (broadcastInDim S1700000x32 ![0, 1] bcast_S1700000x1_S1700000x32_0_1
      (broadcastInDim S1700000x1 ![0] bcast_S1700000_S1700000x1_0 (coefficient (F := F) s t)))
    (Host.gather gather_S100000x32_S1700000x1_S1700000x32_1_0_n_n_0_1_132 h (wrapped s))
/-- Second layer: the same over 16 features. -/
def messages16 (s t : IVec S1700000 32) (h : FVec F S100000x16 .f32) : FVec F S1700000x16 .f32 :=
  mulf (broadcastInDim S1700000x16 ![0, 1] bcast_S1700000x1_S1700000x16_0_1
      (broadcastInDim S1700000x1 ![0] bcast_S1700000_S1700000x1_0 (coefficient (F := F) s t)))
    (Host.gather gather_S100000x16_S1700000x1_S1700000x16_1_0_n_n_0_1_116 h (wrapped s))

/-- The messages summed at their targets. -/
def summed32 (t : IVec S1700000 32) (u : FVec F S1700000x32 .f32) : FVec F S100000x32 .f32 :=
  Host.scatterAdd (F := F) scatter_S100000x32_S1700000x1_S1700000x32_1_0_0_1
    (broadcastInDim S100000x32 ![] bcast_S_S100000x32 (constant (F := F) S_ .f32 0x00000000#32)) (column t) u
@[inherit_doc summed32]
def summed16 (t : IVec S1700000 32) (u : FVec F S1700000x16 .f32) : FVec F S100000x16 .f32 :=
  Host.scatterAdd (F := F) scatter_S100000x16_S1700000x1_S1700000x16_1_0_0_1
    (broadcastInDim S100000x16 ![] bcast_S_S100000x16 (constant (F := F) S_ .f32 0x00000000#32)) (column t) u

/-- The bias row spread over all nodes. -/
def biasRows32 (b : FVec F S32 .f32) : FVec F S100000x32 .f32 :=
  broadcastInDim S100000x32 ![0, 1] bcast_S1x32_S100000x32_0_1 (broadcastInDim S1x32 ![1] bcast_S32_S1x32_1 b)
@[inherit_doc biasRows32]
def biasRows16 (b : FVec F S16 .f32) : FVec F S100000x16 .f32 :=
  broadcastInDim S100000x16 ![0, 1] bcast_S1x16_S100000x16_0_1 (broadcastInDim S1x16 ![1] bcast_S16_S1x16_1 b)

/-- The first layer's output: aggregate, add the bias, clamp at zero from below. -/
def hidden (x : FVec F S100000x16 .f32) (e : IVec S2x1600000 32) (w1 : FVec F S16x32 .f32) (b1 : FVec F S32 .f32) :
    FVec F S100000x32 .f32 :=
  maximumf (addf (summed32 (F := F) (targets e) (messages32 (F := F) (sources e) (targets e)
      (Host.dotGeneral (F := F) dot_S100000x16_S16x32_S100000x32_1_0_0_1_n_n none x w1))) (biasRows32 b1))
    (broadcastInDim S100000x32 ![] bcast_S_S100000x32 (constant (F := F) S_ .f32 0x00000000#32))

/-- The network's output: the second layer on the first layer's output. -/
def output (x : FVec F S100000x16 .f32) (e : IVec S2x1600000 32) (w1 : FVec F S16x32 .f32) (b1 : FVec F S32 .f32)
    (w2 : FVec F S32x16 .f32) (b2 : FVec F S16 .f32) : FVec F S100000x16 .f32 :=
  addf (summed16 (F := F) (targets e) (messages16 (F := F) (sources e) (targets e)
      (Host.dotGeneral (F := F) dot_S100000x32_S32x16_S100000x16_1_0_0_1_n_n none (hidden x e w1 b1) w2))) (biasRows16 b2)

end Cert.Gcn

end
-- ==== Proof.Stretch.lean ====
/-
  A stretch of host operations writes only its own result buffers: a buffer that none of them writes holds after
  the stretch what it held before. The tactic below proves that for a literal stretch and a literal buffer, by
  listing the stretch's result buffers and comparing names.
-/
import Idealize.ShloMosaic.Lib.StableHlo.Run

namespace Cert.Gcn

open Idealize.ShloMosaic

/-- Closes `after ops V b = V b` for a literal list `ops` none of whose operations writes the literal buffer `b`. -/
macro "untouched" ops:ident : tactic => `(tactic| exact StableHlo.after_of_forall_not_mem _ _ (List.forall_iff_forall_mem.mp (by
  simp only [$ops:ident, List.flatten_cons, List.flatten_nil, List.append_nil, List.cons_append, List.nil_append, List.Forall,
    StableHlo.nullary_writes, StableHlo.unary_writes, StableHlo.binary_writes, StableHlo.ternary_writes, StableHlo.quaternary_writes,
    StableHlo.reshape_writes, StableHlo.binaryIndexed_writes, Finset.mem_singleton]
  repeat' apply And.intro
  all_goals exact StableHlo.devRef_ne_of_ne (by decide))))

end Cert.Gcn
-- ==== Proof.Dense1.lean ====
/-
  Region 0 is the dense product of the node features with a weight matrix, 5000 rows at a time: the grid walks the
  100 000 nodes in 20 blocks, every point sees the whole `[16, 32]` weight block, and the body multiplies its
  `[5000, 16]` block by it into a zero accumulator (the narrowing to bf16 before the product changes nothing over the
  extended reals). Row `r` of a block is row `5000·t + r` of the array, so entry `(n, j)` of the whole output is
  `∑ k, a (n, k) · w (k, j)`: one function of the two input arrays, which the blocks tile.
-/
import proofs.«114408_j70360154243503_2_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Dense1

open Cert.KernelIdeal Cert.KernelIdeal.Gen
open Idealize.ShloMosaic Idealize.ShloMosaic.TcCoe Idealize.SL.Sem
open Idealize.ShloMosaic.Pipeline (Dat)

theorem origin2 : (![0, 0] : Fin 2 → Nat) = fun _ => 0 := funext fun a => by fin_cases a <;> rfl

/-- The matrix product: entry `(n, j)` is the sum over `k` of `a (n, k) · w (k, j)`. -/
def product (a : S100000x16.Idx → EReal) (w : S16x32.Idx → EReal) : S100000x32.Idx → EReal :=
  fun i => ∑ k : Fin 16, a (ValueIdx.ix2 (i 0) k) * w (ValueIdx.ix2 k (i 1))

theorem product_apply (a : S100000x16.Idx → EReal) (w : S16x32.Idx → EReal) (i : S100000x32.Idx) :
    product a w i = ∑ k : Fin 16, a (ValueIdx.ix2 (i 0) k) * w (ValueIdx.ix2 k (i 1)) := rfl

/-- A product of two entries only depends on where the entries are read. -/
theorem term_congr (a : S100000x16.Idx → EReal) (w : S16x32.Idx → EReal) {p p' : S100000x16.Idx} {q q' : S16x32.Idx}
    (hp : p = p') (hq : q = q') : a p * w q = a p' * w q' := by rw [hp, hq]

/-! The block product's operand indices at output entry `i` and contraction index `q`: `(i 0, q)` and `(q, i 1)`. -/
theorem lhs_row (i : S5000x32.Idx) (q : dot_S5000x16_S16x32_S5000x32_1_0_0_1_n_n.contr.Idx) : (dot_S5000x16_S16x32_S5000x32_1_0_0_1_n_n.lhsIdx i q 0).val = (i 0).val := by
  unfold DotDims.lhsIdx
  rw [dif_neg (show ¬(0 : Fin S5000x16.rank) ∈ dot_S5000x16_S16x32_S5000x32_1_0_0_1_n_n.lhsBatch by decide), dif_pos (show (0 : Fin S5000x16.rank) ∈ dot_S5000x16_S16x32_S5000x32_1_0_0_1_n_n.lhsNonContracting by decide)]
  rfl
theorem lhs_contr (i : S5000x32.Idx) (q : dot_S5000x16_S16x32_S5000x32_1_0_0_1_n_n.contr.Idx) : (dot_S5000x16_S16x32_S5000x32_1_0_0_1_n_n.lhsIdx i q 1).val = (q ⟨0, by decide⟩).val :=
  dot_S5000x16_S16x32_S5000x32_1_0_0_1_n_n.lhsIdx_val_of_single rfl i q
theorem rhs_contr (i : S5000x32.Idx) (q : dot_S5000x16_S16x32_S5000x32_1_0_0_1_n_n.contr.Idx) : (dot_S5000x16_S16x32_S5000x32_1_0_0_1_n_n.rhsIdx i q 0).val = (q ⟨0, by decide⟩).val :=
  dot_S5000x16_S16x32_S5000x32_1_0_0_1_n_n.rhsIdx_val_of_single rfl i q
theorem rhs_col (i : S5000x32.Idx) (q : dot_S5000x16_S16x32_S5000x32_1_0_0_1_n_n.contr.Idx) : (dot_S5000x16_S16x32_S5000x32_1_0_0_1_n_n.rhsIdx i q 1).val = (i 1).val := by
  unfold DotDims.rhsIdx
  rw [dif_neg (show ¬(1 : Fin S16x32.rank) ∈ dot_S5000x16_S16x32_S5000x32_1_0_0_1_n_n.rhsBatch by decide), dif_pos (show (1 : Fin S16x32.rank) ∈ dot_S5000x16_S16x32_S5000x32_1_0_0_1_n_n.rhsNonContracting by decide)]
  rfl

/-- The body's arithmetic at one entry of a block: the product of the block's row with the weight's column. -/
theorem body_apply (x0 : FVec Ideal S5000x16 .f32) (x1 : FVec Ideal S16x32 .f32) (j : S5000x32.Idx) :
    k0_pay1 x0 x1 j = ∑ k : Fin 16, x0 (ValueIdx.ix2 (j 0) k) * x1 (ValueIdx.ix2 k (j 1)) := by
  unfold k0_pay1
  show FloatOps.matmul dot_S5000x16_S16x32_S5000x32_1_0_0_1_n_n none (truncf (F := Ideal) .bf16 x0 bitsLt_bf16_f32) (truncf (F := Ideal) .bf16 x1 bitsLt_bf16_f32) (constant S5000x32 .f32 0x00000000#32) j = _
  rw [Ideal.matmul_constant_zero_apply, ← Equiv.sum_comp (ValueIdx.contrEquiv1 dot_S5000x16_S16x32_S5000x32_1_0_0_1_n_n 16 rfl rfl).symm]
  refine Finset.sum_congr rfl fun k _ => ?_
  have hk := ValueIdx.contrEquiv1_symm_val dot_S5000x16_S16x32_S5000x32_1_0_0_1_n_n 16 rfl rfl k
  have el : dot_S5000x16_S16x32_S5000x32_1_0_0_1_n_n.lhsIdx j ((ValueIdx.contrEquiv1 dot_S5000x16_S16x32_S5000x32_1_0_0_1_n_n 16 rfl rfl).symm k) = ValueIdx.ix2 (j 0) k := funext fun a => Fin.ext (by
    match a with
    | ⟨0, _⟩ => exact lhs_row _ _
    | ⟨1, _⟩ => exact (lhs_contr _ _).trans hk)
  have er : dot_S5000x16_S16x32_S5000x32_1_0_0_1_n_n.rhsIdx j ((ValueIdx.contrEquiv1 dot_S5000x16_S16x32_S5000x32_1_0_0_1_n_n 16 rfl rfl).symm k) = ValueIdx.ix2 k (j 1) := funext fun a => Fin.ext (by
    match a with
    | ⟨0, _⟩ => exact (rhs_contr _ _).trans hk
    | ⟨1, _⟩ => exact rhs_col _ _)
  show x0 (dot_S5000x16_S16x32_S5000x32_1_0_0_1_n_n.lhsIdx j ((ValueIdx.contrEquiv1 dot_S5000x16_S16x32_S5000x32_1_0_0_1_n_n 16 rfl rfl).symm k)) * x1 (dot_S5000x16_S16x32_S5000x32_1_0_0_1_n_n.rhsIdx j ((ValueIdx.contrEquiv1 dot_S5000x16_S16x32_S5000x32_1_0_0_1_n_n 16 rfl rfl).symm k)) = _
  rw [el, er] <;> rfl

/-- Input rows and output rows walk the node blocks together; the weight window stays at its one block. -/
theorem block_index : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

section
variable (V : (c : Dev nD) → (b : Ref sig .tc) → Buf (Elt Ideal) ((c : Thread nD τ).loc b))

/-- What grid point `t` writes back is block `t` of the product of the two input arrays as the region finds them. -/
theorem written_block (c : Dev nD) (t : Fin cfg0.N) :
    (dat0 V c).flushed 2 t = ((cfg0.win 2).blk t).view.read (Elt Ideal) (product (V c main_arg0) (V c main_arg2)) := by
  show (cfg0.win 2).cut (grid0.coords t) ((dat0 V c).after 2 t) = _
  rw [after0_2]
  unfold out0_2
  rw [View.canon_unit_zero origin2]
  simp only [View.ld_unit_zero (S := S5000x16) origin2, View.ld_unit_zero (S := S16x32) origin2]
  obtain ⟨e0, e1, e2, e3, e4, e5⟩ := block_index t
  funext j
  refine (body_apply (iblk0 V c 0 t) (iblk0 V c 1 t) j).trans ?_
  show _ = product (V c main_arg0) (V c main_arg2) (((cfg0.win 2).blk t).view.emb j)
  refine Eq.trans ?_ (product_apply (V c main_arg0) (V c main_arg2) (((cfg0.win 2).blk t).view.emb j)).symm
  refine Finset.sum_congr rfl fun k _ => ?_
  have hk : k.val < 16 := k.isLt
  have h0 : ((cfg0.win 0).blk t).view.emb (ValueIdx.ix2 (j 0) k) = ValueIdx.ix2 ((((cfg0.win 2).blk t).view.emb j) 0) k := by
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 16 + 1 * k.val = k.val; omega
  have h1 : ((cfg0.win 1).blk t).view.emb (ValueIdx.ix2 k (j 1)) = ValueIdx.ix2 k ((((cfg0.win 2).blk t).view.emb j) 1) := by
    funext a; apply Fin.ext
    match a with
    | ⟨0, _⟩ => show win0_1.index t (0 : Fin 2) * 16 + 1 * k.val = k.val; omega
    | ⟨1, _⟩ => show win0_1.index t (1 : Fin 2) * 32 + 1 * (j 1).val = win0_2.index t (1 : Fin 2) * 32 + 1 * (j 1).val; omega
  exact term_congr (V c main_arg0) (V c main_arg2) h0 h1

/-- An entry of the output array lies in point `t`'s block iff each coordinate lies in the block's range on its axis. -/
theorem mem_block (t : Fin cfg0.N) (i : S100000x32.Idx) :
    i ∈ ((cfg0.win 2).blk t).view.set ↔ ∀ a : Fin 2, win0_2.index t a * S5000x32.size a ≤ (i a).val
      ∧ (i a).val < win0_2.index t a * S5000x32.size a + S5000x32.size a := by
  show i ∈ ((View.whole main_v7).slice (win0_2.rect t)).set ↔ _
  rw [View.set_slice_whole, Rect.mem_set_unit]
  exact Iff.rfl

/-- The 20 blocks tile the output: node `n` is in block `n / 5000`. -/
theorem tiled (i : S100000x32.Idx) : ∃ t : Fin cfg0.N, (cfg0.win 2).flush t = true ∧ i ∈ ((cfg0.win 2).blk t).view.set := by
  have hi0 : (i 0).val < 100000 := (i 0).isLt
  have hi1 : (i 1).val < 32 := (i 1).isLt
  have hN : grid0.N = 20 := N_0
  have ht : (i 0).val / 5000 < cfg0.N := by show (i 0).val / 5000 < grid0.N; rw [hN]; omega
  obtain ⟨e0, e1, e2, e3, e4, e5⟩ := block_index ⟨(i 0).val / 5000, ht⟩
  refine ⟨⟨(i 0).val / 5000, ht⟩, flush0_2 _, ?_⟩
  rw [mem_block]
  intro a
  match a with
  | ⟨0, _⟩ =>
    show win0_2.index ⟨(i 0).val / 5000, ht⟩ (0 : Fin 2) * 5000 ≤ (i 0).val
      ∧ (i 0).val < win0_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win0_2.index ⟨(i 0).val / 5000, ht⟩ (1 : Fin 2) * 32 ≤ (i 1).val
      ∧ (i 1).val < win0_2.index ⟨(i 0).val / 5000, ht⟩ (1 : Fin 2) * 32 + 32
    rw [e5]; omega

/-- After the region its output array holds the product of the two input arrays as the region found them. -/
theorem array_eq (c : Dev nD) : (dat0 V c).arrAt 2 cfg0.N = product (V c main_arg0) (V c main_arg2) :=
  (dat0 V c).arrAt_eq_of_cover 2 _ (fun t _ => written_block V c t) tiled

end

end Cert.KernelIdeal.Dense1

end
-- ==== Proof.KernelValue1.lean ====
/-
  The idealized kernel's buffers at its segment boundaries, from the launch to the entry of the second pipelined region: the endpoint vectors, the first dense product, `1/√deg`, the edge coefficients and the gathered rows.
  A boundary's contents are the previous boundary's after one stretch of host operations, or after one pipelined
  region whose output array is the region's whole-array function of its two input arrays and whose other buffers are
  as before. Each buffer still needed later is read as a stage of the specification applied to the launch contents.
-/
import proofs.«114408_j70360154243503_2_alg».proof.Proof.Gen.KernelIdeal.Frame
import proofs.«114408_j70360154243503_2_alg».proof.Proof.Spec
import proofs.«114408_j70360154243503_2_alg».proof.Proof.Stretch
import proofs.«114408_j70360154243503_2_alg».proof.Proof.Dense1
import Idealize.ShloMosaic.Lib.StableHlo.Run

set_option maxRecDepth 16384

noncomputable section

namespace Cert.KernelIdeal.KernelValue

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

theorem k0_arg0 (c : Dev nD) : W0 m ρ c (Proc.devRef .tc main_arg0) = (m ((c : Thread nD τ).loc main_arg0)) := rfl

theorem k0_arg1 (c : Dev nD) : W0 m ρ c (Proc.devRef .tc main_arg1) = (m ((c : Thread nD τ).loc main_arg1)) := rfl

theorem k0_arg2 (c : Dev nD) : W0 m ρ c (Proc.devRef .tc main_arg2) = (m ((c : Thread nD τ).loc main_arg2)) := rfl

theorem k0_arg3 (c : Dev nD) : W0 m ρ c (Proc.devRef .tc main_arg3) = (m ((c : Thread nD τ).loc main_arg3)) := rfl

theorem k0_arg4 (c : Dev nD) : W0 m ρ c (Proc.devRef .tc main_arg4) = (m ((c : Thread nD τ).loc main_arg4)) := rfl

theorem k0_arg5 (c : Dev nD) : W0 m ρ c (Proc.devRef .tc main_arg5) = (m ((c : Thread nD τ).loc main_arg5)) := rfl

theorem k1_v1 (c : Dev nD) : W1 m ρ c (Proc.devRef .tc main_v1) = Cert.Gcn.edgeRow0 (m ((c : Thread nD τ).loc main_arg1)) := by
  have h0 := k0_arg1 m ρ c
  show StableHlo.after hostOps0 (W0 m ρ c) (Proc.devRef .tc main_v1) = _
  generalize W0 m ρ c = V at h0 ⊢
  after_results_simp
  rw [h0]
  all_goals rfl

theorem k1_v3 (c : Dev nD) : W1 m ρ c (Proc.devRef .tc main_v3) = Cert.Gcn.edgeRow1 (m ((c : Thread nD τ).loc main_arg1)) := by
  have h0 := k0_arg1 m ρ c
  show StableHlo.after hostOps0 (W0 m ρ c) (Proc.devRef .tc main_v3) = _
  generalize W0 m ρ c = V at h0 ⊢
  after_results_simp
  rw [h0]
  all_goals rfl

theorem k1_v5 (c : Dev nD) : W1 m ρ c (Proc.devRef .tc main_v5) = Cert.Gcn.sources (m ((c : Thread nD τ).loc main_arg1)) := by
  have h0 := k0_arg1 m ρ c
  show StableHlo.after hostOps0 (W0 m ρ c) (Proc.devRef .tc main_v5) = _
  generalize W0 m ρ c = V at h0 ⊢
  after_results
  rw [h0]
  all_goals rfl

theorem k1_v6 (c : Dev nD) : W1 m ρ c (Proc.devRef .tc main_v6) = Cert.Gcn.targets (m ((c : Thread nD τ).loc main_arg1)) := by
  have h0 := k0_arg1 m ρ c
  show StableHlo.after hostOps0 (W0 m ρ c) (Proc.devRef .tc main_v6) = _
  generalize W0 m ρ c = V at h0 ⊢
  after_results
  rw [h0]
  all_goals rfl

theorem k1_arg0 (c : Dev nD) : W1 m ρ c (Proc.devRef .tc main_arg0) = (m ((c : Thread nD τ).loc main_arg0)) :=
  (show StableHlo.after hostOps0 (W0 m ρ c) (Proc.devRef .tc main_arg0) = W0 m ρ c (Proc.devRef .tc main_arg0) from by untouched hostOps0).trans (k0_arg0 m ρ c)

theorem k1_arg2 (c : Dev nD) : W1 m ρ c (Proc.devRef .tc main_arg2) = (m ((c : Thread nD τ).loc main_arg2)) :=
  (show StableHlo.after hostOps0 (W0 m ρ c) (Proc.devRef .tc main_arg2) = W0 m ρ c (Proc.devRef .tc main_arg2) from by untouched hostOps0).trans (k0_arg2 m ρ c)

theorem k1_arg3 (c : Dev nD) : W1 m ρ c (Proc.devRef .tc main_arg3) = (m ((c : Thread nD τ).loc main_arg3)) :=
  (show StableHlo.after hostOps0 (W0 m ρ c) (Proc.devRef .tc main_arg3) = W0 m ρ c (Proc.devRef .tc main_arg3) from by untouched hostOps0).trans (k0_arg3 m ρ c)

theorem k1_arg4 (c : Dev nD) : W1 m ρ c (Proc.devRef .tc main_arg4) = (m ((c : Thread nD τ).loc main_arg4)) :=
  (show StableHlo.after hostOps0 (W0 m ρ c) (Proc.devRef .tc main_arg4) = W0 m ρ c (Proc.devRef .tc main_arg4) from by untouched hostOps0).trans (k0_arg4 m ρ c)

theorem k1_arg5 (c : Dev nD) : W1 m ρ c (Proc.devRef .tc main_arg5) = (m ((c : Thread nD τ).loc main_arg5)) :=
  (show StableHlo.after hostOps0 (W0 m ρ c) (Proc.devRef .tc main_arg5) = W0 m ρ c (Proc.devRef .tc main_arg5) from by untouched hostOps0).trans (k0_arg5 m ρ c)

theorem k2_v7 (c : Dev nD) : W2 m ρ c (Proc.devRef .tc main_v7) = Dense1.product (m ((c : Thread nD τ).loc main_arg0)) (m ((c : Thread nD τ).loc main_arg2)) := by
  refine (W2_arr m ρ c 2).trans ?_
  exact (Dense1.array_eq (V1 m ρ) c).trans (congrArg₂ (Dense1.product) (k1_arg0 m ρ c) (k1_arg2 m ρ c))

theorem k2_v1 (c : Dev nD) : W2 m ρ c (Proc.devRef .tc main_v1) = Cert.Gcn.edgeRow0 (m ((c : Thread nD τ).loc main_arg1)) :=
  (W2_of_ne m ρ c main_v1 (by decide)).trans (k1_v1 m ρ c)

theorem k2_v3 (c : Dev nD) : W2 m ρ c (Proc.devRef .tc main_v3) = Cert.Gcn.edgeRow1 (m ((c : Thread nD τ).loc main_arg1)) :=
  (W2_of_ne m ρ c main_v3 (by decide)).trans (k1_v3 m ρ c)

theorem k2_v5 (c : Dev nD) : W2 m ρ c (Proc.devRef .tc main_v5) = Cert.Gcn.sources (m ((c : Thread nD τ).loc main_arg1)) :=
  (W2_of_ne m ρ c main_v5 (by decide)).trans (k1_v5 m ρ c)

theorem k2_v6 (c : Dev nD) : W2 m ρ c (Proc.devRef .tc main_v6) = Cert.Gcn.targets (m ((c : Thread nD τ).loc main_arg1)) :=
  (W2_of_ne m ρ c main_v6 (by decide)).trans (k1_v6 m ρ c)

theorem k2_arg3 (c : Dev nD) : W2 m ρ c (Proc.devRef .tc main_arg3) = (m ((c : Thread nD τ).loc main_arg3)) :=
  (W2_of_ne m ρ c main_arg3 (by decide)).trans (k1_arg3 m ρ c)

theorem k2_arg4 (c : Dev nD) : W2 m ρ c (Proc.devRef .tc main_arg4) = (m ((c : Thread nD τ).loc main_arg4)) :=
  (W2_of_ne m ρ c main_arg4 (by decide)).trans (k1_arg4 m ρ c)

theorem k2_arg5 (c : Dev nD) : W2 m ρ c (Proc.devRef .tc main_arg5) = (m ((c : Thread nD τ).loc main_arg5)) :=
  (W2_of_ne m ρ c main_arg5 (by decide)).trans (k1_arg5 m ρ c)

theorem k3_v13 (c : Dev nD) : W3 m ρ c (Proc.devRef .tc main_v13) = Cert.Gcn.positive (F := Ideal) (Cert.Gcn.targets (m ((c : Thread nD τ).loc main_arg1))) := by
  have h0 := k2_v6 m ρ c
  show StableHlo.after hostOps1 (W2 m ρ c) (Proc.devRef .tc main_v13) = _
  generalize W2 m ρ c = V at h0 ⊢
  after_results_simp
  rw [h0]
  all_goals rfl

theorem k3_v14 (c : Dev nD) : W3 m ρ c (Proc.devRef .tc main_v14) = Host.rsqrt (F := Ideal) (Cert.Gcn.degree (F := Ideal) (Cert.Gcn.targets (m ((c : Thread nD τ).loc main_arg1)))) := by
  have h0 := k2_v6 m ρ c
  show StableHlo.after hostOps1 (W2 m ρ c) (Proc.devRef .tc main_v14) = _
  generalize W2 m ρ c = V at h0 ⊢
  after_results_simp
  rw [h0]
  all_goals rfl

theorem k3_cst_2 (c : Dev nD) : W3 m ρ c (Proc.devRef .tc main_cst_2) = (constant (F := Ideal) S_ .f32 0x00000000#32) := by
  show StableHlo.after hostOps1 (W2 m ρ c) (Proc.devRef .tc main_cst_2) = _
  generalize W2 m ρ c = V
  after_results_simp
  all_goals rfl

theorem k3_v1 (c : Dev nD) : W3 m ρ c (Proc.devRef .tc main_v1) = Cert.Gcn.edgeRow0 (m ((c : Thread nD τ).loc main_arg1)) :=
  (show StableHlo.after hostOps1 (W2 m ρ c) (Proc.devRef .tc main_v1) = W2 m ρ c (Proc.devRef .tc main_v1) from by untouched hostOps1).trans (k2_v1 m ρ c)

theorem k3_v3 (c : Dev nD) : W3 m ρ c (Proc.devRef .tc main_v3) = Cert.Gcn.edgeRow1 (m ((c : Thread nD τ).loc main_arg1)) :=
  (show StableHlo.after hostOps1 (W2 m ρ c) (Proc.devRef .tc main_v3) = W2 m ρ c (Proc.devRef .tc main_v3) from by untouched hostOps1).trans (k2_v3 m ρ c)

theorem k3_v5 (c : Dev nD) : W3 m ρ c (Proc.devRef .tc main_v5) = Cert.Gcn.sources (m ((c : Thread nD τ).loc main_arg1)) :=
  (show StableHlo.after hostOps1 (W2 m ρ c) (Proc.devRef .tc main_v5) = W2 m ρ c (Proc.devRef .tc main_v5) from by untouched hostOps1).trans (k2_v5 m ρ c)

theorem k3_v6 (c : Dev nD) : W3 m ρ c (Proc.devRef .tc main_v6) = Cert.Gcn.targets (m ((c : Thread nD τ).loc main_arg1)) :=
  (show StableHlo.after hostOps1 (W2 m ρ c) (Proc.devRef .tc main_v6) = W2 m ρ c (Proc.devRef .tc main_v6) from by untouched hostOps1).trans (k2_v6 m ρ c)

theorem k3_v7 (c : Dev nD) : W3 m ρ c (Proc.devRef .tc main_v7) = Dense1.product (m ((c : Thread nD τ).loc main_arg0)) (m ((c : Thread nD τ).loc main_arg2)) :=
  (show StableHlo.after hostOps1 (W2 m ρ c) (Proc.devRef .tc main_v7) = W2 m ρ c (Proc.devRef .tc main_v7) from by untouched hostOps1).trans (k2_v7 m ρ c)

theorem k3_arg3 (c : Dev nD) : W3 m ρ c (Proc.devRef .tc main_arg3) = (m ((c : Thread nD τ).loc main_arg3)) :=
  (show StableHlo.after hostOps1 (W2 m ρ c) (Proc.devRef .tc main_arg3) = W2 m ρ c (Proc.devRef .tc main_arg3) from by untouched hostOps1).trans (k2_arg3 m ρ c)

theorem k3_arg4 (c : Dev nD) : W3 m ρ c (Proc.devRef .tc main_arg4) = (m ((c : Thread nD τ).loc main_arg4)) :=
  (show StableHlo.after hostOps1 (W2 m ρ c) (Proc.devRef .tc main_arg4) = W2 m ρ c (Proc.devRef .tc main_arg4) from by untouched hostOps1).trans (k2_arg4 m ρ c)

theorem k3_arg5 (c : Dev nD) : W3 m ρ c (Proc.devRef .tc main_arg5) = (m ((c : Thread nD τ).loc main_arg5)) :=
  (show StableHlo.after hostOps1 (W2 m ρ c) (Proc.devRef .tc main_arg5) = W2 m ρ c (Proc.devRef .tc main_arg5) from by untouched hostOps1).trans (k2_arg5 m ρ c)

theorem k4_v15 (c : Dev nD) : W4 m ρ c (Proc.devRef .tc main_v15) = Cert.Gcn.invSqrtDegree (F := Ideal) (Cert.Gcn.targets (m ((c : Thread nD τ).loc main_arg1))) := by
  have h0 := k3_v13 m ρ c
  have h1 := k3_v14 m ρ c
  have h2 := k3_cst_2 m ρ c
  show StableHlo.after hostOps1_1 (W3 m ρ c) (Proc.devRef .tc main_v15) = _
  generalize W3 m ρ c = V at h0 h1 h2 ⊢
  after_results_simp
  simp only [StableHlo.TRef.toBuf, StableHlo.TRef.ofBuf, cast_eq]
  rw [h0, h1, h2]
  all_goals rfl

theorem k4_v1 (c : Dev nD) : W4 m ρ c (Proc.devRef .tc main_v1) = Cert.Gcn.edgeRow0 (m ((c : Thread nD τ).loc main_arg1)) :=
  (show StableHlo.after hostOps1_1 (W3 m ρ c) (Proc.devRef .tc main_v1) = W3 m ρ c (Proc.devRef .tc main_v1) from by untouched hostOps1_1).trans (k3_v1 m ρ c)

theorem k4_v3 (c : Dev nD) : W4 m ρ c (Proc.devRef .tc main_v3) = Cert.Gcn.edgeRow1 (m ((c : Thread nD τ).loc main_arg1)) :=
  (show StableHlo.after hostOps1_1 (W3 m ρ c) (Proc.devRef .tc main_v3) = W3 m ρ c (Proc.devRef .tc main_v3) from by untouched hostOps1_1).trans (k3_v3 m ρ c)

theorem k4_v5 (c : Dev nD) : W4 m ρ c (Proc.devRef .tc main_v5) = Cert.Gcn.sources (m ((c : Thread nD τ).loc main_arg1)) :=
  (show StableHlo.after hostOps1_1 (W3 m ρ c) (Proc.devRef .tc main_v5) = W3 m ρ c (Proc.devRef .tc main_v5) from by untouched hostOps1_1).trans (k3_v5 m ρ c)

theorem k4_v6 (c : Dev nD) : W4 m ρ c (Proc.devRef .tc main_v6) = Cert.Gcn.targets (m ((c : Thread nD τ).loc main_arg1)) :=
  (show StableHlo.after hostOps1_1 (W3 m ρ c) (Proc.devRef .tc main_v6) = W3 m ρ c (Proc.devRef .tc main_v6) from by untouched hostOps1_1).trans (k3_v6 m ρ c)

theorem k4_v7 (c : Dev nD) : W4 m ρ c (Proc.devRef .tc main_v7) = Dense1.product (m ((c : Thread nD τ).loc main_arg0)) (m ((c : Thread nD τ).loc main_arg2)) :=
  (show StableHlo.after hostOps1_1 (W3 m ρ c) (Proc.devRef .tc main_v7) = W3 m ρ c (Proc.devRef .tc main_v7) from by untouched hostOps1_1).trans (k3_v7 m ρ c)

theorem k4_arg3 (c : Dev nD) : W4 m ρ c (Proc.devRef .tc main_arg3) = (m ((c : Thread nD τ).loc main_arg3)) :=
  (show StableHlo.after hostOps1_1 (W3 m ρ c) (Proc.devRef .tc main_arg3) = W3 m ρ c (Proc.devRef .tc main_arg3) from by untouched hostOps1_1).trans (k3_arg3 m ρ c)

theorem k4_arg4 (c : Dev nD) : W4 m ρ c (Proc.devRef .tc main_arg4) = (m ((c : Thread nD τ).loc main_arg4)) :=
  (show StableHlo.after hostOps1_1 (W3 m ρ c) (Proc.devRef .tc main_arg4) = W3 m ρ c (Proc.devRef .tc main_arg4) from by untouched hostOps1_1).trans (k3_arg4 m ρ c)

theorem k4_arg5 (c : Dev nD) : W4 m ρ c (Proc.devRef .tc main_arg5) = (m ((c : Thread nD τ).loc main_arg5)) :=
  (show StableHlo.after hostOps1_1 (W3 m ρ c) (Proc.devRef .tc main_arg5) = W3 m ρ c (Proc.devRef .tc main_arg5) from by untouched hostOps1_1).trans (k3_arg5 m ρ c)

theorem k5_v37 (c : Dev nD) : W5 m ρ c (Proc.devRef .tc main_v37) = Host.gather gather_S100000x32_S1700000x1_S1700000x32_1_0_n_n_0_1_132 (Dense1.product (m ((c : Thread nD τ).loc main_arg0)) (m ((c : Thread nD τ).loc main_arg2))) (Cert.Gcn.wrapped (Cert.Gcn.sources (m ((c : Thread nD τ).loc main_arg1)))) := by
  have h0 := k4_v7 m ρ c
  have h1 := k4_v5 m ρ c
  show StableHlo.after hostOps1_2 (W4 m ρ c) (Proc.devRef .tc main_v37) = _
  generalize W4 m ρ c = V at h0 h1 ⊢
  after_results_simp
  rw [h0, h1]
  all_goals rfl

theorem k5_v38 (c : Dev nD) : W5 m ρ c (Proc.devRef .tc main_v38) = shapeCast S1700000x1 (Cert.Gcn.coefficient (F := Ideal) (Cert.Gcn.sources (m ((c : Thread nD τ).loc main_arg1))) (Cert.Gcn.targets (m ((c : Thread nD τ).loc main_arg1)))) Facts₀.shapeCasts_S1700000_S1700000x1 := by
  have h0 := k4_v5 m ρ c
  have h1 := k4_v6 m ρ c
  have h2 := k4_v15 m ρ c
  show StableHlo.after hostOps1_2 (W4 m ρ c) (Proc.devRef .tc main_v38) = _
  generalize W4 m ρ c = V at h0 h1 h2 ⊢
  after_results_simp
  rw [h0, h1, h2]
  all_goals rfl

theorem k5_v1 (c : Dev nD) : W5 m ρ c (Proc.devRef .tc main_v1) = Cert.Gcn.edgeRow0 (m ((c : Thread nD τ).loc main_arg1)) :=
  (show StableHlo.after hostOps1_2 (W4 m ρ c) (Proc.devRef .tc main_v1) = W4 m ρ c (Proc.devRef .tc main_v1) from by untouched hostOps1_2).trans (k4_v1 m ρ c)

theorem k5_v3 (c : Dev nD) : W5 m ρ c (Proc.devRef .tc main_v3) = Cert.Gcn.edgeRow1 (m ((c : Thread nD τ).loc main_arg1)) :=
  (show StableHlo.after hostOps1_2 (W4 m ρ c) (Proc.devRef .tc main_v3) = W4 m ρ c (Proc.devRef .tc main_v3) from by untouched hostOps1_2).trans (k4_v3 m ρ c)

theorem k5_v6 (c : Dev nD) : W5 m ρ c (Proc.devRef .tc main_v6) = Cert.Gcn.targets (m ((c : Thread nD τ).loc main_arg1)) :=
  (show StableHlo.after hostOps1_2 (W4 m ρ c) (Proc.devRef .tc main_v6) = W4 m ρ c (Proc.devRef .tc main_v6) from by untouched hostOps1_2).trans (k4_v6 m ρ c)

theorem k5_arg3 (c : Dev nD) : W5 m ρ c (Proc.devRef .tc main_arg3) = (m ((c : Thread nD τ).loc main_arg3)) :=
  (show StableHlo.after hostOps1_2 (W4 m ρ c) (Proc.devRef .tc main_arg3) = W4 m ρ c (Proc.devRef .tc main_arg3) from by untouched hostOps1_2).trans (k4_arg3 m ρ c)

theorem k5_arg4 (c : Dev nD) : W5 m ρ c (Proc.devRef .tc main_arg4) = (m ((c : Thread nD τ).loc main_arg4)) :=
  (show StableHlo.after hostOps1_2 (W4 m ρ c) (Proc.devRef .tc main_arg4) = W4 m ρ c (Proc.devRef .tc main_arg4) from by untouched hostOps1_2).trans (k4_arg4 m ρ c)

theorem k5_arg5 (c : Dev nD) : W5 m ρ c (Proc.devRef .tc main_arg5) = (m ((c : Thread nD τ).loc main_arg5)) :=
  (show StableHlo.after hostOps1_2 (W4 m ρ c) (Proc.devRef .tc main_arg5) = W4 m ρ c (Proc.devRef .tc main_arg5) from by untouched hostOps1_2).trans (k4_arg5 m ρ c)

end Cert.KernelIdeal.KernelValue

end
-- ==== Proof.EdgeScale1.lean ====
/-
  Region 1 multiplies, edge by edge, a row of gathered node features by that edge's normalisation coefficient.
  The grid walks the 1 700 000 edges in 425 blocks of 4000 rows; block `t` of the output is rows
  `4000·t … 4000·t + 3999`, and inside a block the body reads the coefficient column `[4000, 1]`, spreads it over the
  32 feature lanes and multiplies. So entry `(e, j)` of the whole output array is `coef (e, 0) · feat (e, j)`,
  whatever the block it falls in: one function of the two input arrays, which the blocks tile.
-/
import proofs.«114408_j70360154243503_2_alg».proof.Proof.Gen.KernelIdeal.Frame
import Idealize.ShloMosaic.Lib.Pipeline.Value
import Idealize.ShloMosaic.Lib.ValueIdx

set_option maxRecDepth 16384

noncomputable section

namespace Cert.KernelIdeal.EdgeScale1

open Cert.KernelIdeal Cert.KernelIdeal.Gen
open Idealize.ShloMosaic Idealize.ShloMosaic.TcCoe Idealize.SL.Sem
open Idealize.ShloMosaic.Pipeline (Dat)

variable {F : FTy → Type} [FloatOps F]

theorem origin2 : (![0, 0] : Fin 2 → Nat) = fun _ => 0 := funext fun a => by fin_cases a <;> rfl

/-- Edge messages: entry `(e, j)` is the edge's coefficient `coef (e, 0)` times the gathered feature `feat (e, j)`. -/
def scaled (coef : S1700000x1.Idx → Elt F .f32) (feat : S1700000x32.Idx → Elt F .f32) : S1700000x32.Idx → Elt F .f32 :=
  fun i => FloatOps.mulf (coef (ValueIdx.ix2 (i 0) (0 : Fin 1))) (feat i)

/-- The body's arithmetic at one entry of a block: the block's coefficient column at the entry's row, times the
    block's feature entry (the two same-shape casts are the identity, the spread over lanes reads column 0). -/
theorem body_apply (x0 : Vec F S4000x1 .f32) (x1 : Vec F S4000x32 .f32) (j : S4000x32.Idx) :
    k1_pay1 x0 x1 j = FloatOps.mulf (x0 (ValueIdx.ix2 (j 0) (0 : Fin 1))) (x1 j) := by
  unfold k1_pay1
  show FloatOps.mulf (broadcastTo S4000x32 (shapeCast S4000x1 x0 shapeCasts_S4000x1_S4000x1) broadcasts_S4000x1_S4000x32 j)
      (shapeCast S4000x32 x1 shapeCasts_S4000x32_S4000x32 j) = _
  rw [shapeCast_self, shapeCast_self,
    broadcastTo_apply x0 broadcasts_S4000x1_S4000x32 j (ValueIdx.ix2 (j 0) (0 : Fin 1)) (fun a => by
      match a with
      | ⟨0, _⟩ => rfl
      | ⟨1, _⟩ => rfl)]

/-- The three windows move together: block `t` is block-row `t`, block-column 0, of each array. -/
theorem block_index : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

section
variable (V : (c : Dev nD) → (b : Ref sig .tc) → Buf (Elt F) ((c : Thread nD τ).loc b))

/-- What grid point `t` writes back is block `t` of the edge messages of the two input arrays as the region finds them. -/
theorem written_block (c : Dev nD) (t : Fin cfg1.N) :
    (dat1 V c).flushed 2 t = ((cfg1.win 2).blk t).view.read (Elt F) (scaled (V c main_v38) (V c main_v37)) := by
  show (cfg1.win 2).cut (grid1.coords t) ((dat1 V c).after 2 t) = _
  rw [after1_2]
  unfold out1_2
  rw [View.canon_unit_zero origin2]
  simp only [View.ld_unit_zero (S := S4000x1) origin2, View.ld_unit_zero (S := S4000x32) origin2]
  obtain ⟨e0, e1, e2, e3, e4, e5⟩ := block_index t
  funext j
  refine (body_apply (iblk1 V c 0 t) (iblk1 V c 1 t) j).trans ?_
  show FloatOps.mulf (V c main_v38 (((cfg1.win 0).blk t).view.emb (ValueIdx.ix2 (j 0) (0 : Fin 1))))
      (V c main_v37 (((cfg1.win 1).blk t).view.emb j))
    = FloatOps.mulf (V c main_v38 (ValueIdx.ix2 ((((cfg1.win 2).blk t).view.emb j) 0) (0 : Fin 1)))
      (V c main_v37 (((cfg1.win 2).blk t).view.emb j))
  have h0 : ((cfg1.win 0).blk t).view.emb (ValueIdx.ix2 (j 0) (0 : Fin 1))
      = ValueIdx.ix2 ((((cfg1.win 2).blk t).view.emb j) 0) (0 : Fin 1) := by
    funext a; apply Fin.ext
    match a with
    | ⟨0, _⟩ => show win1_0.index t (0 : Fin 2) * 4000 + 1 * (j 0).val = win1_2.index t (0 : Fin 2) * 4000 + 1 * (j 0).val; omega
    | ⟨1, _⟩ => show win1_0.index t (1 : Fin 2) * 1 + 1 * 0 = 0; omega
  have h1 : ((cfg1.win 1).blk t).view.emb j = ((cfg1.win 2).blk t).view.emb j := by
    funext a; apply Fin.ext
    match a with
    | ⟨0, _⟩ => show win1_1.index t (0 : Fin 2) * 4000 + 1 * (j 0).val = win1_2.index t (0 : Fin 2) * 4000 + 1 * (j 0).val; omega
    | ⟨1, _⟩ => show win1_1.index t (1 : Fin 2) * 32 + 1 * (j 1).val = win1_2.index t (1 : Fin 2) * 32 + 1 * (j 1).val; omega
  exact congrArg₂ FloatOps.mulf (congrArg (V c main_v38) h0) (congrArg (V c main_v37) h1)

/-- An entry of the output array lies in point `t`'s block iff each coordinate lies in the block's range on its axis. -/
theorem mem_block (t : Fin cfg1.N) (i : S1700000x32.Idx) :
    i ∈ ((cfg1.win 2).blk t).view.set ↔ ∀ a : Fin 2, win1_2.index t a * S4000x32.size a ≤ (i a).val
      ∧ (i a).val < win1_2.index t a * S4000x32.size a + S4000x32.size a := by
  show i ∈ ((View.whole main_v39).slice (win1_2.rect t)).set ↔ _
  rw [View.set_slice_whole, Rect.mem_set_unit]
  exact Iff.rfl

/-- The 425 blocks tile the output: edge `e` is in block `e / 4000`. -/
theorem tiled (i : S1700000x32.Idx) : ∃ t : Fin cfg1.N, (cfg1.win 2).flush t = true ∧ i ∈ ((cfg1.win 2).blk t).view.set := by
  have hi0 : (i 0).val < 1700000 := (i 0).isLt
  have hi1 : (i 1).val < 32 := (i 1).isLt
  have hN : grid1.N = 425 := N_1
  have ht : (i 0).val / 4000 < cfg1.N := by show (i 0).val / 4000 < grid1.N; rw [hN]; omega
  obtain ⟨e0, e1, e2, e3, e4, e5⟩ := block_index ⟨(i 0).val / 4000, ht⟩
  refine ⟨⟨(i 0).val / 4000, ht⟩, flush1_2 _, ?_⟩
  rw [mem_block]
  intro a
  match a with
  | ⟨0, _⟩ =>
    show win1_2.index ⟨(i 0).val / 4000, ht⟩ (0 : Fin 2) * 4000 ≤ (i 0).val
      ∧ (i 0).val < win1_2.index ⟨(i 0).val / 4000, ht⟩ (0 : Fin 2) * 4000 + 4000
    rw [e4]; show (i 0).val / 4000 * 4000 ≤ (i 0).val ∧ (i 0).val < (i 0).val / 4000 * 4000 + 4000; omega
  | ⟨1, _⟩ =>
    show win1_2.index ⟨(i 0).val / 4000, ht⟩ (1 : Fin 2) * 32 ≤ (i 1).val
      ∧ (i 1).val < win1_2.index ⟨(i 0).val / 4000, ht⟩ (1 : Fin 2) * 32 + 32
    rw [e5]; omega

/-- After the region its output array holds the edge messages of the two input arrays as the region found them. -/
theorem array_eq (c : Dev nD) : (dat1 V c).arrAt 2 cfg1.N = scaled (V c main_v38) (V c main_v37) :=
  (dat1 V c).arrAt_eq_of_cover 2 _ (fun t _ => written_block V c t) tiled

end

end Cert.KernelIdeal.EdgeScale1

end
-- ==== Proof.BiasRelu.lean ====
/-
  Region 2 adds the bias row to every node's aggregated features and clamps the sum at zero from below.
  The grid walks the 100 000 nodes in 20 blocks of 5000 rows; every point sees the same `[1, 32]` bias block. Inside a
  block the body spreads the bias row over the 5000 rows and adds, then takes the maximum with 0. So entry `(n, j)` of the
  whole output array is `max (x (n, j) + b (0, j)) 0`: one function of the two input arrays, which the blocks tile.
-/
import proofs.«114408_j70360154243503_2_alg».proof.Proof.Gen.KernelIdeal.Frame
import Idealize.ShloMosaic.Lib.Pipeline.Value
import Idealize.ShloMosaic.Lib.ValueIdx

set_option maxRecDepth 16384

noncomputable section

namespace Cert.KernelIdeal.BiasRelu

open Cert.KernelIdeal Cert.KernelIdeal.Gen
open Idealize.ShloMosaic Idealize.ShloMosaic.TcCoe Idealize.SL.Sem
open Idealize.ShloMosaic.Pipeline (Dat)

variable {F : FTy → Type} [FloatOps F]

theorem origin2 : (![0, 0] : Fin 2 → Nat) = fun _ => 0 := funext fun a => by fin_cases a <;> rfl

/-- Entry `(n, j)`: node `n`'s aggregated feature `j` plus bias `j`, clamped at zero from below. -/
def biased (x : S100000x32.Idx → Elt F .f32) (b : S1x32.Idx → Elt F .f32) : S100000x32.Idx → Elt F .f32 :=
  fun i => FloatOps.maximumf (FloatOps.addf (x i) (b (ValueIdx.ix2 (0 : Fin 1) (i 1)))) (Scalar.ofBits .f32 0x00000000#32)

/-- The body's arithmetic at one entry of a block (the same-shape casts are the identity, the spread over rows reads row 0). -/
theorem body_apply (x0 : Vec F S5000x32 .f32) (x1 : Vec F S1x32 .f32) (j : S5000x32.Idx) :
    k2_pay1 x0 x1 j = FloatOps.maximumf (FloatOps.addf (x0 j) (x1 (ValueIdx.ix2 (0 : Fin 1) (j 1)))) (Scalar.ofBits .f32 0x00000000#32) := by
  unfold k2_pay1
  show FloatOps.maximumf (FloatOps.addf (shapeCast S5000x32 x0 shapeCasts_S5000x32_S5000x32 j)
        (broadcastTo S5000x32 (shapeCast S1x32 x1 shapeCasts_S1x32_S1x32) broadcasts_S1x32_S5000x32 j)) (Scalar.ofBits .f32 0x00000000#32) = _
  rw [shapeCast_self, shapeCast_self,
    broadcastTo_apply x1 broadcasts_S1x32_S5000x32 j (ValueIdx.ix2 (0 : Fin 1) (j 1)) (fun a => by
      match a with
      | ⟨0, _⟩ => rfl
      | ⟨1, _⟩ => rfl)]

/-- Input and output walk the node blocks together; the bias window stays at its one block. -/
theorem block_index : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

section
variable (V : (c : Dev nD) → (b : Ref sig .tc) → Buf (Elt F) ((c : Thread nD τ).loc b))

/-- What grid point `t` writes back is block `t` of the biased features of the two input arrays as the region finds them. -/
theorem written_block (c : Dev nD) (t : Fin cfg2.N) :
    (dat2 V c).flushed 2 t = ((cfg2.win 2).blk t).view.read (Elt F) (biased (V c main_v42) (V c main_v43)) := by
  show (cfg2.win 2).cut (grid2.coords t) ((dat2 V c).after 2 t) = _
  rw [after2_2]
  unfold out2_2
  rw [View.canon_unit_zero origin2]
  simp only [View.ld_unit_zero (S := S5000x32) origin2, View.ld_unit_zero (S := S1x32) origin2]
  obtain ⟨e0, e1, e2, e3, e4, e5⟩ := block_index t
  funext j
  refine (body_apply (iblk2 V c 0 t) (iblk2 V c 1 t) j).trans ?_
  show FloatOps.maximumf (FloatOps.addf (V c main_v42 (((cfg2.win 0).blk t).view.emb j))
      (V c main_v43 (((cfg2.win 1).blk t).view.emb (ValueIdx.ix2 (0 : Fin 1) (j 1))))) (Scalar.ofBits .f32 0x00000000#32)
    = FloatOps.maximumf (FloatOps.addf (V c main_v42 (((cfg2.win 2).blk t).view.emb j))
      (V c main_v43 (ValueIdx.ix2 (0 : Fin 1) ((((cfg2.win 2).blk t).view.emb j) 1)))) (Scalar.ofBits .f32 0x00000000#32)
  have h0 : ((cfg2.win 0).blk t).view.emb j = ((cfg2.win 2).blk t).view.emb j := by
    funext a; apply Fin.ext
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 32 + 1 * (j 1).val = win2_2.index t (1 : Fin 2) * 32 + 1 * (j 1).val; omega
  have h1 : ((cfg2.win 1).blk t).view.emb (ValueIdx.ix2 (0 : Fin 1) (j 1))
      = ValueIdx.ix2 (0 : Fin 1) ((((cfg2.win 2).blk t).view.emb j) 1) := by
    funext a; apply Fin.ext
    match a with
    | ⟨0, _⟩ => show win2_1.index t (0 : Fin 2) * 1 + 1 * 0 = 0; omega
    | ⟨1, _⟩ => show win2_1.index t (1 : Fin 2) * 32 + 1 * (j 1).val = win2_2.index t (1 : Fin 2) * 32 + 1 * (j 1).val; omega
  exact congrArg₂ FloatOps.maximumf (congrArg₂ FloatOps.addf (congrArg (V c main_v42) h0) (congrArg (V c main_v43) h1)) rfl

/-- An entry of the output array lies in point `t`'s block iff each coordinate lies in the block's range on its axis. -/
theorem mem_block (t : Fin cfg2.N) (i : S100000x32.Idx) :
    i ∈ ((cfg2.win 2).blk t).view.set ↔ ∀ a : Fin 2, win2_2.index t a * S5000x32.size a ≤ (i a).val
      ∧ (i a).val < win2_2.index t a * S5000x32.size a + S5000x32.size a := by
  show i ∈ ((View.whole main_v44).slice (win2_2.rect t)).set ↔ _
  rw [View.set_slice_whole, Rect.mem_set_unit]
  exact Iff.rfl

/-- The 20 blocks tile the output: node `n` is in block `n / 5000`. -/
theorem tiled (i : S100000x32.Idx) : ∃ t : Fin cfg2.N, (cfg2.win 2).flush t = true ∧ i ∈ ((cfg2.win 2).blk t).view.set := by
  have hi0 : (i 0).val < 100000 := (i 0).isLt
  have hi1 : (i 1).val < 32 := (i 1).isLt
  have hN : grid2.N = 20 := N_2
  have ht : (i 0).val / 5000 < cfg2.N := by show (i 0).val / 5000 < grid2.N; rw [hN]; omega
  obtain ⟨e0, e1, e2, e3, e4, e5⟩ := block_index ⟨(i 0).val / 5000, ht⟩
  refine ⟨⟨(i 0).val / 5000, ht⟩, flush2_2 _, ?_⟩
  rw [mem_block]
  intro a
  match a with
  | ⟨0, _⟩ =>
    show win2_2.index ⟨(i 0).val / 5000, ht⟩ (0 : Fin 2) * 5000 ≤ (i 0).val
      ∧ (i 0).val < win2_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win2_2.index ⟨(i 0).val / 5000, ht⟩ (1 : Fin 2) * 32 ≤ (i 1).val
      ∧ (i 1).val < win2_2.index ⟨(i 0).val / 5000, ht⟩ (1 : Fin 2) * 32 + 32
    rw [e5]; omega

/-- After the region its output array holds the biased features of the two input arrays as the region found them. -/
theorem array_eq (c : Dev nD) : (dat2 V c).arrAt 2 cfg2.N = biased (V c main_v42) (V c main_v43) :=
  (dat2 V c).arrAt_eq_of_cover 2 _ (fun t _ => written_block V c t) tiled

end

end Cert.KernelIdeal.BiasRelu

end
-- ==== Proof.Dense2.lean ====
/-
  Region 3 is the dense product of the node features with a weight matrix, 5000 rows at a time: the grid walks the
  100 000 nodes in 20 blocks, every point sees the whole `[32, 16]` weight block, and the body multiplies its
  `[5000, 32]` block by it into a zero accumulator (the narrowing to bf16 before the product changes nothing over the
  extended reals). Row `r` of a block is row `5000·t + r` of the array, so entry `(n, j)` of the whole output is
  `∑ k, a (n, k) · w (k, j)`: one function of the two input arrays, which the blocks tile.
-/
import proofs.«114408_j70360154243503_2_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Dense2

open Cert.KernelIdeal Cert.KernelIdeal.Gen
open Idealize.ShloMosaic Idealize.ShloMosaic.TcCoe Idealize.SL.Sem
open Idealize.ShloMosaic.Pipeline (Dat)

theorem origin2 : (![0, 0] : Fin 2 → Nat) = fun _ => 0 := funext fun a => by fin_cases a <;> rfl

/-- The matrix product: entry `(n, j)` is the sum over `k` of `a (n, k) · w (k, j)`. -/
def product (a : S100000x32.Idx → EReal) (w : S32x16.Idx → EReal) : S100000x16.Idx → EReal :=
  fun i => ∑ k : Fin 32, a (ValueIdx.ix2 (i 0) k) * w (ValueIdx.ix2 k (i 1))

theorem product_apply (a : S100000x32.Idx → EReal) (w : S32x16.Idx → EReal) (i : S100000x16.Idx) :
    product a w i = ∑ k : Fin 32, a (ValueIdx.ix2 (i 0) k) * w (ValueIdx.ix2 k (i 1)) := rfl

/-- A product of two entries only depends on where the entries are read. -/
theorem term_congr (a : S100000x32.Idx → EReal) (w : S32x16.Idx → EReal) {p p' : S100000x32.Idx} {q q' : S32x16.Idx}
    (hp : p = p') (hq : q = q') : a p * w q = a p' * w q' := by rw [hp, hq]

/-! The block product's operand indices at output entry `i` and contraction index `q`: `(i 0, q)` and `(q, i 1)`. -/
theorem lhs_row (i : S5000x16.Idx) (q : dot_S5000x32_S32x16_S5000x16_1_0_0_1_n_n.contr.Idx) : (dot_S5000x32_S32x16_S5000x16_1_0_0_1_n_n.lhsIdx i q 0).val = (i 0).val := by
  unfold DotDims.lhsIdx
  rw [dif_neg (show ¬(0 : Fin S5000x32.rank) ∈ dot_S5000x32_S32x16_S5000x16_1_0_0_1_n_n.lhsBatch by decide), dif_pos (show (0 : Fin S5000x32.rank) ∈ dot_S5000x32_S32x16_S5000x16_1_0_0_1_n_n.lhsNonContracting by decide)]
  rfl
theorem lhs_contr (i : S5000x16.Idx) (q : dot_S5000x32_S32x16_S5000x16_1_0_0_1_n_n.contr.Idx) : (dot_S5000x32_S32x16_S5000x16_1_0_0_1_n_n.lhsIdx i q 1).val = (q ⟨0, by decide⟩).val :=
  dot_S5000x32_S32x16_S5000x16_1_0_0_1_n_n.lhsIdx_val_of_single rfl i q
theorem rhs_contr (i : S5000x16.Idx) (q : dot_S5000x32_S32x16_S5000x16_1_0_0_1_n_n.contr.Idx) : (dot_S5000x32_S32x16_S5000x16_1_0_0_1_n_n.rhsIdx i q 0).val = (q ⟨0, by decide⟩).val :=
  dot_S5000x32_S32x16_S5000x16_1_0_0_1_n_n.rhsIdx_val_of_single rfl i q
theorem rhs_col (i : S5000x16.Idx) (q : dot_S5000x32_S32x16_S5000x16_1_0_0_1_n_n.contr.Idx) : (dot_S5000x32_S32x16_S5000x16_1_0_0_1_n_n.rhsIdx i q 1).val = (i 1).val := by
  unfold DotDims.rhsIdx
  rw [dif_neg (show ¬(1 : Fin S32x16.rank) ∈ dot_S5000x32_S32x16_S5000x16_1_0_0_1_n_n.rhsBatch by decide), dif_pos (show (1 : Fin S32x16.rank) ∈ dot_S5000x32_S32x16_S5000x16_1_0_0_1_n_n.rhsNonContracting by decide)]
  rfl

/-- The body's arithmetic at one entry of a block: the product of the block's row with the weight's column. -/
theorem body_apply (x0 : FVec Ideal S5000x32 .f32) (x1 : FVec Ideal S32x16 .f32) (j : S5000x16.Idx) :
    k3_pay1 x0 x1 j = ∑ k : Fin 32, x0 (ValueIdx.ix2 (j 0) k) * x1 (ValueIdx.ix2 k (j 1)) := by
  unfold k3_pay1
  show FloatOps.matmul dot_S5000x32_S32x16_S5000x16_1_0_0_1_n_n none (truncf (F := Ideal) .bf16 (shapeCast S5000x32 x0 shapeCasts_S5000x32_S5000x32) bitsLt_bf16_f32) (truncf (F := Ideal) .bf16 x1 bitsLt_bf16_f32) (constant S5000x16 .f32 0x00000000#32) j = _
  rw [shapeCast_self, Ideal.matmul_constant_zero_apply, ← Equiv.sum_comp (ValueIdx.contrEquiv1 dot_S5000x32_S32x16_S5000x16_1_0_0_1_n_n 32 rfl rfl).symm]
  refine Finset.sum_congr rfl fun k _ => ?_
  have hk := ValueIdx.contrEquiv1_symm_val dot_S5000x32_S32x16_S5000x16_1_0_0_1_n_n 32 rfl rfl k
  have el : dot_S5000x32_S32x16_S5000x16_1_0_0_1_n_n.lhsIdx j ((ValueIdx.contrEquiv1 dot_S5000x32_S32x16_S5000x16_1_0_0_1_n_n 32 rfl rfl).symm k) = ValueIdx.ix2 (j 0) k := funext fun a => Fin.ext (by
    match a with
    | ⟨0, _⟩ => exact lhs_row _ _
    | ⟨1, _⟩ => exact (lhs_contr _ _).trans hk)
  have er : dot_S5000x32_S32x16_S5000x16_1_0_0_1_n_n.rhsIdx j ((ValueIdx.contrEquiv1 dot_S5000x32_S32x16_S5000x16_1_0_0_1_n_n 32 rfl rfl).symm k) = ValueIdx.ix2 k (j 1) := funext fun a => Fin.ext (by
    match a with
    | ⟨0, _⟩ => exact (rhs_contr _ _).trans hk
    | ⟨1, _⟩ => exact rhs_col _ _)
  show x0 (dot_S5000x32_S32x16_S5000x16_1_0_0_1_n_n.lhsIdx j ((ValueIdx.contrEquiv1 dot_S5000x32_S32x16_S5000x16_1_0_0_1_n_n 32 rfl rfl).symm k)) * x1 (dot_S5000x32_S32x16_S5000x16_1_0_0_1_n_n.rhsIdx j ((ValueIdx.contrEquiv1 dot_S5000x32_S32x16_S5000x16_1_0_0_1_n_n 32 rfl rfl).symm k)) = _
  rw [el, er] <;> rfl

/-- Input rows and output rows walk the node blocks together; the weight window stays at its one block. -/
theorem block_index : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

section
variable (V : (c : Dev nD) → (b : Ref sig .tc) → Buf (Elt Ideal) ((c : Thread nD τ).loc b))

/-- What grid point `t` writes back is block `t` of the product of the two input arrays as the region finds them. -/
theorem written_block (c : Dev nD) (t : Fin cfg3.N) :
    (dat3 V c).flushed 2 t = ((cfg3.win 2).blk t).view.read (Elt Ideal) (product (V c main_v44) (V c main_arg4)) := by
  show (cfg3.win 2).cut (grid3.coords t) ((dat3 V c).after 2 t) = _
  rw [after3_2]
  unfold out3_2
  rw [View.canon_unit_zero origin2]
  simp only [View.ld_unit_zero (S := S5000x32) origin2, View.ld_unit_zero (S := S32x16) origin2]
  obtain ⟨e0, e1, e2, e3, e4, e5⟩ := block_index t
  funext j
  refine (body_apply (iblk3 V c 0 t) (iblk3 V c 1 t) j).trans ?_
  show _ = product (V c main_v44) (V c main_arg4) (((cfg3.win 2).blk t).view.emb j)
  refine Eq.trans ?_ (product_apply (V c main_v44) (V c main_arg4) (((cfg3.win 2).blk t).view.emb j)).symm
  refine Finset.sum_congr rfl fun k _ => ?_
  have hk : k.val < 32 := k.isLt
  have h0 : ((cfg3.win 0).blk t).view.emb (ValueIdx.ix2 (j 0) k) = ValueIdx.ix2 ((((cfg3.win 2).blk t).view.emb j) 0) k := by
    funext a; apply Fin.ext
    match a with
    | ⟨0, _⟩ => show win3_0.index t (0 : Fin 2) * 5000 + 1 * (j 0).val = win3_2.index t (0 : Fin 2) * 5000 + 1 * (j 0).val; omega
    | ⟨1, _⟩ => show win3_0.index t (1 : Fin 2) * 32 + 1 * k.val = k.val; omega
  have h1 : ((cfg3.win 1).blk t).view.emb (ValueIdx.ix2 k (j 1)) = ValueIdx.ix2 k ((((cfg3.win 2).blk t).view.emb j) 1) := by
    funext a; apply Fin.ext
    match a with
    | ⟨0, _⟩ => show win3_1.index t (0 : Fin 2) * 32 + 1 * k.val = k.val; omega
    | ⟨1, _⟩ => show win3_1.index t (1 : Fin 2) * 16 + 1 * (j 1).val = win3_2.index t (1 : Fin 2) * 16 + 1 * (j 1).val; omega
  exact term_congr (V c main_v44) (V c main_arg4) h0 h1

/-- An entry of the output array lies in point `t`'s block iff each coordinate lies in the block's range on its axis. -/
theorem mem_block (t : Fin cfg3.N) (i : S100000x16.Idx) :
    i ∈ ((cfg3.win 2).blk t).view.set ↔ ∀ a : Fin 2, win3_2.index t a * S5000x16.size a ≤ (i a).val
      ∧ (i a).val < win3_2.index t a * S5000x16.size a + S5000x16.size a := by
  show i ∈ ((View.whole main_v48).slice (win3_2.rect t)).set ↔ _
  rw [View.set_slice_whole, Rect.mem_set_unit]
  exact Iff.rfl

/-- The 20 blocks tile the output: node `n` is in block `n / 5000`. -/
theorem tiled (i : S100000x16.Idx) : ∃ t : Fin cfg3.N, (cfg3.win 2).flush t = true ∧ i ∈ ((cfg3.win 2).blk t).view.set := by
  have hi0 : (i 0).val < 100000 := (i 0).isLt
  have hi1 : (i 1).val < 16 := (i 1).isLt
  have hN : grid3.N = 20 := N_3
  have ht : (i 0).val / 5000 < cfg3.N := by show (i 0).val / 5000 < grid3.N; rw [hN]; omega
  obtain ⟨e0, e1, e2, e3, e4, e5⟩ := block_index ⟨(i 0).val / 5000, ht⟩
  refine ⟨⟨(i 0).val / 5000, ht⟩, flush3_2 _, ?_⟩
  rw [mem_block]
  intro a
  match a with
  | ⟨0, _⟩ =>
    show win3_2.index ⟨(i 0).val / 5000, ht⟩ (0 : Fin 2) * 5000 ≤ (i 0).val
      ∧ (i 0).val < win3_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win3_2.index ⟨(i 0).val / 5000, ht⟩ (1 : Fin 2) * 16 ≤ (i 1).val
      ∧ (i 1).val < win3_2.index ⟨(i 0).val / 5000, ht⟩ (1 : Fin 2) * 16 + 16
    rw [e5]; omega

/-- After the region its output array holds the product of the two input arrays as the region found them. -/
theorem array_eq (c : Dev nD) : (dat3 V c).arrAt 2 cfg3.N = product (V c main_v44) (V c main_arg4) :=
  (dat3 V c).arrAt_eq_of_cover 2 _ (fun t _ => written_block V c t) tiled

end

end Cert.KernelIdeal.Dense2

end
-- ==== Proof.KernelValue2.lean ====
/-
  The idealized kernel's buffers at its segment boundaries, from the first scaled messages to the second dense product: the first aggregation, the clamped first layer, the endpoint vectors again.
  A boundary's contents are the previous boundary's after one stretch of host operations, or after one pipelined
  region whose output array is the region's whole-array function of its two input arrays and whose other buffers are
  as before. Each buffer still needed later is read as a stage of the specification applied to the launch contents.
-/
import proofs.«114408_j70360154243503_2_alg».proof.Proof.Gen.KernelIdeal.Frame
import proofs.«114408_j70360154243503_2_alg».proof.Proof.KernelValue1
import proofs.«114408_j70360154243503_2_alg».proof.Proof.EdgeScale1
import proofs.«114408_j70360154243503_2_alg».proof.Proof.BiasRelu
import proofs.«114408_j70360154243503_2_alg».proof.Proof.Dense2
import Idealize.ShloMosaic.Lib.StableHlo.Run

set_option maxRecDepth 16384

noncomputable section

namespace Cert.KernelIdeal.KernelValue

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

theorem k6_v39 (c : Dev nD) : W6 m ρ c (Proc.devRef .tc main_v39) = EdgeScale1.scaled (F := Ideal) (shapeCast S1700000x1 (Cert.Gcn.coefficient (F := Ideal) (Cert.Gcn.sources (m ((c : Thread nD τ).loc main_arg1))) (Cert.Gcn.targets (m ((c : Thread nD τ).loc main_arg1)))) Facts₀.shapeCasts_S1700000_S1700000x1) (Host.gather gather_S100000x32_S1700000x1_S1700000x32_1_0_n_n_0_1_132 (Dense1.product (m ((c : Thread nD τ).loc main_arg0)) (m ((c : Thread nD τ).loc main_arg2))) (Cert.Gcn.wrapped (Cert.Gcn.sources (m ((c : Thread nD τ).loc main_arg1))))) := by
  refine (W6_arr m ρ c 2).trans ?_
  exact (EdgeScale1.array_eq (V5 m ρ) c).trans (congrArg₂ (EdgeScale1.scaled (F := Ideal)) (k5_v38 m ρ c) (k5_v37 m ρ c))

theorem k6_v1 (c : Dev nD) : W6 m ρ c (Proc.devRef .tc main_v1) = Cert.Gcn.edgeRow0 (m ((c : Thread nD τ).loc main_arg1)) :=
  (W6_of_ne m ρ c main_v1 (by decide)).trans (k5_v1 m ρ c)

theorem k6_v3 (c : Dev nD) : W6 m ρ c (Proc.devRef .tc main_v3) = Cert.Gcn.edgeRow1 (m ((c : Thread nD τ).loc main_arg1)) :=
  (W6_of_ne m ρ c main_v3 (by decide)).trans (k5_v3 m ρ c)

theorem k6_v6 (c : Dev nD) : W6 m ρ c (Proc.devRef .tc main_v6) = Cert.Gcn.targets (m ((c : Thread nD τ).loc main_arg1)) :=
  (W6_of_ne m ρ c main_v6 (by decide)).trans (k5_v6 m ρ c)

theorem k6_arg3 (c : Dev nD) : W6 m ρ c (Proc.devRef .tc main_arg3) = (m ((c : Thread nD τ).loc main_arg3)) :=
  (W6_of_ne m ρ c main_arg3 (by decide)).trans (k5_arg3 m ρ c)

theorem k6_arg4 (c : Dev nD) : W6 m ρ c (Proc.devRef .tc main_arg4) = (m ((c : Thread nD τ).loc main_arg4)) :=
  (W6_of_ne m ρ c main_arg4 (by decide)).trans (k5_arg4 m ρ c)

theorem k6_arg5 (c : Dev nD) : W6 m ρ c (Proc.devRef .tc main_arg5) = (m ((c : Thread nD τ).loc main_arg5)) :=
  (W6_of_ne m ρ c main_arg5 (by decide)).trans (k5_arg5 m ρ c)

theorem k7_v42 (c : Dev nD) : W7 m ρ c (Proc.devRef .tc main_v42) = Cert.Gcn.summed32 (F := Ideal) (Cert.Gcn.targets (m ((c : Thread nD τ).loc main_arg1))) (EdgeScale1.scaled (F := Ideal) (shapeCast S1700000x1 (Cert.Gcn.coefficient (F := Ideal) (Cert.Gcn.sources (m ((c : Thread nD τ).loc main_arg1))) (Cert.Gcn.targets (m ((c : Thread nD τ).loc main_arg1)))) Facts₀.shapeCasts_S1700000_S1700000x1) (Host.gather gather_S100000x32_S1700000x1_S1700000x32_1_0_n_n_0_1_132 (Dense1.product (m ((c : Thread nD τ).loc main_arg0)) (m ((c : Thread nD τ).loc main_arg2))) (Cert.Gcn.wrapped (Cert.Gcn.sources (m ((c : Thread nD τ).loc main_arg1)))))) := by
  have h0 := k6_v6 m ρ c
  have h1 := k6_v39 m ρ c
  show StableHlo.after hostOps2 (W6 m ρ c) (Proc.devRef .tc main_v42) = _
  generalize W6 m ρ c = V at h0 h1 ⊢
  after_results_simp
  rw [h0, h1]
  all_goals rfl

theorem k7_v43 (c : Dev nD) : W7 m ρ c (Proc.devRef .tc main_v43) = shapeCast S1x32 (m ((c : Thread nD τ).loc main_arg3)) Facts₀.shapeCasts_S32_S1x32 := by
  have h0 := k6_arg3 m ρ c
  show StableHlo.after hostOps2 (W6 m ρ c) (Proc.devRef .tc main_v43) = _
  generalize W6 m ρ c = V at h0 ⊢
  after_results_simp
  rw [h0]
  all_goals rfl

theorem k7_v1 (c : Dev nD) : W7 m ρ c (Proc.devRef .tc main_v1) = Cert.Gcn.edgeRow0 (m ((c : Thread nD τ).loc main_arg1)) :=
  (show StableHlo.after hostOps2 (W6 m ρ c) (Proc.devRef .tc main_v1) = W6 m ρ c (Proc.devRef .tc main_v1) from by untouched hostOps2).trans (k6_v1 m ρ c)

theorem k7_v3 (c : Dev nD) : W7 m ρ c (Proc.devRef .tc main_v3) = Cert.Gcn.edgeRow1 (m ((c : Thread nD τ).loc main_arg1)) :=
  (show StableHlo.after hostOps2 (W6 m ρ c) (Proc.devRef .tc main_v3) = W6 m ρ c (Proc.devRef .tc main_v3) from by untouched hostOps2).trans (k6_v3 m ρ c)

theorem k7_arg4 (c : Dev nD) : W7 m ρ c (Proc.devRef .tc main_arg4) = (m ((c : Thread nD τ).loc main_arg4)) :=
  (show StableHlo.after hostOps2 (W6 m ρ c) (Proc.devRef .tc main_arg4) = W6 m ρ c (Proc.devRef .tc main_arg4) from by untouched hostOps2).trans (k6_arg4 m ρ c)

theorem k7_arg5 (c : Dev nD) : W7 m ρ c (Proc.devRef .tc main_arg5) = (m ((c : Thread nD τ).loc main_arg5)) :=
  (show StableHlo.after hostOps2 (W6 m ρ c) (Proc.devRef .tc main_arg5) = W6 m ρ c (Proc.devRef .tc main_arg5) from by untouched hostOps2).trans (k6_arg5 m ρ c)

theorem k8_v44 (c : Dev nD) : W8 m ρ c (Proc.devRef .tc main_v44) = BiasRelu.biased (F := Ideal) (Cert.Gcn.summed32 (F := Ideal) (Cert.Gcn.targets (m ((c : Thread nD τ).loc main_arg1))) (EdgeScale1.scaled (F := Ideal) (shapeCast S1700000x1 (Cert.Gcn.coefficient (F := Ideal) (Cert.Gcn.sources (m ((c : Thread nD τ).loc main_arg1))) (Cert.Gcn.targets (m ((c : Thread nD τ).loc main_arg1)))) Facts₀.shapeCasts_S1700000_S1700000x1) (Host.gather gather_S100000x32_S1700000x1_S1700000x32_1_0_n_n_0_1_132 (Dense1.product (m ((c : Thread nD τ).loc main_arg0)) (m ((c : Thread nD τ).loc main_arg2))) (Cert.Gcn.wrapped (Cert.Gcn.sources (m ((c : Thread nD τ).loc main_arg1))))))) (shapeCast S1x32 (m ((c : Thread nD τ).loc main_arg3)) Facts₀.shapeCasts_S32_S1x32) := by
  refine (W8_arr m ρ c 2).trans ?_
  exact (BiasRelu.array_eq (V7 m ρ) c).trans (congrArg₂ (BiasRelu.biased (F := Ideal)) (k7_v42 m ρ c) (k7_v43 m ρ c))

theorem k8_v1 (c : Dev nD) : W8 m ρ c (Proc.devRef .tc main_v1) = Cert.Gcn.edgeRow0 (m ((c : Thread nD τ).loc main_arg1)) :=
  (W8_of_ne m ρ c main_v1 (by decide)).trans (k7_v1 m ρ c)

theorem k8_v3 (c : Dev nD) : W8 m ρ c (Proc.devRef .tc main_v3) = Cert.Gcn.edgeRow1 (m ((c : Thread nD τ).loc main_arg1)) :=
  (W8_of_ne m ρ c main_v3 (by decide)).trans (k7_v3 m ρ c)

theorem k8_arg4 (c : Dev nD) : W8 m ρ c (Proc.devRef .tc main_arg4) = (m ((c : Thread nD τ).loc main_arg4)) :=
  (W8_of_ne m ρ c main_arg4 (by decide)).trans (k7_arg4 m ρ c)

theorem k8_arg5 (c : Dev nD) : W8 m ρ c (Proc.devRef .tc main_arg5) = (m ((c : Thread nD τ).loc main_arg5)) :=
  (W8_of_ne m ρ c main_arg5 (by decide)).trans (k7_arg5 m ρ c)

theorem k9_v46 (c : Dev nD) : W9 m ρ c (Proc.devRef .tc main_v46) = Cert.Gcn.sources (m ((c : Thread nD τ).loc main_arg1)) := by
  have h0 := k8_v1 m ρ c
  show StableHlo.after hostOps3 (W8 m ρ c) (Proc.devRef .tc main_v46) = _
  generalize W8 m ρ c = V at h0 ⊢
  after_results
  rw [h0]
  all_goals rfl

theorem k9_v47 (c : Dev nD) : W9 m ρ c (Proc.devRef .tc main_v47) = Cert.Gcn.targets (m ((c : Thread nD τ).loc main_arg1)) := by
  have h0 := k8_v3 m ρ c
  show StableHlo.after hostOps3 (W8 m ρ c) (Proc.devRef .tc main_v47) = _
  generalize W8 m ρ c = V at h0 ⊢
  after_results
  rw [h0]
  all_goals rfl

theorem k9_v44 (c : Dev nD) : W9 m ρ c (Proc.devRef .tc main_v44) = BiasRelu.biased (F := Ideal) (Cert.Gcn.summed32 (F := Ideal) (Cert.Gcn.targets (m ((c : Thread nD τ).loc main_arg1))) (EdgeScale1.scaled (F := Ideal) (shapeCast S1700000x1 (Cert.Gcn.coefficient (F := Ideal) (Cert.Gcn.sources (m ((c : Thread nD τ).loc main_arg1))) (Cert.Gcn.targets (m ((c : Thread nD τ).loc main_arg1)))) Facts₀.shapeCasts_S1700000_S1700000x1) (Host.gather gather_S100000x32_S1700000x1_S1700000x32_1_0_n_n_0_1_132 (Dense1.product (m ((c : Thread nD τ).loc main_arg0)) (m ((c : Thread nD τ).loc main_arg2))) (Cert.Gcn.wrapped (Cert.Gcn.sources (m ((c : Thread nD τ).loc main_arg1))))))) (shapeCast S1x32 (m ((c : Thread nD τ).loc main_arg3)) Facts₀.shapeCasts_S32_S1x32) :=
  (show StableHlo.after hostOps3 (W8 m ρ c) (Proc.devRef .tc main_v44) = W8 m ρ c (Proc.devRef .tc main_v44) from by untouched hostOps3).trans (k8_v44 m ρ c)

theorem k9_arg4 (c : Dev nD) : W9 m ρ c (Proc.devRef .tc main_arg4) = (m ((c : Thread nD τ).loc main_arg4)) :=
  (show StableHlo.after hostOps3 (W8 m ρ c) (Proc.devRef .tc main_arg4) = W8 m ρ c (Proc.devRef .tc main_arg4) from by untouched hostOps3).trans (k8_arg4 m ρ c)

theorem k9_arg5 (c : Dev nD) : W9 m ρ c (Proc.devRef .tc main_arg5) = (m ((c : Thread nD τ).loc main_arg5)) :=
  (show StableHlo.after hostOps3 (W8 m ρ c) (Proc.devRef .tc main_arg5) = W8 m ρ c (Proc.devRef .tc main_arg5) from by untouched hostOps3).trans (k8_arg5 m ρ c)

theorem k10_v48 (c : Dev nD) : W10 m ρ c (Proc.devRef .tc main_v48) = Dense2.product (BiasRelu.biased (F := Ideal) (Cert.Gcn.summed32 (F := Ideal) (Cert.Gcn.targets (m ((c : Thread nD τ).loc main_arg1))) (EdgeScale1.scaled (F := Ideal) (shapeCast S1700000x1 (Cert.Gcn.coefficient (F := Ideal) (Cert.Gcn.sources (m ((c : Thread nD τ).loc main_arg1))) (Cert.Gcn.targets (m ((c : Thread nD τ).loc main_arg1)))) Facts₀.shapeCasts_S1700000_S1700000x1) (Host.gather gather_S100000x32_S1700000x1_S1700000x32_1_0_n_n_0_1_132 (Dense1.product (m ((c : Thread nD τ).loc main_arg0)) (m ((c : Thread nD τ).loc main_arg2))) (Cert.Gcn.wrapped (Cert.Gcn.sources (m ((c : Thread nD τ).loc main_arg1))))))) (shapeCast S1x32 (m ((c : Thread nD τ).loc main_arg3)) Facts₀.shapeCasts_S32_S1x32)) (m ((c : Thread nD τ).loc main_arg4)) := by
  refine (W10_arr m ρ c 2).trans ?_
  exact (Dense2.array_eq (V9 m ρ) c).trans (congrArg₂ (Dense2.product) (k9_v44 m ρ c) (k9_arg4 m ρ c))

theorem k10_v46 (c : Dev nD) : W10 m ρ c (Proc.devRef .tc main_v46) = Cert.Gcn.sources (m ((c : Thread nD τ).loc main_arg1)) :=
  (W10_of_ne m ρ c main_v46 (by decide)).trans (k9_v46 m ρ c)

theorem k10_v47 (c : Dev nD) : W10 m ρ c (Proc.devRef .tc main_v47) = Cert.Gcn.targets (m ((c : Thread nD τ).loc main_arg1)) :=
  (W10_of_ne m ρ c main_v47 (by decide)).trans (k9_v47 m ρ c)

theorem k10_arg5 (c : Dev nD) : W10 m ρ c (Proc.devRef .tc main_arg5) = (m ((c : Thread nD τ).loc main_arg5)) :=
  (W10_of_ne m ρ c main_arg5 (by decide)).trans (k9_arg5 m ρ c)

end Cert.KernelIdeal.KernelValue

end
-- ==== Proof.EdgeScale2.lean ====
/-
  Region 4 multiplies, edge by edge, a row of gathered node features by that edge's normalisation coefficient.
  The grid walks the 1 700 000 edges in 425 blocks of 4000 rows; block `t` of the output is rows
  `4000·t … 4000·t + 3999`, and inside a block the body reads the coefficient column `[4000, 1]`, spreads it over the
  16 feature lanes and multiplies. So entry `(e, j)` of the whole output array is `coef (e, 0) · feat (e, j)`,
  whatever the block it falls in: one function of the two input arrays, which the blocks tile.
-/
import proofs.«114408_j70360154243503_2_alg».proof.Proof.Gen.KernelIdeal.Frame
import Idealize.ShloMosaic.Lib.Pipeline.Value
import Idealize.ShloMosaic.Lib.ValueIdx

set_option maxRecDepth 16384

noncomputable section

namespace Cert.KernelIdeal.EdgeScale2

open Cert.KernelIdeal Cert.KernelIdeal.Gen
open Idealize.ShloMosaic Idealize.ShloMosaic.TcCoe Idealize.SL.Sem
open Idealize.ShloMosaic.Pipeline (Dat)

variable {F : FTy → Type} [FloatOps F]

theorem origin2 : (![0, 0] : Fin 2 → Nat) = fun _ => 0 := funext fun a => by fin_cases a <;> rfl

/-- Edge messages: entry `(e, j)` is the edge's coefficient `coef (e, 0)` times the gathered feature `feat (e, j)`. -/
def scaled (coef : S1700000x1.Idx → Elt F .f32) (feat : S1700000x16.Idx → Elt F .f32) : S1700000x16.Idx → Elt F .f32 :=
  fun i => FloatOps.mulf (coef (ValueIdx.ix2 (i 0) (0 : Fin 1))) (feat i)

/-- The body's arithmetic at one entry of a block: the block's coefficient column at the entry's row, times the
    block's feature entry (the two same-shape casts are the identity, the spread over lanes reads column 0). -/
theorem body_apply (x0 : Vec F S4000x1 .f32) (x1 : Vec F S4000x16 .f32) (j : S4000x16.Idx) :
    k4_pay1 x0 x1 j = FloatOps.mulf (x0 (ValueIdx.ix2 (j 0) (0 : Fin 1))) (x1 j) := by
  unfold k4_pay1
  show FloatOps.mulf (broadcastTo S4000x16 (shapeCast S4000x1 x0 shapeCasts_S4000x1_S4000x1) broadcasts_S4000x1_S4000x16 j)
      (shapeCast S4000x16 x1 shapeCasts_S4000x16_S4000x16 j) = _
  rw [shapeCast_self, shapeCast_self,
    broadcastTo_apply x0 broadcasts_S4000x1_S4000x16 j (ValueIdx.ix2 (j 0) (0 : Fin 1)) (fun a => by
      match a with
      | ⟨0, _⟩ => rfl
      | ⟨1, _⟩ => rfl)]

/-- The three windows move together: block `t` is block-row `t`, block-column 0, of each array. -/
theorem block_index : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0 :=
  (by decide +kernel : ∀ t : Fin grid4.N, _)

section
variable (V : (c : Dev nD) → (b : Ref sig .tc) → Buf (Elt F) ((c : Thread nD τ).loc b))

/-- What grid point `t` writes back is block `t` of the edge messages of the two input arrays as the region finds them. -/
theorem written_block (c : Dev nD) (t : Fin cfg4.N) :
    (dat4 V c).flushed 2 t = ((cfg4.win 2).blk t).view.read (Elt F) (scaled (V c main_v79) (V c main_v78)) := by
  show (cfg4.win 2).cut (grid4.coords t) ((dat4 V c).after 2 t) = _
  rw [after4_2]
  unfold out4_2
  rw [View.canon_unit_zero origin2]
  simp only [View.ld_unit_zero (S := S4000x1) origin2, View.ld_unit_zero (S := S4000x16) origin2]
  obtain ⟨e0, e1, e2, e3, e4, e5⟩ := block_index t
  funext j
  refine (body_apply (iblk4 V c 0 t) (iblk4 V c 1 t) j).trans ?_
  show FloatOps.mulf (V c main_v79 (((cfg4.win 0).blk t).view.emb (ValueIdx.ix2 (j 0) (0 : Fin 1))))
      (V c main_v78 (((cfg4.win 1).blk t).view.emb j))
    = FloatOps.mulf (V c main_v79 (ValueIdx.ix2 ((((cfg4.win 2).blk t).view.emb j) 0) (0 : Fin 1)))
      (V c main_v78 (((cfg4.win 2).blk t).view.emb j))
  have h0 : ((cfg4.win 0).blk t).view.emb (ValueIdx.ix2 (j 0) (0 : Fin 1))
      = ValueIdx.ix2 ((((cfg4.win 2).blk t).view.emb j) 0) (0 : Fin 1) := by
    funext a; apply Fin.ext
    match a with
    | ⟨0, _⟩ => show win4_0.index t (0 : Fin 2) * 4000 + 1 * (j 0).val = win4_2.index t (0 : Fin 2) * 4000 + 1 * (j 0).val; omega
    | ⟨1, _⟩ => show win4_0.index t (1 : Fin 2) * 1 + 1 * 0 = 0; omega
  have h1 : ((cfg4.win 1).blk t).view.emb j = ((cfg4.win 2).blk t).view.emb j := by
    funext a; apply Fin.ext
    match a with
    | ⟨0, _⟩ => show win4_1.index t (0 : Fin 2) * 4000 + 1 * (j 0).val = win4_2.index t (0 : Fin 2) * 4000 + 1 * (j 0).val; omega
    | ⟨1, _⟩ => show win4_1.index t (1 : Fin 2) * 16 + 1 * (j 1).val = win4_2.index t (1 : Fin 2) * 16 + 1 * (j 1).val; omega
  exact congrArg₂ FloatOps.mulf (congrArg (V c main_v79) h0) (congrArg (V c main_v78) h1)

/-- An entry of the output array lies in point `t`'s block iff each coordinate lies in the block's range on its axis. -/
theorem mem_block (t : Fin cfg4.N) (i : S1700000x16.Idx) :
    i ∈ ((cfg4.win 2).blk t).view.set ↔ ∀ a : Fin 2, win4_2.index t a * S4000x16.size a ≤ (i a).val
      ∧ (i a).val < win4_2.index t a * S4000x16.size a + S4000x16.size a := by
  show i ∈ ((View.whole main_v80).slice (win4_2.rect t)).set ↔ _
  rw [View.set_slice_whole, Rect.mem_set_unit]
  exact Iff.rfl

/-- The 425 blocks tile the output: edge `e` is in block `e / 4000`. -/
theorem tiled (i : S1700000x16.Idx) : ∃ t : Fin cfg4.N, (cfg4.win 2).flush t = true ∧ i ∈ ((cfg4.win 2).blk t).view.set := by
  have hi0 : (i 0).val < 1700000 := (i 0).isLt
  have hi1 : (i 1).val < 16 := (i 1).isLt
  have hN : grid4.N = 425 := N_4
  have ht : (i 0).val / 4000 < cfg4.N := by show (i 0).val / 4000 < grid4.N; rw [hN]; omega
  obtain ⟨e0, e1, e2, e3, e4, e5⟩ := block_index ⟨(i 0).val / 4000, ht⟩
  refine ⟨⟨(i 0).val / 4000, ht⟩, flush4_2 _, ?_⟩
  rw [mem_block]
  intro a
  match a with
  | ⟨0, _⟩ =>
    show win4_2.index ⟨(i 0).val / 4000, ht⟩ (0 : Fin 2) * 4000 ≤ (i 0).val
      ∧ (i 0).val < win4_2.index ⟨(i 0).val / 4000, ht⟩ (0 : Fin 2) * 4000 + 4000
    rw [e4]; show (i 0).val / 4000 * 4000 ≤ (i 0).val ∧ (i 0).val < (i 0).val / 4000 * 4000 + 4000; omega
  | ⟨1, _⟩ =>
    show win4_2.index ⟨(i 0).val / 4000, ht⟩ (1 : Fin 2) * 16 ≤ (i 1).val
      ∧ (i 1).val < win4_2.index ⟨(i 0).val / 4000, ht⟩ (1 : Fin 2) * 16 + 16
    rw [e5]; omega

/-- After the region its output array holds the edge messages of the two input arrays as the region found them. -/
theorem array_eq (c : Dev nD) : (dat4 V c).arrAt 2 cfg4.N = scaled (V c main_v79) (V c main_v78) :=
  (dat4 V c).arrAt_eq_of_cover 2 _ (fun t _ => written_block V c t) tiled

end

end Cert.KernelIdeal.EdgeScale2

end
-- ==== Proof.BiasOut.lean ====
/-
  Region 5 adds the bias row to every node's aggregated features.
  The grid walks the 100 000 nodes in 20 blocks of 5000 rows; every point sees the same `[1, 16]` bias block. Inside a
  block the body spreads the bias row over the 5000 rows and adds. So entry `(n, j)` of the
  whole output array is `x (n, j) + b (0, j)`: one function of the two input arrays, which the blocks tile.
-/
import proofs.«114408_j70360154243503_2_alg».proof.Proof.Gen.KernelIdeal.Frame
import Idealize.ShloMosaic.Lib.Pipeline.Value
import Idealize.ShloMosaic.Lib.ValueIdx

set_option maxRecDepth 16384

noncomputable section

namespace Cert.KernelIdeal.BiasOut

open Cert.KernelIdeal Cert.KernelIdeal.Gen
open Idealize.ShloMosaic Idealize.ShloMosaic.TcCoe Idealize.SL.Sem
open Idealize.ShloMosaic.Pipeline (Dat)

variable {F : FTy → Type} [FloatOps F]

theorem origin2 : (![0, 0] : Fin 2 → Nat) = fun _ => 0 := funext fun a => by fin_cases a <;> rfl

/-- Entry `(n, j)`: node `n`'s aggregated feature `j` plus bias `j`. -/
def biased (x : S100000x16.Idx → Elt F .f32) (b : S1x16.Idx → Elt F .f32) : S100000x16.Idx → Elt F .f32 :=
  fun i => FloatOps.addf (x i) (b (ValueIdx.ix2 (0 : Fin 1) (i 1)))

/-- The body's arithmetic at one entry of a block (the same-shape casts are the identity, the spread over rows reads row 0). -/
theorem body_apply (x0 : Vec F S5000x16 .f32) (x1 : Vec F S1x16 .f32) (j : S5000x16.Idx) :
    k5_pay1 x0 x1 j = FloatOps.addf (x0 j) (x1 (ValueIdx.ix2 (0 : Fin 1) (j 1))) := by
  unfold k5_pay1
  show FloatOps.addf (shapeCast S5000x16 x0 shapeCasts_S5000x16_S5000x16 j)
        (broadcastTo S5000x16 (shapeCast S1x16 x1 shapeCasts_S1x16_S1x16) broadcasts_S1x16_S5000x16 j) = _
  rw [shapeCast_self, shapeCast_self,
    broadcastTo_apply x1 broadcasts_S1x16_S5000x16 j (ValueIdx.ix2 (0 : Fin 1) (j 1)) (fun a => by
      match a with
      | ⟨0, _⟩ => rfl
      | ⟨1, _⟩ => rfl)]

/-- Input and output walk the node blocks together; the bias window stays at its one block. -/
theorem block_index : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

section
variable (V : (c : Dev nD) → (b : Ref sig .tc) → Buf (Elt F) ((c : Thread nD τ).loc b))

/-- What grid point `t` writes back is block `t` of the biased features of the two input arrays as the region finds them. -/
theorem written_block (c : Dev nD) (t : Fin cfg5.N) :
    (dat5 V c).flushed 2 t = ((cfg5.win 2).blk t).view.read (Elt F) (biased (V c main_v83) (V c main_v84)) := by
  show (cfg5.win 2).cut (grid5.coords t) ((dat5 V c).after 2 t) = _
  rw [after5_2]
  unfold out5_2
  rw [View.canon_unit_zero origin2]
  simp only [View.ld_unit_zero (S := S5000x16) origin2, View.ld_unit_zero (S := S1x16) origin2]
  obtain ⟨e0, e1, e2, e3, e4, e5⟩ := block_index t
  funext j
  refine (body_apply (iblk5 V c 0 t) (iblk5 V c 1 t) j).trans ?_
  show FloatOps.addf (V c main_v83 (((cfg5.win 0).blk t).view.emb j))
      (V c main_v84 (((cfg5.win 1).blk t).view.emb (ValueIdx.ix2 (0 : Fin 1) (j 1))))
    = FloatOps.addf (V c main_v83 (((cfg5.win 2).blk t).view.emb j))
      (V c main_v84 (ValueIdx.ix2 (0 : Fin 1) ((((cfg5.win 2).blk t).view.emb j) 1)))
  have h0 : ((cfg5.win 0).blk t).view.emb j = ((cfg5.win 2).blk t).view.emb j := by
    funext a; apply Fin.ext
    match a with
    | ⟨0, _⟩ => show win5_0.index t (0 : Fin 2) * 5000 + 1 * (j 0).val = win5_2.index t (0 : Fin 2) * 5000 + 1 * (j 0).val; omega
    | ⟨1, _⟩ => show win5_0.index t (1 : Fin 2) * 16 + 1 * (j 1).val = win5_2.index t (1 : Fin 2) * 16 + 1 * (j 1).val; omega
  have h1 : ((cfg5.win 1).blk t).view.emb (ValueIdx.ix2 (0 : Fin 1) (j 1))
      = ValueIdx.ix2 (0 : Fin 1) ((((cfg5.win 2).blk t).view.emb j) 1) := by
    funext a; apply Fin.ext
    match a with
    | ⟨0, _⟩ => show win5_1.index t (0 : Fin 2) * 1 + 1 * 0 = 0; omega
    | ⟨1, _⟩ => show win5_1.index t (1 : Fin 2) * 16 + 1 * (j 1).val = win5_2.index t (1 : Fin 2) * 16 + 1 * (j 1).val; omega
  exact congrArg₂ FloatOps.addf (congrArg (V c main_v83) h0) (congrArg (V c main_v84) h1)

/-- An entry of the output array lies in point `t`'s block iff each coordinate lies in the block's range on its axis. -/
theorem mem_block (t : Fin cfg5.N) (i : S100000x16.Idx) :
    i ∈ ((cfg5.win 2).blk t).view.set ↔ ∀ a : Fin 2, win5_2.index t a * S5000x16.size a ≤ (i a).val
      ∧ (i a).val < win5_2.index t a * S5000x16.size a + S5000x16.size a := by
  show i ∈ ((View.whole main_v85).slice (win5_2.rect t)).set ↔ _
  rw [View.set_slice_whole, Rect.mem_set_unit]
  exact Iff.rfl

/-- The 20 blocks tile the output: node `n` is in block `n / 5000`. -/
theorem tiled (i : S100000x16.Idx) : ∃ t : Fin cfg5.N, (cfg5.win 2).flush t = true ∧ i ∈ ((cfg5.win 2).blk t).view.set := by
  have hi0 : (i 0).val < 100000 := (i 0).isLt
  have hi1 : (i 1).val < 16 := (i 1).isLt
  have hN : grid5.N = 20 := N_5
  have ht : (i 0).val / 5000 < cfg5.N := by show (i 0).val / 5000 < grid5.N; rw [hN]; omega
  obtain ⟨e0, e1, e2, e3, e4, e5⟩ := block_index ⟨(i 0).val / 5000, ht⟩
  refine ⟨⟨(i 0).val / 5000, ht⟩, flush5_2 _, ?_⟩
  rw [mem_block]
  intro a
  match a with
  | ⟨0, _⟩ =>
    show win5_2.index ⟨(i 0).val / 5000, ht⟩ (0 : Fin 2) * 5000 ≤ (i 0).val
      ∧ (i 0).val < win5_2.index ⟨(i 0).val / 5000, ht⟩ (0 : Fin 2) * 5000 + 5000
    rw [e4]; show (i 0).val / 5000 * 5000 ≤ (i 0).val ∧ (i 0).val < (i 0).val / 5000 * 5000 + 5000; omega
  | ⟨1, _⟩ =>
    show win5_2.index ⟨(i 0).val / 5000, ht⟩ (1 : Fin 2) * 16 ≤ (i 1).val
      ∧ (i 1).val < win5_2.index ⟨(i 0).val / 5000, ht⟩ (1 : Fin 2) * 16 + 16
    rw [e5]; omega

/-- After the region its output array holds the biased features of the two input arrays as the region found them. -/
theorem array_eq (c : Dev nD) : (dat5 V c).arrAt 2 cfg5.N = biased (V c main_v83) (V c main_v84) :=
  (dat5 V c).arrAt_eq_of_cover 2 _ (fun t _ => written_block V c t) tiled

end

end Cert.KernelIdeal.BiasOut

end
-- ==== Proof.KernelValue3.lean ====
/-
  The idealized kernel's buffers at its segment boundaries, the second layer: `1/√deg` again, the second messages, their aggregation and the final bias.
  A boundary's contents are the previous boundary's after one stretch of host operations, or after one pipelined
  region whose output array is the region's whole-array function of its two input arrays and whose other buffers are
  as before. Each buffer still needed later is read as a stage of the specification applied to the launch contents.
-/
import proofs.«114408_j70360154243503_2_alg».proof.Proof.Gen.KernelIdeal.Frame
import proofs.«114408_j70360154243503_2_alg».proof.Proof.KernelValue2
import proofs.«114408_j70360154243503_2_alg».proof.Proof.EdgeScale2
import proofs.«114408_j70360154243503_2_alg».proof.Proof.BiasOut
import Idealize.ShloMosaic.Lib.StableHlo.Run

set_option maxRecDepth 16384

noncomputable section

namespace Cert.KernelIdeal.KernelValue

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

theorem k11_v54 (c : Dev nD) : W11 m ρ c (Proc.devRef .tc main_v54) = Cert.Gcn.positive (F := Ideal) (Cert.Gcn.targets (m ((c : Thread nD τ).loc main_arg1))) := by
  have h0 := k10_v47 m ρ c
  show StableHlo.after hostOps4 (W10 m ρ c) (Proc.devRef .tc main_v54) = _
  generalize W10 m ρ c = V at h0 ⊢
  after_results_simp
  rw [h0]
  all_goals rfl

theorem k11_v55 (c : Dev nD) : W11 m ρ c (Proc.devRef .tc main_v55) = Host.rsqrt (F := Ideal) (Cert.Gcn.degree (F := Ideal) (Cert.Gcn.targets (m ((c : Thread nD τ).loc main_arg1)))) := by
  have h0 := k10_v47 m ρ c
  show StableHlo.after hostOps4 (W10 m ρ c) (Proc.devRef .tc main_v55) = _
  generalize W10 m ρ c = V at h0 ⊢
  after_results_simp
  rw [h0]
  all_goals rfl

theorem k11_cst_12 (c : Dev nD) : W11 m ρ c (Proc.devRef .tc main_cst_12) = (constant (F := Ideal) S_ .f32 0x00000000#32) := by
  show StableHlo.after hostOps4 (W10 m ρ c) (Proc.devRef .tc main_cst_12) = _
  generalize W10 m ρ c = V
  after_results_simp
  all_goals rfl

theorem k11_v46 (c : Dev nD) : W11 m ρ c (Proc.devRef .tc main_v46) = Cert.Gcn.sources (m ((c : Thread nD τ).loc main_arg1)) :=
  (show StableHlo.after hostOps4 (W10 m ρ c) (Proc.devRef .tc main_v46) = W10 m ρ c (Proc.devRef .tc main_v46) from by untouched hostOps4).trans (k10_v46 m ρ c)

theorem k11_v47 (c : Dev nD) : W11 m ρ c (Proc.devRef .tc main_v47) = Cert.Gcn.targets (m ((c : Thread nD τ).loc main_arg1)) :=
  (show StableHlo.after hostOps4 (W10 m ρ c) (Proc.devRef .tc main_v47) = W10 m ρ c (Proc.devRef .tc main_v47) from by untouched hostOps4).trans (k10_v47 m ρ c)

theorem k11_v48 (c : Dev nD) : W11 m ρ c (Proc.devRef .tc main_v48) = Dense2.product (BiasRelu.biased (F := Ideal) (Cert.Gcn.summed32 (F := Ideal) (Cert.Gcn.targets (m ((c : Thread nD τ).loc main_arg1))) (EdgeScale1.scaled (F := Ideal) (shapeCast S1700000x1 (Cert.Gcn.coefficient (F := Ideal) (Cert.Gcn.sources (m ((c : Thread nD τ).loc main_arg1))) (Cert.Gcn.targets (m ((c : Thread nD τ).loc main_arg1)))) Facts₀.shapeCasts_S1700000_S1700000x1) (Host.gather gather_S100000x32_S1700000x1_S1700000x32_1_0_n_n_0_1_132 (Dense1.product (m ((c : Thread nD τ).loc main_arg0)) (m ((c : Thread nD τ).loc main_arg2))) (Cert.Gcn.wrapped (Cert.Gcn.sources (m ((c : Thread nD τ).loc main_arg1))))))) (shapeCast S1x32 (m ((c : Thread nD τ).loc main_arg3)) Facts₀.shapeCasts_S32_S1x32)) (m ((c : Thread nD τ).loc main_arg4)) :=
  (show StableHlo.after hostOps4 (W10 m ρ c) (Proc.devRef .tc main_v48) = W10 m ρ c (Proc.devRef .tc main_v48) from by untouched hostOps4).trans (k10_v48 m ρ c)

theorem k11_arg5 (c : Dev nD) : W11 m ρ c (Proc.devRef .tc main_arg5) = (m ((c : Thread nD τ).loc main_arg5)) :=
  (show StableHlo.after hostOps4 (W10 m ρ c) (Proc.devRef .tc main_arg5) = W10 m ρ c (Proc.devRef .tc main_arg5) from by untouched hostOps4).trans (k10_arg5 m ρ c)

theorem k12_v56 (c : Dev nD) : W12 m ρ c (Proc.devRef .tc main_v56) = Cert.Gcn.invSqrtDegree (F := Ideal) (Cert.Gcn.targets (m ((c : Thread nD τ).loc main_arg1))) := by
  have h0 := k11_v54 m ρ c
  have h1 := k11_v55 m ρ c
  have h2 := k11_cst_12 m ρ c
  show StableHlo.after hostOps4_1 (W11 m ρ c) (Proc.devRef .tc main_v56) = _
  generalize W11 m ρ c = V at h0 h1 h2 ⊢
  after_results_simp
  simp only [StableHlo.TRef.toBuf, StableHlo.TRef.ofBuf, cast_eq]
  rw [h0, h1, h2]
  all_goals rfl

theorem k12_v46 (c : Dev nD) : W12 m ρ c (Proc.devRef .tc main_v46) = Cert.Gcn.sources (m ((c : Thread nD τ).loc main_arg1)) :=
  (show StableHlo.after hostOps4_1 (W11 m ρ c) (Proc.devRef .tc main_v46) = W11 m ρ c (Proc.devRef .tc main_v46) from by untouched hostOps4_1).trans (k11_v46 m ρ c)

theorem k12_v47 (c : Dev nD) : W12 m ρ c (Proc.devRef .tc main_v47) = Cert.Gcn.targets (m ((c : Thread nD τ).loc main_arg1)) :=
  (show StableHlo.after hostOps4_1 (W11 m ρ c) (Proc.devRef .tc main_v47) = W11 m ρ c (Proc.devRef .tc main_v47) from by untouched hostOps4_1).trans (k11_v47 m ρ c)

theorem k12_v48 (c : Dev nD) : W12 m ρ c (Proc.devRef .tc main_v48) = Dense2.product (BiasRelu.biased (F := Ideal) (Cert.Gcn.summed32 (F := Ideal) (Cert.Gcn.targets (m ((c : Thread nD τ).loc main_arg1))) (EdgeScale1.scaled (F := Ideal) (shapeCast S1700000x1 (Cert.Gcn.coefficient (F := Ideal) (Cert.Gcn.sources (m ((c : Thread nD τ).loc main_arg1))) (Cert.Gcn.targets (m ((c : Thread nD τ).loc main_arg1)))) Facts₀.shapeCasts_S1700000_S1700000x1) (Host.gather gather_S100000x32_S1700000x1_S1700000x32_1_0_n_n_0_1_132 (Dense1.product (m ((c : Thread nD τ).loc main_arg0)) (m ((c : Thread nD τ).loc main_arg2))) (Cert.Gcn.wrapped (Cert.Gcn.sources (m ((c : Thread nD τ).loc main_arg1))))))) (shapeCast S1x32 (m ((c : Thread nD τ).loc main_arg3)) Facts₀.shapeCasts_S32_S1x32)) (m ((c : Thread nD τ).loc main_arg4)) :=
  (show StableHlo.after hostOps4_1 (W11 m ρ c) (Proc.devRef .tc main_v48) = W11 m ρ c (Proc.devRef .tc main_v48) from by untouched hostOps4_1).trans (k11_v48 m ρ c)

theorem k12_arg5 (c : Dev nD) : W12 m ρ c (Proc.devRef .tc main_arg5) = (m ((c : Thread nD τ).loc main_arg5)) :=
  (show StableHlo.after hostOps4_1 (W11 m ρ c) (Proc.devRef .tc main_arg5) = W11 m ρ c (Proc.devRef .tc main_arg5) from by untouched hostOps4_1).trans (k11_arg5 m ρ c)

theorem k13_v78 (c : Dev nD) : W13 m ρ c (Proc.devRef .tc main_v78) = Host.gather gather_S100000x16_S1700000x1_S1700000x16_1_0_n_n_0_1_116 (Dense2.product (BiasRelu.biased (F := Ideal) (Cert.Gcn.summed32 (F := Ideal) (Cert.Gcn.targets (m ((c : Thread nD τ).loc main_arg1))) (EdgeScale1.scaled (F := Ideal) (shapeCast S1700000x1 (Cert.Gcn.coefficient (F := Ideal) (Cert.Gcn.sources (m ((c : Thread nD τ).loc main_arg1))) (Cert.Gcn.targets (m ((c : Thread nD τ).loc main_arg1)))) Facts₀.shapeCasts_S1700000_S1700000x1) (Host.gather gather_S100000x32_S1700000x1_S1700000x32_1_0_n_n_0_1_132 (Dense1.product (m ((c : Thread nD τ).loc main_arg0)) (m ((c : Thread nD τ).loc main_arg2))) (Cert.Gcn.wrapped (Cert.Gcn.sources (m ((c : Thread nD τ).loc main_arg1))))))) (shapeCast S1x32 (m ((c : Thread nD τ).loc main_arg3)) Facts₀.shapeCasts_S32_S1x32)) (m ((c : Thread nD τ).loc main_arg4))) (Cert.Gcn.wrapped (Cert.Gcn.sources (m ((c : Thread nD τ).loc main_arg1)))) := by
  have h0 := k12_v48 m ρ c
  have h1 := k12_v46 m ρ c
  show StableHlo.after hostOps4_2 (W12 m ρ c) (Proc.devRef .tc main_v78) = _
  generalize W12 m ρ c = V at h0 h1 ⊢
  after_results_simp
  rw [h0, h1]
  all_goals rfl

theorem k13_v79 (c : Dev nD) : W13 m ρ c (Proc.devRef .tc main_v79) = shapeCast S1700000x1 (Cert.Gcn.coefficient (F := Ideal) (Cert.Gcn.sources (m ((c : Thread nD τ).loc main_arg1))) (Cert.Gcn.targets (m ((c : Thread nD τ).loc main_arg1)))) Facts₀.shapeCasts_S1700000_S1700000x1 := by
  have h0 := k12_v46 m ρ c
  have h1 := k12_v47 m ρ c
  have h2 := k12_v56 m ρ c
  show StableHlo.after hostOps4_2 (W12 m ρ c) (Proc.devRef .tc main_v79) = _
  generalize W12 m ρ c = V at h0 h1 h2 ⊢
  after_results_simp
  rw [h0, h1, h2]
  all_goals rfl

theorem k13_v47 (c : Dev nD) : W13 m ρ c (Proc.devRef .tc main_v47) = Cert.Gcn.targets (m ((c : Thread nD τ).loc main_arg1)) :=
  (show StableHlo.after hostOps4_2 (W12 m ρ c) (Proc.devRef .tc main_v47) = W12 m ρ c (Proc.devRef .tc main_v47) from by untouched hostOps4_2).trans (k12_v47 m ρ c)

theorem k13_arg5 (c : Dev nD) : W13 m ρ c (Proc.devRef .tc main_arg5) = (m ((c : Thread nD τ).loc main_arg5)) :=
  (show StableHlo.after hostOps4_2 (W12 m ρ c) (Proc.devRef .tc main_arg5) = W12 m ρ c (Proc.devRef .tc main_arg5) from by untouched hostOps4_2).trans (k12_arg5 m ρ c)

theorem k14_v80 (c : Dev nD) : W14 m ρ c (Proc.devRef .tc main_v80) = EdgeScale2.scaled (F := Ideal) (shapeCast S1700000x1 (Cert.Gcn.coefficient (F := Ideal) (Cert.Gcn.sources (m ((c : Thread nD τ).loc main_arg1))) (Cert.Gcn.targets (m ((c : Thread nD τ).loc main_arg1)))) Facts₀.shapeCasts_S1700000_S1700000x1) (Host.gather gather_S100000x16_S1700000x1_S1700000x16_1_0_n_n_0_1_116 (Dense2.product (BiasRelu.biased (F := Ideal) (Cert.Gcn.summed32 (F := Ideal) (Cert.Gcn.targets (m ((c : Thread nD τ).loc main_arg1))) (EdgeScale1.scaled (F := Ideal) (shapeCast S1700000x1 (Cert.Gcn.coefficient (F := Ideal) (Cert.Gcn.sources (m ((c : Thread nD τ).loc main_arg1))) (Cert.Gcn.targets (m ((c : Thread nD τ).loc main_arg1)))) Facts₀.shapeCasts_S1700000_S1700000x1) (Host.gather gather_S100000x32_S1700000x1_S1700000x32_1_0_n_n_0_1_132 (Dense1.product (m ((c : Thread nD τ).loc main_arg0)) (m ((c : Thread nD τ).loc main_arg2))) (Cert.Gcn.wrapped (Cert.Gcn.sources (m ((c : Thread nD τ).loc main_arg1))))))) (shapeCast S1x32 (m ((c : Thread nD τ).loc main_arg3)) Facts₀.shapeCasts_S32_S1x32)) (m ((c : Thread nD τ).loc main_arg4))) (Cert.Gcn.wrapped (Cert.Gcn.sources (m ((c : Thread nD τ).loc main_arg1))))) := by
  refine (W14_arr m ρ c 2).trans ?_
  exact (EdgeScale2.array_eq (V13 m ρ) c).trans (congrArg₂ (EdgeScale2.scaled (F := Ideal)) (k13_v79 m ρ c) (k13_v78 m ρ c))

theorem k14_v47 (c : Dev nD) : W14 m ρ c (Proc.devRef .tc main_v47) = Cert.Gcn.targets (m ((c : Thread nD τ).loc main_arg1)) :=
  (W14_of_ne m ρ c main_v47 (by decide)).trans (k13_v47 m ρ c)

theorem k14_arg5 (c : Dev nD) : W14 m ρ c (Proc.devRef .tc main_arg5) = (m ((c : Thread nD τ).loc main_arg5)) :=
  (W14_of_ne m ρ c main_arg5 (by decide)).trans (k13_arg5 m ρ c)

theorem k15_v83 (c : Dev nD) : W15 m ρ c (Proc.devRef .tc main_v83) = Cert.Gcn.summed16 (F := Ideal) (Cert.Gcn.targets (m ((c : Thread nD τ).loc main_arg1))) (EdgeScale2.scaled (F := Ideal) (shapeCast S1700000x1 (Cert.Gcn.coefficient (F := Ideal) (Cert.Gcn.sources (m ((c : Thread nD τ).loc main_arg1))) (Cert.Gcn.targets (m ((c : Thread nD τ).loc main_arg1)))) Facts₀.shapeCasts_S1700000_S1700000x1) (Host.gather gather_S100000x16_S1700000x1_S1700000x16_1_0_n_n_0_1_116 (Dense2.product (BiasRelu.biased (F := Ideal) (Cert.Gcn.summed32 (F := Ideal) (Cert.Gcn.targets (m ((c : Thread nD τ).loc main_arg1))) (EdgeScale1.scaled (F := Ideal) (shapeCast S1700000x1 (Cert.Gcn.coefficient (F := Ideal) (Cert.Gcn.sources (m ((c : Thread nD τ).loc main_arg1))) (Cert.Gcn.targets (m ((c : Thread nD τ).loc main_arg1)))) Facts₀.shapeCasts_S1700000_S1700000x1) (Host.gather gather_S100000x32_S1700000x1_S1700000x32_1_0_n_n_0_1_132 (Dense1.product (m ((c : Thread nD τ).loc main_arg0)) (m ((c : Thread nD τ).loc main_arg2))) (Cert.Gcn.wrapped (Cert.Gcn.sources (m ((c : Thread nD τ).loc main_arg1))))))) (shapeCast S1x32 (m ((c : Thread nD τ).loc main_arg3)) Facts₀.shapeCasts_S32_S1x32)) (m ((c : Thread nD τ).loc main_arg4))) (Cert.Gcn.wrapped (Cert.Gcn.sources (m ((c : Thread nD τ).loc main_arg1)))))) := by
  have h0 := k14_v47 m ρ c
  have h1 := k14_v80 m ρ c
  show StableHlo.after hostOps5 (W14 m ρ c) (Proc.devRef .tc main_v83) = _
  generalize W14 m ρ c = V at h0 h1 ⊢
  after_results_simp
  rw [h0, h1]
  all_goals rfl

theorem k15_v84 (c : Dev nD) : W15 m ρ c (Proc.devRef .tc main_v84) = shapeCast S1x16 (m ((c : Thread nD τ).loc main_arg5)) Facts₀.shapeCasts_S16_S1x16 := by
  have h0 := k14_arg5 m ρ c
  show StableHlo.after hostOps5 (W14 m ρ c) (Proc.devRef .tc main_v84) = _
  generalize W14 m ρ c = V at h0 ⊢
  after_results_simp
  rw [h0]
  all_goals rfl

theorem k16_v85 (c : Dev nD) : W16 m ρ c (Proc.devRef .tc main_v85) = BiasOut.biased (F := Ideal) (Cert.Gcn.summed16 (F := Ideal) (Cert.Gcn.targets (m ((c : Thread nD τ).loc main_arg1))) (EdgeScale2.scaled (F := Ideal) (shapeCast S1700000x1 (Cert.Gcn.coefficient (F := Ideal) (Cert.Gcn.sources (m ((c : Thread nD τ).loc main_arg1))) (Cert.Gcn.targets (m ((c : Thread nD τ).loc main_arg1)))) Facts₀.shapeCasts_S1700000_S1700000x1) (Host.gather gather_S100000x16_S1700000x1_S1700000x16_1_0_n_n_0_1_116 (Dense2.product (BiasRelu.biased (F := Ideal) (Cert.Gcn.summed32 (F := Ideal) (Cert.Gcn.targets (m ((c : Thread nD τ).loc main_arg1))) (EdgeScale1.scaled (F := Ideal) (shapeCast S1700000x1 (Cert.Gcn.coefficient (F := Ideal) (Cert.Gcn.sources (m ((c : Thread nD τ).loc main_arg1))) (Cert.Gcn.targets (m ((c : Thread nD τ).loc main_arg1)))) Facts₀.shapeCasts_S1700000_S1700000x1) (Host.gather gather_S100000x32_S1700000x1_S1700000x32_1_0_n_n_0_1_132 (Dense1.product (m ((c : Thread nD τ).loc main_arg0)) (m ((c : Thread nD τ).loc main_arg2))) (Cert.Gcn.wrapped (Cert.Gcn.sources (m ((c : Thread nD τ).loc main_arg1))))))) (shapeCast S1x32 (m ((c : Thread nD τ).loc main_arg3)) Facts₀.shapeCasts_S32_S1x32)) (m ((c : Thread nD τ).loc main_arg4))) (Cert.Gcn.wrapped (Cert.Gcn.sources (m ((c : Thread nD τ).loc main_arg1))))))) (shapeCast S1x16 (m ((c : Thread nD τ).loc main_arg5)) Facts₀.shapeCasts_S16_S1x16) := by
  refine (W16_arr m ρ c 2).trans ?_
  exact (BiasOut.array_eq (V15 m ρ) c).trans (congrArg₂ (BiasOut.biased (F := Ideal)) (k15_v83 m ρ c) (k15_v84 m ρ c))

end Cert.KernelIdeal.KernelValue

end
-- ==== Proof.Bridge.lean ====
/-
  Each pipelined region of the kernel, read as one whole-array function, is the corresponding whole-array operation of
  the specification: a blocked matrix product is the whole product; a coefficient column spread over the feature lanes
  and multiplied is the coefficient vector broadcast twice and multiplied; a bias block spread over the rows and added
  is the bias vector broadcast twice and added. Each equation is read entry by entry.
-/
import proofs.«114408_j70360154243503_2_alg».proof.Proof.Spec
import proofs.«114408_j70360154243503_2_alg».proof.Proof.Dense1
import proofs.«114408_j70360154243503_2_alg».proof.Proof.Dense2
import proofs.«114408_j70360154243503_2_alg».proof.Proof.EdgeScale1
import proofs.«114408_j70360154243503_2_alg».proof.Proof.EdgeScale2
import proofs.«114408_j70360154243503_2_alg».proof.Proof.BiasRelu
import proofs.«114408_j70360154243503_2_alg».proof.Proof.BiasOut
import Idealize.ShloMosaic.Lib.Pipeline.Value
import Idealize.ShloMosaic.Lib.ValueIdx
import Idealize.ShloMosaic.PureOps.Ideal.Laws

set_option maxRecDepth 16384

noncomputable section

namespace Cert.Gcn.Bridge

open Cert.ReferenceIdeal Cert.ReferenceIdeal.Gen Idealize.ShloMosaic

theorem lhs_row_S100000x32 (i : S100000x32.Idx) (q : dot_S100000x16_S16x32_S100000x32_1_0_0_1_n_n.contr.Idx) : (dot_S100000x16_S16x32_S100000x32_1_0_0_1_n_n.lhsIdx i q 0).val = (i 0).val := by
  unfold DotDims.lhsIdx
  rw [dif_neg (show ¬(0 : Fin S100000x16.rank) ∈ dot_S100000x16_S16x32_S100000x32_1_0_0_1_n_n.lhsBatch by decide), dif_pos (show (0 : Fin S100000x16.rank) ∈ dot_S100000x16_S16x32_S100000x32_1_0_0_1_n_n.lhsNonContracting by decide)]
  rfl
theorem lhs_contr_S100000x32 (i : S100000x32.Idx) (q : dot_S100000x16_S16x32_S100000x32_1_0_0_1_n_n.contr.Idx) : (dot_S100000x16_S16x32_S100000x32_1_0_0_1_n_n.lhsIdx i q 1).val = (q ⟨0, by decide⟩).val :=
  dot_S100000x16_S16x32_S100000x32_1_0_0_1_n_n.lhsIdx_val_of_single rfl i q
theorem rhs_contr_S100000x32 (i : S100000x32.Idx) (q : dot_S100000x16_S16x32_S100000x32_1_0_0_1_n_n.contr.Idx) : (dot_S100000x16_S16x32_S100000x32_1_0_0_1_n_n.rhsIdx i q 0).val = (q ⟨0, by decide⟩).val :=
  dot_S100000x16_S16x32_S100000x32_1_0_0_1_n_n.rhsIdx_val_of_single rfl i q
theorem rhs_col_S100000x32 (i : S100000x32.Idx) (q : dot_S100000x16_S16x32_S100000x32_1_0_0_1_n_n.contr.Idx) : (dot_S100000x16_S16x32_S100000x32_1_0_0_1_n_n.rhsIdx i q 1).val = (i 1).val := by
  unfold DotDims.rhsIdx
  rw [dif_neg (show ¬(1 : Fin S16x32.rank) ∈ dot_S100000x16_S16x32_S100000x32_1_0_0_1_n_n.rhsBatch by decide), dif_pos (show (1 : Fin S16x32.rank) ∈ dot_S100000x16_S16x32_S100000x32_1_0_0_1_n_n.rhsNonContracting by decide)]
  rfl

/-- The host's whole matrix product, entry by entry, is the sum the blocks compute. -/
theorem dense1_eq (a : FVec Ideal S100000x16 .f32) (w : FVec Ideal S16x32 .f32) :
    Host.dotGeneral (F := Ideal) dot_S100000x16_S16x32_S100000x32_1_0_0_1_n_n none a w = Cert.KernelIdeal.Dense1.product a w := by
  funext i
  simp only [Host.dotGeneral]
  rw [Ideal.dotGeneral_apply, ← Equiv.sum_comp (ValueIdx.contrEquiv1 dot_S100000x16_S16x32_S100000x32_1_0_0_1_n_n 16 rfl rfl).symm]
  show _ = ∑ k : Fin 16, a (ValueIdx.ix2 (i 0) k) * w (ValueIdx.ix2 k (i 1))
  refine Finset.sum_congr rfl fun k _ => ?_
  have hk := ValueIdx.contrEquiv1_symm_val dot_S100000x16_S16x32_S100000x32_1_0_0_1_n_n 16 rfl rfl k
  have el : dot_S100000x16_S16x32_S100000x32_1_0_0_1_n_n.lhsIdx i ((ValueIdx.contrEquiv1 dot_S100000x16_S16x32_S100000x32_1_0_0_1_n_n 16 rfl rfl).symm k) = ValueIdx.ix2 (i 0) k := funext fun x => Fin.ext (by
    match x with
    | ⟨0, _⟩ => exact lhs_row_S100000x32 _ _
    | ⟨1, _⟩ => exact (lhs_contr_S100000x32 _ _).trans hk)
  have er : dot_S100000x16_S16x32_S100000x32_1_0_0_1_n_n.rhsIdx i ((ValueIdx.contrEquiv1 dot_S100000x16_S16x32_S100000x32_1_0_0_1_n_n 16 rfl rfl).symm k) = ValueIdx.ix2 k (i 1) := funext fun x => Fin.ext (by
    match x with
    | ⟨0, _⟩ => exact (rhs_contr_S100000x32 _ _).trans hk
    | ⟨1, _⟩ => exact rhs_col_S100000x32 _ _)
  rw [el, er] <;> rfl

theorem lhs_row_S100000x16 (i : S100000x16.Idx) (q : dot_S100000x32_S32x16_S100000x16_1_0_0_1_n_n.contr.Idx) : (dot_S100000x32_S32x16_S100000x16_1_0_0_1_n_n.lhsIdx i q 0).val = (i 0).val := by
  unfold DotDims.lhsIdx
  rw [dif_neg (show ¬(0 : Fin S100000x32.rank) ∈ dot_S100000x32_S32x16_S100000x16_1_0_0_1_n_n.lhsBatch by decide), dif_pos (show (0 : Fin S100000x32.rank) ∈ dot_S100000x32_S32x16_S100000x16_1_0_0_1_n_n.lhsNonContracting by decide)]
  rfl
theorem lhs_contr_S100000x16 (i : S100000x16.Idx) (q : dot_S100000x32_S32x16_S100000x16_1_0_0_1_n_n.contr.Idx) : (dot_S100000x32_S32x16_S100000x16_1_0_0_1_n_n.lhsIdx i q 1).val = (q ⟨0, by decide⟩).val :=
  dot_S100000x32_S32x16_S100000x16_1_0_0_1_n_n.lhsIdx_val_of_single rfl i q
theorem rhs_contr_S100000x16 (i : S100000x16.Idx) (q : dot_S100000x32_S32x16_S100000x16_1_0_0_1_n_n.contr.Idx) : (dot_S100000x32_S32x16_S100000x16_1_0_0_1_n_n.rhsIdx i q 0).val = (q ⟨0, by decide⟩).val :=
  dot_S100000x32_S32x16_S100000x16_1_0_0_1_n_n.rhsIdx_val_of_single rfl i q
theorem rhs_col_S100000x16 (i : S100000x16.Idx) (q : dot_S100000x32_S32x16_S100000x16_1_0_0_1_n_n.contr.Idx) : (dot_S100000x32_S32x16_S100000x16_1_0_0_1_n_n.rhsIdx i q 1).val = (i 1).val := by
  unfold DotDims.rhsIdx
  rw [dif_neg (show ¬(1 : Fin S32x16.rank) ∈ dot_S100000x32_S32x16_S100000x16_1_0_0_1_n_n.rhsBatch by decide), dif_pos (show (1 : Fin S32x16.rank) ∈ dot_S100000x32_S32x16_S100000x16_1_0_0_1_n_n.rhsNonContracting by decide)]
  rfl

/-- The host's whole matrix product, entry by entry, is the sum the blocks compute. -/
theorem dense2_eq (a : FVec Ideal S100000x32 .f32) (w : FVec Ideal S32x16 .f32) :
    Host.dotGeneral (F := Ideal) dot_S100000x32_S32x16_S100000x16_1_0_0_1_n_n none a w = Cert.KernelIdeal.Dense2.product a w := by
  funext i
  simp only [Host.dotGeneral]
  rw [Ideal.dotGeneral_apply, ← Equiv.sum_comp (ValueIdx.contrEquiv1 dot_S100000x32_S32x16_S100000x16_1_0_0_1_n_n 32 rfl rfl).symm]
  show _ = ∑ k : Fin 32, a (ValueIdx.ix2 (i 0) k) * w (ValueIdx.ix2 k (i 1))
  refine Finset.sum_congr rfl fun k _ => ?_
  have hk := ValueIdx.contrEquiv1_symm_val dot_S100000x32_S32x16_S100000x16_1_0_0_1_n_n 32 rfl rfl k
  have el : dot_S100000x32_S32x16_S100000x16_1_0_0_1_n_n.lhsIdx i ((ValueIdx.contrEquiv1 dot_S100000x32_S32x16_S100000x16_1_0_0_1_n_n 32 rfl rfl).symm k) = ValueIdx.ix2 (i 0) k := funext fun x => Fin.ext (by
    match x with
    | ⟨0, _⟩ => exact lhs_row_S100000x16 _ _
    | ⟨1, _⟩ => exact (lhs_contr_S100000x16 _ _).trans hk)
  have er : dot_S100000x32_S32x16_S100000x16_1_0_0_1_n_n.rhsIdx i ((ValueIdx.contrEquiv1 dot_S100000x32_S32x16_S100000x16_1_0_0_1_n_n 32 rfl rfl).symm k) = ValueIdx.ix2 k (i 1) := funext fun x => Fin.ext (by
    match x with
    | ⟨0, _⟩ => exact (rhs_contr_S100000x16 _ _).trans hk
    | ⟨1, _⟩ => exact rhs_col_S100000x16 _ _)
  rw [el, er] <;> rfl

variable {F : FTy → Type} [FloatOps F]

/-- Scaling each gathered row by its edge's coefficient: the coefficient vector as a column, read at the row. -/
theorem scaled32_eq (hc : Cert.KernelIdeal.S1700000.ShapeCasts Cert.KernelIdeal.S1700000x1) (s t : IVec S1700000 32) (H : FVec F S1700000x32 .f32) :
    (Cert.KernelIdeal.EdgeScale1.scaled (F := F)
      (shapeCast Cert.KernelIdeal.S1700000x1 (Cert.Gcn.coefficient (F := F) s t) hc) H : FVec F S1700000x32 .f32)
    = mulf (broadcastInDim S1700000x32 ![0, 1] bcast_S1700000x1_S1700000x32_0_1
        (broadcastInDim S1700000x1 ![0] bcast_S1700000_S1700000x1_0 (Cert.Gcn.coefficient (F := F) s t))) H := by
  refine funext fun (i : S1700000x32.Idx) => ?_
  show FloatOps.mulf (shapeCast Cert.KernelIdeal.S1700000x1 (Cert.Gcn.coefficient (F := F) s t) hc (ValueIdx.ix2 (i 0) (0 : Fin 1))) (H i)
    = FloatOps.mulf (broadcastInDim S1700000x32 ![0, 1] bcast_S1700000x1_S1700000x32_0_1
        (broadcastInDim S1700000x1 ![0] bcast_S1700000_S1700000x1_0 (Cert.Gcn.coefficient (F := F) s t)) i) (H i)
  rw [shapeCast_apply (Cert.Gcn.coefficient (F := F) s t) hc (ValueIdx.ix2 (i 0) (0 : Fin 1)) (ValueIdx.ix1 (i 0)) (by
      rw [Shape.rowMajor_val_one, Shape.rowMajor_val_two]; show (i 0).val = (i 0).val * 1 + 0; omega),
    broadcastInDim_apply (s := S1700000x1) (t := S1700000x32) ![0, 1] bcast_S1700000x1_S1700000x32_0_1 _ i (ValueIdx.ix2 (i 0) (0 : Fin 1)) (fun x => by
      match x with
      | ⟨0, _⟩ => rfl
      | ⟨1, _⟩ => rfl),
    broadcastInDim_apply (s := S1700000) (t := S1700000x1) ![0] bcast_S1700000_S1700000x1_0 _ (ValueIdx.ix2 (i 0) (0 : Fin 1)) (ValueIdx.ix1 (i 0)) (fun x => by
      match x with
      | ⟨0, _⟩ => rfl)]

/-- Scaling each gathered row by its edge's coefficient: the coefficient vector as a column, read at the row. -/
theorem scaled16_eq (hc : Cert.KernelIdeal.S1700000.ShapeCasts Cert.KernelIdeal.S1700000x1) (s t : IVec S1700000 32) (H : FVec F S1700000x16 .f32) :
    (Cert.KernelIdeal.EdgeScale2.scaled (F := F)
      (shapeCast Cert.KernelIdeal.S1700000x1 (Cert.Gcn.coefficient (F := F) s t) hc) H : FVec F S1700000x16 .f32)
    = mulf (broadcastInDim S1700000x16 ![0, 1] bcast_S1700000x1_S1700000x16_0_1
        (broadcastInDim S1700000x1 ![0] bcast_S1700000_S1700000x1_0 (Cert.Gcn.coefficient (F := F) s t))) H := by
  refine funext fun (i : S1700000x16.Idx) => ?_
  show FloatOps.mulf (shapeCast Cert.KernelIdeal.S1700000x1 (Cert.Gcn.coefficient (F := F) s t) hc (ValueIdx.ix2 (i 0) (0 : Fin 1))) (H i)
    = FloatOps.mulf (broadcastInDim S1700000x16 ![0, 1] bcast_S1700000x1_S1700000x16_0_1
        (broadcastInDim S1700000x1 ![0] bcast_S1700000_S1700000x1_0 (Cert.Gcn.coefficient (F := F) s t)) i) (H i)
  rw [shapeCast_apply (Cert.Gcn.coefficient (F := F) s t) hc (ValueIdx.ix2 (i 0) (0 : Fin 1)) (ValueIdx.ix1 (i 0)) (by
      rw [Shape.rowMajor_val_one, Shape.rowMajor_val_two]; show (i 0).val = (i 0).val * 1 + 0; omega),
    broadcastInDim_apply (s := S1700000x1) (t := S1700000x16) ![0, 1] bcast_S1700000x1_S1700000x16_0_1 _ i (ValueIdx.ix2 (i 0) (0 : Fin 1)) (fun x => by
      match x with
      | ⟨0, _⟩ => rfl
      | ⟨1, _⟩ => rfl),
    broadcastInDim_apply (s := S1700000) (t := S1700000x1) ![0] bcast_S1700000_S1700000x1_0 _ (ValueIdx.ix2 (i 0) (0 : Fin 1)) (ValueIdx.ix1 (i 0)) (fun x => by
      match x with
      | ⟨0, _⟩ => rfl)]

/-- Adding the bias row and clamping: the bias vector as a one-row matrix, read at the column. -/
theorem biased32_eq (hc : Cert.KernelIdeal.S32.ShapeCasts Cert.KernelIdeal.S1x32) (X : FVec F S100000x32 .f32) (b : FVec F S32 .f32) :
    (Cert.KernelIdeal.BiasRelu.biased (F := F) X (shapeCast Cert.KernelIdeal.S1x32 b hc) : FVec F S100000x32 .f32)
    = maximumf (addf X (Cert.Gcn.biasRows32 (F := F) b)) (broadcastInDim S100000x32 ![] bcast_S_S100000x32 (constant (F := F) S_ .f32 0x00000000#32)) := by
  refine funext fun (i : S100000x32.Idx) => ?_
  show FloatOps.maximumf (FloatOps.addf (X i) (shapeCast Cert.KernelIdeal.S1x32 b hc (ValueIdx.ix2 (0 : Fin 1) (i 1) : S1x32.Idx))) (Scalar.ofBits .f32 0x00000000#32)
    = FloatOps.maximumf (FloatOps.addf (X i) (broadcastInDim S100000x32 ![0, 1] bcast_S1x32_S100000x32_0_1 (broadcastInDim S1x32 ![1] bcast_S32_S1x32_1 b) i)) (broadcastInDim S100000x32 ![] bcast_S_S100000x32 (constant (F := F) S_ .f32 0x00000000#32) i)
  rw [shapeCast_apply b hc (ValueIdx.ix2 (0 : Fin 1) (i 1) : S1x32.Idx) (ValueIdx.ix1 (i 1)) (by
      rw [Shape.rowMajor_val_one, Shape.rowMajor_val_two]; show (i 1).val = 0 * 32 + (i 1).val; omega),
    broadcastInDim_apply (s := S1x32) (t := S100000x32) ![0, 1] bcast_S1x32_S100000x32_0_1 _ i (ValueIdx.ix2 (0 : Fin 1) (i 1) : S1x32.Idx) (fun x => by
      match x with
      | ⟨0, _⟩ => rfl
      | ⟨1, _⟩ => rfl),
    broadcastInDim_apply (s := S32) (t := S1x32) ![1] bcast_S32_S1x32_1 _ (ValueIdx.ix2 (0 : Fin 1) (i 1) : S1x32.Idx) (ValueIdx.ix1 (i 1)) (fun x => by
      match x with
      | ⟨0, _⟩ => rfl)]
  all_goals rfl

/-- Adding the bias row: the bias vector as a one-row matrix, read at the column. -/
theorem biased16_eq (hc : Cert.KernelIdeal.S16.ShapeCasts Cert.KernelIdeal.S1x16) (X : FVec F S100000x16 .f32) (b : FVec F S16 .f32) :
    (Cert.KernelIdeal.BiasOut.biased (F := F) X (shapeCast Cert.KernelIdeal.S1x16 b hc) : FVec F S100000x16 .f32)
    = addf X (Cert.Gcn.biasRows16 (F := F) b) := by
  refine funext fun (i : S100000x16.Idx) => ?_
  show FloatOps.addf (X i) (shapeCast Cert.KernelIdeal.S1x16 b hc (ValueIdx.ix2 (0 : Fin 1) (i 1) : S1x16.Idx))
    = FloatOps.addf (X i) (broadcastInDim S100000x16 ![0, 1] bcast_S1x16_S100000x16_0_1 (broadcastInDim S1x16 ![1] bcast_S16_S1x16_1 b) i)
  rw [shapeCast_apply b hc (ValueIdx.ix2 (0 : Fin 1) (i 1) : S1x16.Idx) (ValueIdx.ix1 (i 1)) (by
      rw [Shape.rowMajor_val_one, Shape.rowMajor_val_two]; show (i 1).val = 0 * 16 + (i 1).val; omega),
    broadcastInDim_apply (s := S1x16) (t := S100000x16) ![0, 1] bcast_S1x16_S100000x16_0_1 _ i (ValueIdx.ix2 (0 : Fin 1) (i 1) : S1x16.Idx) (fun x => by
      match x with
      | ⟨0, _⟩ => rfl
      | ⟨1, _⟩ => rfl),
    broadcastInDim_apply (s := S16) (t := S1x16) ![1] bcast_S16_S1x16_1 _ (ValueIdx.ix2 (0 : Fin 1) (i 1) : S1x16.Idx) (ValueIdx.ix1 (i 1)) (fun x => by
      match x with
      | ⟨0, _⟩ => rfl)]
  all_goals rfl

end Cert.Gcn.Bridge

end
-- ==== Proof.KernelSpec.lean ====
/-
  The idealized kernel computes the specification. Its result buffer ends at the last region's biased sum of the
  second layer's messages; each region's whole-array function is the specification's whole-array operation (a blocked
  product is the product, a spread-and-multiply is a double broadcast and multiply, a spread-and-add a double
  broadcast and add), and the host operations between the regions are the specification's own.
-/
import proofs.«114408_j70360154243503_2_alg».proof.Proof.KernelValue3
import proofs.«114408_j70360154243503_2_alg».proof.Proof.Bridge

set_option maxRecDepth 16384

noncomputable section

namespace Cert.KernelIdeal.KernelValue

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- The result buffer after the run's last segment is the specification's output of the launch contents. -/
theorem result (c : Dev nD) : W16 m ρ c (Proc.devRef .tc main_v85)
    = Cert.Gcn.output (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  rw [k16_v85 m ρ c, Cert.Gcn.Bridge.biased16_eq, Cert.Gcn.Bridge.scaled16_eq, ← Cert.Gcn.Bridge.dense2_eq,
    Cert.Gcn.Bridge.biased32_eq, Cert.Gcn.Bridge.scaled32_eq, ← Cert.Gcn.Bridge.dense1_eq]
  rfl

end Cert.KernelIdeal.KernelValue

end
-- ==== Proof.RefRun.lean ====
/-
  The reference program is a straight line of 119 host operations. Run from any launch memory, every weakly fair
  execution terminates and leaves each buffer at the fold of the operations' results over the launch contents:
  this module lists the operations in program order and states that run.
-/
import proofs.«114408_j70360154243503_2_alg».proof.Proof.Gen.ReferenceIdeal
import Idealize.ShloMosaic.Lib.StableHlo.Run

noncomputable section

namespace Cert.ReferenceIdeal.HostRun

open Cert.ReferenceIdeal Cert.ReferenceIdeal.Gen Idealize.ShloMosaic Idealize.ShloMosaic.TcCoe Idealize.SL.Sem Idealize.ShloMosaic.StableHlo

variable {F : FTy → Type} [FloatOps F]

/-- The program's operations, in order (a called function's operations stand in its call's place). -/
abbrev ops : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    nullary main_v4 (iotaInDim S100000 32 0),
    binary main_v1 main_v4 main_v5 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    binary main_v3 main_v4 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    binary main_arg0 main_arg2 main_v7 ((fun l r => Host.dotGeneral dot_S100000x16_S16x32_S100000x32_1_0_0_1_n_n none l r) : (⟨S100000x16, .f32⟩ : BufTy).Contents (Elt F) → (⟨S16x32, .f32⟩ : BufTy).Contents (Elt F) → (⟨S100000x32, .f32⟩ : BufTy).Contents (Elt F)),
    nullary main_cst (constant S_ .f32 0x3F800000#32),
    unary main_cst main_v8 (broadcastInDim S1700000 ![] bcast_S_S1700000 : (⟨S_, .f32⟩ : BufTy).Contents (Elt F) → (⟨S1700000, .f32⟩ : BufTy).Contents (Elt F)),
    nullary main_cst_0 (constant S_ .f32 0x00000000#32),
    unary main_cst_0 main_v9 (broadcastInDim S100000 ![] bcast_S_S100000 : (⟨S_, .f32⟩ : BufTy).Contents (Elt F) → (⟨S100000, .f32⟩ : BufTy).Contents (Elt F)),
    unary main_v6 main_v10 (broadcastInDim S1700000x1 ![0] bcast_S1700000_S1700000x1_0 : (⟨S1700000, .i32⟩ : BufTy).Contents (Elt F) → (⟨S1700000x1, .i32⟩ : BufTy).Contents (Elt F)),
    ternary main_v9 main_v10 main_v8 main_v11 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_1 (constant S_ .f32 0x00000000#32),
    unary main_cst_1 main_v12 (broadcastInDim S100000 ![] bcast_S_S100000 : (⟨S_, .f32⟩ : BufTy).Contents (Elt F) → (⟨S100000, .f32⟩ : BufTy).Contents (Elt F)),
    binary main_v11 main_v12 main_v13 (cmpf .ogt : (⟨S100000, .f32⟩ : BufTy).Contents (Elt F) → (⟨S100000, .f32⟩ : BufTy).Contents (Elt F) → (⟨S100000, .i1⟩ : BufTy).Contents (Elt F)),
    unary main_v11 main_v14 (Host.rsqrt : (⟨S100000, .f32⟩ : BufTy).Contents (Elt F) → (⟨S100000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v13) (TRef.of (T := ⟨S100000, .f32⟩) main_v14) (TRef.of (T := ⟨S100000, .f32⟩) main_call0_v1) (TRef.of (T := ⟨S100000, .f32⟩) main_v15) select,
    nullary main_c (constantI S_ 32 0#32),
    unary main_c main_v16 (broadcastInDim S1700000 ![] bcast_S_S1700000 : (⟨S_, .i32⟩ : BufTy).Contents (Elt F) → (⟨S1700000, .i32⟩ : BufTy).Contents (Elt F)),
    binary main_v5 main_v16 main_v17 (cmpi .slt : (⟨S1700000, .i32⟩ : BufTy).Contents (Elt F) → (⟨S1700000, .i32⟩ : BufTy).Contents (Elt F) → (⟨S1700000, .i1⟩ : BufTy).Contents (Elt F)),
    nullary main_c_3 (constantI S_ 32 100000#32),
    unary main_c_3 main_v18 (broadcastInDim S1700000 ![] bcast_S_S1700000 : (⟨S_, .i32⟩ : BufTy).Contents (Elt F) → (⟨S1700000, .i32⟩ : BufTy).Contents (Elt F)),
    binary main_v5 main_v18 main_v19 (addi : (⟨S1700000, .i32⟩ : BufTy).Contents (Elt F) → (⟨S1700000, .i32⟩ : BufTy).Contents (Elt F) → (⟨S1700000, .i32⟩ : BufTy).Contents (Elt F)),
    ternary main_v17 main_v19 main_v5 main_v20 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v20 main_v21 (broadcastInDim S1700000x1 ![0] bcast_S1700000_S1700000x1_0 : (⟨S1700000, .i32⟩ : BufTy).Contents (Elt F) → (⟨S1700000x1, .i32⟩ : BufTy).Contents (Elt F)),
    binary main_v15 main_v21 main_v22 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_4 (constantI S_ 32 0#32),
    unary main_c_4 main_v23 (broadcastInDim S1700000 ![] bcast_S_S1700000 : (⟨S_, .i32⟩ : BufTy).Contents (Elt F) → (⟨S1700000, .i32⟩ : BufTy).Contents (Elt F)),
    binary main_v6 main_v23 main_v24 (cmpi .slt : (⟨S1700000, .i32⟩ : BufTy).Contents (Elt F) → (⟨S1700000, .i32⟩ : BufTy).Contents (Elt F) → (⟨S1700000, .i1⟩ : BufTy).Contents (Elt F)),
    nullary main_c_5 (constantI S_ 32 100000#32),
    unary main_c_5 main_v25 (broadcastInDim S1700000 ![] bcast_S_S1700000 : (⟨S_, .i32⟩ : BufTy).Contents (Elt F) → (⟨S1700000, .i32⟩ : BufTy).Contents (Elt F)),
    binary main_v6 main_v25 main_v26 (addi : (⟨S1700000, .i32⟩ : BufTy).Contents (Elt F) → (⟨S1700000, .i32⟩ : BufTy).Contents (Elt F) → (⟨S1700000, .i32⟩ : BufTy).Contents (Elt F)),
    ternary main_v24 main_v26 main_v6 main_v27 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v27 main_v28 (broadcastInDim S1700000x1 ![0] bcast_S1700000_S1700000x1_0 : (⟨S1700000, .i32⟩ : BufTy).Contents (Elt F) → (⟨S1700000x1, .i32⟩ : BufTy).Contents (Elt F)),
    binary main_v15 main_v28 main_v29 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v22 main_v29 main_v30 (mulf : (⟨S1700000, .f32⟩ : BufTy).Contents (Elt F) → (⟨S1700000, .f32⟩ : BufTy).Contents (Elt F) → (⟨S1700000, .f32⟩ : BufTy).Contents (Elt F)),
    unary main_v30 main_v31 (broadcastInDim S1700000x1 ![0] bcast_S1700000_S1700000x1_0 : (⟨S1700000, .f32⟩ : BufTy).Contents (Elt F) → (⟨S1700000x1, .f32⟩ : BufTy).Contents (Elt F)),
    nullary main_c_6 (constantI S_ 32 0#32),
    unary main_c_6 main_v32 (broadcastInDim S1700000 ![] bcast_S_S1700000 : (⟨S_, .i32⟩ : BufTy).Contents (Elt F) → (⟨S1700000, .i32⟩ : BufTy).Contents (Elt F)),
    binary main_v5 main_v32 main_v33 (cmpi .slt : (⟨S1700000, .i32⟩ : BufTy).Contents (Elt F) → (⟨S1700000, .i32⟩ : BufTy).Contents (Elt F) → (⟨S1700000, .i1⟩ : BufTy).Contents (Elt F)),
    nullary main_c_7 (constantI S_ 32 100000#32),
    unary main_c_7 main_v34 (broadcastInDim S1700000 ![] bcast_S_S1700000 : (⟨S_, .i32⟩ : BufTy).Contents (Elt F) → (⟨S1700000, .i32⟩ : BufTy).Contents (Elt F)),
    binary main_v5 main_v34 main_v35 (addi : (⟨S1700000, .i32⟩ : BufTy).Contents (Elt F) → (⟨S1700000, .i32⟩ : BufTy).Contents (Elt F) → (⟨S1700000, .i32⟩ : BufTy).Contents (Elt F)),
    ternary main_v33 main_v35 main_v5 main_v36 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v36 main_v37 (broadcastInDim S1700000x1 ![0] bcast_S1700000_S1700000x1_0 : (⟨S1700000, .i32⟩ : BufTy).Contents (Elt F) → (⟨S1700000x1, .i32⟩ : BufTy).Contents (Elt F)),
    binary main_v7 main_v37 main_v38 ((fun x i => Host.gather gather_S100000x32_S1700000x1_S1700000x32_1_0_n_n_0_1_132 x i) : (⟨S100000x32, .f32⟩ : BufTy).Contents (Elt F) → (⟨S1700000x1, .i32⟩ : BufTy).Contents (Elt F) → (⟨S1700000x32, .f32⟩ : BufTy).Contents (Elt F)),
    unary main_v31 main_v39 (broadcastInDim S1700000x32 ![0, 1] bcast_S1700000x1_S1700000x32_0_1 : (⟨S1700000x1, .f32⟩ : BufTy).Contents (Elt F) → (⟨S1700000x32, .f32⟩ : BufTy).Contents (Elt F)),
    binary main_v39 main_v38 main_v40 (mulf : (⟨S1700000x32, .f32⟩ : BufTy).Contents (Elt F) → (⟨S1700000x32, .f32⟩ : BufTy).Contents (Elt F) → (⟨S1700000x32, .f32⟩ : BufTy).Contents (Elt F)),
    nullary main_cst_8 (constant S_ .f32 0x00000000#32),
    unary main_cst_8 main_v41 (broadcastInDim S100000x32 ![] bcast_S_S100000x32 : (⟨S_, .f32⟩ : BufTy).Contents (Elt F) → (⟨S100000x32, .f32⟩ : BufTy).Contents (Elt F)),
    unary main_v6 main_v42 (broadcastInDim S1700000x1 ![0] bcast_S1700000_S1700000x1_0 : (⟨S1700000, .i32⟩ : BufTy).Contents (Elt F) → (⟨S1700000x1, .i32⟩ : BufTy).Contents (Elt F)),
    ternary main_v41 main_v42 main_v40 main_v43 ((fun x i u => Host.scatterAdd scatter_S100000x32_S1700000x1_S1700000x32_1_0_0_1 x i u) : (⟨S100000x32, .f32⟩ : BufTy).Contents (Elt F) → (⟨S1700000x1, .i32⟩ : BufTy).Contents (Elt F) → (⟨S1700000x32, .f32⟩ : BufTy).Contents (Elt F) → (⟨S100000x32, .f32⟩ : BufTy).Contents (Elt F)),
    unary main_arg3 main_v44 (broadcastInDim S1x32 ![1] bcast_S32_S1x32_1 : (⟨S32, .f32⟩ : BufTy).Contents (Elt F) → (⟨S1x32, .f32⟩ : BufTy).Contents (Elt F)),
    unary main_v44 main_v45 (broadcastInDim S100000x32 ![0, 1] bcast_S1x32_S100000x32_0_1 : (⟨S1x32, .f32⟩ : BufTy).Contents (Elt F) → (⟨S100000x32, .f32⟩ : BufTy).Contents (Elt F)),
    binary main_v43 main_v45 main_v46 (addf : (⟨S100000x32, .f32⟩ : BufTy).Contents (Elt F) → (⟨S100000x32, .f32⟩ : BufTy).Contents (Elt F) → (⟨S100000x32, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x32, .f32⟩) main_call1_v0) (broadcastInDim S100000x32 ![] bcast_S_S100000x32),
    TRef.binary (TRef.of (T := ⟨S100000x32, .f32⟩) main_v46) (TRef.of (T := ⟨S100000x32, .f32⟩) main_call1_v0) (TRef.of (T := ⟨S100000x32, .f32⟩) main_v47) maximumf,
    nullary main_v48 (iotaInDim S100000 32 0),
    binary main_v1 main_v48 main_v49 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    binary main_v3 main_v48 main_v50 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    binary main_v47 main_arg4 main_v51 ((fun l r => Host.dotGeneral dot_S100000x32_S32x16_S100000x16_1_0_0_1_n_n none l r) : (⟨S100000x32, .f32⟩ : BufTy).Contents (Elt F) → (⟨S32x16, .f32⟩ : BufTy).Contents (Elt F) → (⟨S100000x16, .f32⟩ : BufTy).Contents (Elt F)),
    nullary main_cst_9 (constant S_ .f32 0x3F800000#32),
    unary main_cst_9 main_v52 (broadcastInDim S1700000 ![] bcast_S_S1700000 : (⟨S_, .f32⟩ : BufTy).Contents (Elt F) → (⟨S1700000, .f32⟩ : BufTy).Contents (Elt F)),
    nullary main_cst_10 (constant S_ .f32 0x00000000#32),
    unary main_cst_10 main_v53 (broadcastInDim S100000 ![] bcast_S_S100000 : (⟨S_, .f32⟩ : BufTy).Contents (Elt F) → (⟨S100000, .f32⟩ : BufTy).Contents (Elt F)),
    unary main_v50 main_v54 (broadcastInDim S1700000x1 ![0] bcast_S1700000_S1700000x1_0 : (⟨S1700000, .i32⟩ : BufTy).Contents (Elt F) → (⟨S1700000x1, .i32⟩ : BufTy).Contents (Elt F)),
    ternary main_v53 main_v54 main_v52 main_v55 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_11 (constant S_ .f32 0x00000000#32),
    unary main_cst_11 main_v56 (broadcastInDim S100000 ![] bcast_S_S100000 : (⟨S_, .f32⟩ : BufTy).Contents (Elt F) → (⟨S100000, .f32⟩ : BufTy).Contents (Elt F)),
    binary main_v55 main_v56 main_v57 (cmpf .ogt : (⟨S100000, .f32⟩ : BufTy).Contents (Elt F) → (⟨S100000, .f32⟩ : BufTy).Contents (Elt F) → (⟨S100000, .i1⟩ : BufTy).Contents (Elt F)),
    unary main_v55 main_v58 (Host.rsqrt : (⟨S100000, .f32⟩ : BufTy).Contents (Elt F) → (⟨S100000, .f32⟩ : BufTy).Contents (Elt F)),
    nullary main_cst_12 (constant S_ .f32 0x00000000#32),
    TRef.unary (TRef.of (T := ⟨S_, .f32⟩) main_cst_12) (TRef.of (T := ⟨S_, .f32⟩) main_call2_v0) id,
    TRef.unary (TRef.of (T := ⟨S_, .f32⟩) main_call2_v0) (TRef.of (T := ⟨S100000, .f32⟩) main_call2_v1) (broadcastInDim S100000 ![] bcast_S_S100000),
    TRef.ternary (TRef.of (T := ⟨S100000, .i1⟩) main_v57) (TRef.of (T := ⟨S100000, .f32⟩) main_v58) (TRef.of (T := ⟨S100000, .f32⟩) main_call2_v1) (TRef.of (T := ⟨S100000, .f32⟩) main_v59) select,
    nullary main_c_13 (constantI S_ 32 0#32),
    unary main_c_13 main_v60 (broadcastInDim S1700000 ![] bcast_S_S1700000 : (⟨S_, .i32⟩ : BufTy).Contents (Elt F) → (⟨S1700000, .i32⟩ : BufTy).Contents (Elt F)),
    binary main_v49 main_v60 main_v61 (cmpi .slt : (⟨S1700000, .i32⟩ : BufTy).Contents (Elt F) → (⟨S1700000, .i32⟩ : BufTy).Contents (Elt F) → (⟨S1700000, .i1⟩ : BufTy).Contents (Elt F)),
    nullary main_c_14 (constantI S_ 32 100000#32),
    unary main_c_14 main_v62 (broadcastInDim S1700000 ![] bcast_S_S1700000 : (⟨S_, .i32⟩ : BufTy).Contents (Elt F) → (⟨S1700000, .i32⟩ : BufTy).Contents (Elt F)),
    binary main_v49 main_v62 main_v63 (addi : (⟨S1700000, .i32⟩ : BufTy).Contents (Elt F) → (⟨S1700000, .i32⟩ : BufTy).Contents (Elt F) → (⟨S1700000, .i32⟩ : BufTy).Contents (Elt F)),
    ternary main_v61 main_v63 main_v49 main_v64 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v64 main_v65 (broadcastInDim S1700000x1 ![0] bcast_S1700000_S1700000x1_0 : (⟨S1700000, .i32⟩ : BufTy).Contents (Elt F) → (⟨S1700000x1, .i32⟩ : BufTy).Contents (Elt F)),
    binary main_v59 main_v65 main_v66 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_15 (constantI S_ 32 0#32),
    unary main_c_15 main_v67 (broadcastInDim S1700000 ![] bcast_S_S1700000 : (⟨S_, .i32⟩ : BufTy).Contents (Elt F) → (⟨S1700000, .i32⟩ : BufTy).Contents (Elt F)),
    binary main_v50 main_v67 main_v68 (cmpi .slt : (⟨S1700000, .i32⟩ : BufTy).Contents (Elt F) → (⟨S1700000, .i32⟩ : BufTy).Contents (Elt F) → (⟨S1700000, .i1⟩ : BufTy).Contents (Elt F)),
    nullary main_c_16 (constantI S_ 32 100000#32),
    unary main_c_16 main_v69 (broadcastInDim S1700000 ![] bcast_S_S1700000 : (⟨S_, .i32⟩ : BufTy).Contents (Elt F) → (⟨S1700000, .i32⟩ : BufTy).Contents (Elt F)),
    binary main_v50 main_v69 main_v70 (addi : (⟨S1700000, .i32⟩ : BufTy).Contents (Elt F) → (⟨S1700000, .i32⟩ : BufTy).Contents (Elt F) → (⟨S1700000, .i32⟩ : BufTy).Contents (Elt F)),
    ternary main_v68 main_v70 main_v50 main_v71 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v71 main_v72 (broadcastInDim S1700000x1 ![0] bcast_S1700000_S1700000x1_0 : (⟨S1700000, .i32⟩ : BufTy).Contents (Elt F) → (⟨S1700000x1, .i32⟩ : BufTy).Contents (Elt F)),
    binary main_v59 main_v72 main_v73 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v66 main_v73 main_v74 (mulf : (⟨S1700000, .f32⟩ : BufTy).Contents (Elt F) → (⟨S1700000, .f32⟩ : BufTy).Contents (Elt F) → (⟨S1700000, .f32⟩ : BufTy).Contents (Elt F)),
    unary main_v74 main_v75 (broadcastInDim S1700000x1 ![0] bcast_S1700000_S1700000x1_0 : (⟨S1700000, .f32⟩ : BufTy).Contents (Elt F) → (⟨S1700000x1, .f32⟩ : BufTy).Contents (Elt F)),
    nullary main_c_17 (constantI S_ 32 0#32),
    unary main_c_17 main_v76 (broadcastInDim S1700000 ![] bcast_S_S1700000 : (⟨S_, .i32⟩ : BufTy).Contents (Elt F) → (⟨S1700000, .i32⟩ : BufTy).Contents (Elt F)),
    binary main_v49 main_v76 main_v77 (cmpi .slt : (⟨S1700000, .i32⟩ : BufTy).Contents (Elt F) → (⟨S1700000, .i32⟩ : BufTy).Contents (Elt F) → (⟨S1700000, .i1⟩ : BufTy).Contents (Elt F)),
    nullary main_c_18 (constantI S_ 32 100000#32),
    unary main_c_18 main_v78 (broadcastInDim S1700000 ![] bcast_S_S1700000 : (⟨S_, .i32⟩ : BufTy).Contents (Elt F) → (⟨S1700000, .i32⟩ : BufTy).Contents (Elt F)),
    binary main_v49 main_v78 main_v79 (addi : (⟨S1700000, .i32⟩ : BufTy).Contents (Elt F) → (⟨S1700000, .i32⟩ : BufTy).Contents (Elt F) → (⟨S1700000, .i32⟩ : BufTy).Contents (Elt F)),
    ternary main_v77 main_v79 main_v49 main_v80 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v80 main_v81 (broadcastInDim S1700000x1 ![0] bcast_S1700000_S1700000x1_0 : (⟨S1700000, .i32⟩ : BufTy).Contents (Elt F) → (⟨S1700000x1, .i32⟩ : BufTy).Contents (Elt F)),
    binary main_v51 main_v81 main_v82 ((fun x i => Host.gather gather_S100000x16_S1700000x1_S1700000x16_1_0_n_n_0_1_116 x i) : (⟨S100000x16, .f32⟩ : BufTy).Contents (Elt F) → (⟨S1700000x1, .i32⟩ : BufTy).Contents (Elt F) → (⟨S1700000x16, .f32⟩ : BufTy).Contents (Elt F)),
    unary main_v75 main_v83 (broadcastInDim S1700000x16 ![0, 1] bcast_S1700000x1_S1700000x16_0_1 : (⟨S1700000x1, .f32⟩ : BufTy).Contents (Elt F) → (⟨S1700000x16, .f32⟩ : BufTy).Contents (Elt F)),
    binary main_v83 main_v82 main_v84 (mulf : (⟨S1700000x16, .f32⟩ : BufTy).Contents (Elt F) → (⟨S1700000x16, .f32⟩ : BufTy).Contents (Elt F) → (⟨S1700000x16, .f32⟩ : BufTy).Contents (Elt F)),
    nullary main_cst_19 (constant S_ .f32 0x00000000#32),
    unary main_cst_19 main_v85 (broadcastInDim S100000x16 ![] bcast_S_S100000x16 : (⟨S_, .f32⟩ : BufTy).Contents (Elt F) → (⟨S100000x16, .f32⟩ : BufTy).Contents (Elt F)),
    unary main_v50 main_v86 (broadcastInDim S1700000x1 ![0] bcast_S1700000_S1700000x1_0 : (⟨S1700000, .i32⟩ : BufTy).Contents (Elt F) → (⟨S1700000x1, .i32⟩ : BufTy).Contents (Elt F)),
    ternary main_v85 main_v86 main_v84 main_v87 ((fun x i u => Host.scatterAdd scatter_S100000x16_S1700000x1_S1700000x16_1_0_0_1 x i u) : (⟨S100000x16, .f32⟩ : BufTy).Contents (Elt F) → (⟨S1700000x1, .i32⟩ : BufTy).Contents (Elt F) → (⟨S1700000x16, .f32⟩ : BufTy).Contents (Elt F) → (⟨S100000x16, .f32⟩ : BufTy).Contents (Elt F)),
    unary main_arg5 main_v88 (broadcastInDim S1x16 ![1] bcast_S16_S1x16_1 : (⟨S16, .f32⟩ : BufTy).Contents (Elt F) → (⟨S1x16, .f32⟩ : BufTy).Contents (Elt F)),
    unary main_v88 main_v89 (broadcastInDim S100000x16 ![0, 1] bcast_S1x16_S100000x16_0_1 : (⟨S1x16, .f32⟩ : BufTy).Contents (Elt F) → (⟨S100000x16, .f32⟩ : BufTy).Contents (Elt F)),
    binary main_v87 main_v89 main_v90 (addf : (⟨S100000x16, .f32⟩ : BufTy).Contents (Elt F) → (⟨S100000x16, .f32⟩ : BufTy).Contents (Elt F) → (⟨S100000x16, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., reshape_bufs_sub .., unary_bufs_sub .., reshape_bufs_sub .., nullary_bufs_sub .., binary_bufs_sub .., binary_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., nullary_bufs_sub .., binary_bufs_sub .., binary_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub .., binary_bufs_sub ..⟩

set_option maxRecDepth 8192 in
/-- Every weakly fair execution terminates, and each buffer ends at the operations' fold over the launch contents. -/
theorem run (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_seq scopedRefs_eq scopedSems_eq defs main (fun _ => ops) main_eq (fun _ => ops_sub) m ρ

end Cert.ReferenceIdeal.HostRun

end
-- ==== Proof.RefValue.lean ====
/-
  What the reference computes. Its 119 operations are cut into eight consecutive segments; after each segment the
  buffers still needed later are read as the specification's stages of the launch contents: the endpoint vectors with
  their self-loops, the first dense product, `1/√deg`, the scaled messages, the clamped first layer, and the same
  again for the second layer. The last segment's result is the specification's output; the arguments are never written.
-/
import proofs.«114408_j70360154243503_2_alg».proof.Proof.RefRun
import proofs.«114408_j70360154243503_2_alg».proof.Proof.Spec
import proofs.«114408_j70360154243503_2_alg».proof.Proof.Stretch

set_option maxRecDepth 16384

noncomputable section

namespace Cert.ReferenceIdeal.HostValue

open Cert.ReferenceIdeal Cert.ReferenceIdeal.Gen Idealize.ShloMosaic Idealize.ShloMosaic.TcCoe Idealize.SL.Sem Idealize.ShloMosaic.StableHlo

variable {F : FTy → Type} [FloatOps F]

/-- Operations 1 … 8 of the program. -/
abbrev segA : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    nullary main_v4 (iotaInDim S100000 32 0),
    binary main_v1 main_v4 main_v5 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    binary main_v3 main_v4 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    binary main_arg0 main_arg2 main_v7 ((fun l r => Host.dotGeneral dot_S100000x16_S16x32_S100000x32_1_0_0_1_n_n none l r) : (⟨S100000x16, .f32⟩ : BufTy).Contents (Elt F) → (⟨S16x32, .f32⟩ : BufTy).Contents (Elt F) → (⟨S100000x32, .f32⟩ : BufTy).Contents (Elt F)) ]
/-- Operations 9 … 22 of the program. -/
abbrev segB : List (HloOp τ sig (Elt F)) :=
  [ nullary main_cst (constant S_ .f32 0x3F800000#32),
    unary main_cst main_v8 (broadcastInDim S1700000 ![] bcast_S_S1700000 : (⟨S_, .f32⟩ : BufTy).Contents (Elt F) → (⟨S1700000, .f32⟩ : BufTy).Contents (Elt F)),
    nullary main_cst_0 (constant S_ .f32 0x00000000#32),
    unary main_cst_0 main_v9 (broadcastInDim S100000 ![] bcast_S_S100000 : (⟨S_, .f32⟩ : BufTy).Contents (Elt F) → (⟨S100000, .f32⟩ : BufTy).Contents (Elt F)),
    unary main_v6 main_v10 (broadcastInDim S1700000x1 ![0] bcast_S1700000_S1700000x1_0 : (⟨S1700000, .i32⟩ : BufTy).Contents (Elt F) → (⟨S1700000x1, .i32⟩ : BufTy).Contents (Elt F)),
    ternary main_v9 main_v10 main_v8 main_v11 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_1 (constant S_ .f32 0x00000000#32),
    unary main_cst_1 main_v12 (broadcastInDim S100000 ![] bcast_S_S100000 : (⟨S_, .f32⟩ : BufTy).Contents (Elt F) → (⟨S100000, .f32⟩ : BufTy).Contents (Elt F)),
    binary main_v11 main_v12 main_v13 (cmpf .ogt : (⟨S100000, .f32⟩ : BufTy).Contents (Elt F) → (⟨S100000, .f32⟩ : BufTy).Contents (Elt F) → (⟨S100000, .i1⟩ : BufTy).Contents (Elt F)),
    unary main_v11 main_v14 (Host.rsqrt : (⟨S100000, .f32⟩ : BufTy).Contents (Elt F) → (⟨S100000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v13) (TRef.of (T := ⟨S100000, .f32⟩) main_v14) (TRef.of (T := ⟨S100000, .f32⟩) main_call0_v1) (TRef.of (T := ⟨S100000, .f32⟩) main_v15) select ]
/-- Operations 23 … 53 of the program. -/
abbrev segC : List (HloOp τ sig (Elt F)) :=
  [ nullary main_c (constantI S_ 32 0#32),
    unary main_c main_v16 (broadcastInDim S1700000 ![] bcast_S_S1700000 : (⟨S_, .i32⟩ : BufTy).Contents (Elt F) → (⟨S1700000, .i32⟩ : BufTy).Contents (Elt F)),
    binary main_v5 main_v16 main_v17 (cmpi .slt : (⟨S1700000, .i32⟩ : BufTy).Contents (Elt F) → (⟨S1700000, .i32⟩ : BufTy).Contents (Elt F) → (⟨S1700000, .i1⟩ : BufTy).Contents (Elt F)),
    nullary main_c_3 (constantI S_ 32 100000#32),
    unary main_c_3 main_v18 (broadcastInDim S1700000 ![] bcast_S_S1700000 : (⟨S_, .i32⟩ : BufTy).Contents (Elt F) → (⟨S1700000, .i32⟩ : BufTy).Contents (Elt F)),
    binary main_v5 main_v18 main_v19 (addi : (⟨S1700000, .i32⟩ : BufTy).Contents (Elt F) → (⟨S1700000, .i32⟩ : BufTy).Contents (Elt F) → (⟨S1700000, .i32⟩ : BufTy).Contents (Elt F)),
    ternary main_v17 main_v19 main_v5 main_v20 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v20 main_v21 (broadcastInDim S1700000x1 ![0] bcast_S1700000_S1700000x1_0 : (⟨S1700000, .i32⟩ : BufTy).Contents (Elt F) → (⟨S1700000x1, .i32⟩ : BufTy).Contents (Elt F)),
    binary main_v15 main_v21 main_v22 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_4 (constantI S_ 32 0#32),
    unary main_c_4 main_v23 (broadcastInDim S1700000 ![] bcast_S_S1700000 : (⟨S_, .i32⟩ : BufTy).Contents (Elt F) → (⟨S1700000, .i32⟩ : BufTy).Contents (Elt F)),
    binary main_v6 main_v23 main_v24 (cmpi .slt : (⟨S1700000, .i32⟩ : BufTy).Contents (Elt F) → (⟨S1700000, .i32⟩ : BufTy).Contents (Elt F) → (⟨S1700000, .i1⟩ : BufTy).Contents (Elt F)),
    nullary main_c_5 (constantI S_ 32 100000#32),
    unary main_c_5 main_v25 (broadcastInDim S1700000 ![] bcast_S_S1700000 : (⟨S_, .i32⟩ : BufTy).Contents (Elt F) → (⟨S1700000, .i32⟩ : BufTy).Contents (Elt F)),
    binary main_v6 main_v25 main_v26 (addi : (⟨S1700000, .i32⟩ : BufTy).Contents (Elt F) → (⟨S1700000, .i32⟩ : BufTy).Contents (Elt F) → (⟨S1700000, .i32⟩ : BufTy).Contents (Elt F)),
    ternary main_v24 main_v26 main_v6 main_v27 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v27 main_v28 (broadcastInDim S1700000x1 ![0] bcast_S1700000_S1700000x1_0 : (⟨S1700000, .i32⟩ : BufTy).Contents (Elt F) → (⟨S1700000x1, .i32⟩ : BufTy).Contents (Elt F)),
    binary main_v15 main_v28 main_v29 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v22 main_v29 main_v30 (mulf : (⟨S1700000, .f32⟩ : BufTy).Contents (Elt F) → (⟨S1700000, .f32⟩ : BufTy).Contents (Elt F) → (⟨S1700000, .f32⟩ : BufTy).Contents (Elt F)),
    unary main_v30 main_v31 (broadcastInDim S1700000x1 ![0] bcast_S1700000_S1700000x1_0 : (⟨S1700000, .f32⟩ : BufTy).Contents (Elt F) → (⟨S1700000x1, .f32⟩ : BufTy).Contents (Elt F)),
    nullary main_c_6 (constantI S_ 32 0#32),
    unary main_c_6 main_v32 (broadcastInDim S1700000 ![] bcast_S_S1700000 : (⟨S_, .i32⟩ : BufTy).Contents (Elt F) → (⟨S1700000, .i32⟩ : BufTy).Contents (Elt F)),
    binary main_v5 main_v32 main_v33 (cmpi .slt : (⟨S1700000, .i32⟩ : BufTy).Contents (Elt F) → (⟨S1700000, .i32⟩ : BufTy).Contents (Elt F) → (⟨S1700000, .i1⟩ : BufTy).Contents (Elt F)),
    nullary main_c_7 (constantI S_ 32 100000#32),
    unary main_c_7 main_v34 (broadcastInDim S1700000 ![] bcast_S_S1700000 : (⟨S_, .i32⟩ : BufTy).Contents (Elt F) → (⟨S1700000, .i32⟩ : BufTy).Contents (Elt F)),
    binary main_v5 main_v34 main_v35 (addi : (⟨S1700000, .i32⟩ : BufTy).Contents (Elt F) → (⟨S1700000, .i32⟩ : BufTy).Contents (Elt F) → (⟨S1700000, .i32⟩ : BufTy).Contents (Elt F)),
    ternary main_v33 main_v35 main_v5 main_v36 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v36 main_v37 (broadcastInDim S1700000x1 ![0] bcast_S1700000_S1700000x1_0 : (⟨S1700000, .i32⟩ : BufTy).Contents (Elt F) → (⟨S1700000x1, .i32⟩ : BufTy).Contents (Elt F)),
    binary main_v7 main_v37 main_v38 ((fun x i => Host.gather gather_S100000x32_S1700000x1_S1700000x32_1_0_n_n_0_1_132 x i) : (⟨S100000x32, .f32⟩ : BufTy).Contents (Elt F) → (⟨S1700000x1, .i32⟩ : BufTy).Contents (Elt F) → (⟨S1700000x32, .f32⟩ : BufTy).Contents (Elt F)),
    unary main_v31 main_v39 (broadcastInDim S1700000x32 ![0, 1] bcast_S1700000x1_S1700000x32_0_1 : (⟨S1700000x1, .f32⟩ : BufTy).Contents (Elt F) → (⟨S1700000x32, .f32⟩ : BufTy).Contents (Elt F)),
    binary main_v39 main_v38 main_v40 (mulf : (⟨S1700000x32, .f32⟩ : BufTy).Contents (Elt F) → (⟨S1700000x32, .f32⟩ : BufTy).Contents (Elt F) → (⟨S1700000x32, .f32⟩ : BufTy).Contents (Elt F)) ]
/-- Operations 54 … 63 of the program. -/
abbrev segD : List (HloOp τ sig (Elt F)) :=
  [ nullary main_cst_8 (constant S_ .f32 0x00000000#32),
    unary main_cst_8 main_v41 (broadcastInDim S100000x32 ![] bcast_S_S100000x32 : (⟨S_, .f32⟩ : BufTy).Contents (Elt F) → (⟨S100000x32, .f32⟩ : BufTy).Contents (Elt F)),
    unary main_v6 main_v42 (broadcastInDim S1700000x1 ![0] bcast_S1700000_S1700000x1_0 : (⟨S1700000, .i32⟩ : BufTy).Contents (Elt F) → (⟨S1700000x1, .i32⟩ : BufTy).Contents (Elt F)),
    ternary main_v41 main_v42 main_v40 main_v43 ((fun x i u => Host.scatterAdd scatter_S100000x32_S1700000x1_S1700000x32_1_0_0_1 x i u) : (⟨S100000x32, .f32⟩ : BufTy).Contents (Elt F) → (⟨S1700000x1, .i32⟩ : BufTy).Contents (Elt F) → (⟨S1700000x32, .f32⟩ : BufTy).Contents (Elt F) → (⟨S100000x32, .f32⟩ : BufTy).Contents (Elt F)),
    unary main_arg3 main_v44 (broadcastInDim S1x32 ![1] bcast_S32_S1x32_1 : (⟨S32, .f32⟩ : BufTy).Contents (Elt F) → (⟨S1x32, .f32⟩ : BufTy).Contents (Elt F)),
    unary main_v44 main_v45 (broadcastInDim S100000x32 ![0, 1] bcast_S1x32_S100000x32_0_1 : (⟨S1x32, .f32⟩ : BufTy).Contents (Elt F) → (⟨S100000x32, .f32⟩ : BufTy).Contents (Elt F)),
    binary main_v43 main_v45 main_v46 (addf : (⟨S100000x32, .f32⟩ : BufTy).Contents (Elt F) → (⟨S100000x32, .f32⟩ : BufTy).Contents (Elt F) → (⟨S100000x32, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x32, .f32⟩) main_call1_v0) (broadcastInDim S100000x32 ![] bcast_S_S100000x32),
    TRef.binary (TRef.of (T := ⟨S100000x32, .f32⟩) main_v46) (TRef.of (T := ⟨S100000x32, .f32⟩) main_call1_v0) (TRef.of (T := ⟨S100000x32, .f32⟩) main_v47) maximumf ]
/-- Operations 64 … 67 of the program. -/
abbrev segE : List (HloOp τ sig (Elt F)) :=
  [ nullary main_v48 (iotaInDim S100000 32 0),
    binary main_v1 main_v48 main_v49 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    binary main_v3 main_v48 main_v50 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    binary main_v47 main_arg4 main_v51 ((fun l r => Host.dotGeneral dot_S100000x32_S32x16_S100000x16_1_0_0_1_n_n none l r) : (⟨S100000x32, .f32⟩ : BufTy).Contents (Elt F) → (⟨S32x16, .f32⟩ : BufTy).Contents (Elt F) → (⟨S100000x16, .f32⟩ : BufTy).Contents (Elt F)) ]
/-- Operations 68 … 81 of the program. -/
abbrev segFs : List (HloOp τ sig (Elt F)) :=
  [ nullary main_cst_9 (constant S_ .f32 0x3F800000#32),
    unary main_cst_9 main_v52 (broadcastInDim S1700000 ![] bcast_S_S1700000 : (⟨S_, .f32⟩ : BufTy).Contents (Elt F) → (⟨S1700000, .f32⟩ : BufTy).Contents (Elt F)),
    nullary main_cst_10 (constant S_ .f32 0x00000000#32),
    unary main_cst_10 main_v53 (broadcastInDim S100000 ![] bcast_S_S100000 : (⟨S_, .f32⟩ : BufTy).Contents (Elt F) → (⟨S100000, .f32⟩ : BufTy).Contents (Elt F)),
    unary main_v50 main_v54 (broadcastInDim S1700000x1 ![0] bcast_S1700000_S1700000x1_0 : (⟨S1700000, .i32⟩ : BufTy).Contents (Elt F) → (⟨S1700000x1, .i32⟩ : BufTy).Contents (Elt F)),
    ternary main_v53 main_v54 main_v52 main_v55 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_11 (constant S_ .f32 0x00000000#32),
    unary main_cst_11 main_v56 (broadcastInDim S100000 ![] bcast_S_S100000 : (⟨S_, .f32⟩ : BufTy).Contents (Elt F) → (⟨S100000, .f32⟩ : BufTy).Contents (Elt F)),
    binary main_v55 main_v56 main_v57 (cmpf .ogt : (⟨S100000, .f32⟩ : BufTy).Contents (Elt F) → (⟨S100000, .f32⟩ : BufTy).Contents (Elt F) → (⟨S100000, .i1⟩ : BufTy).Contents (Elt F)),
    unary main_v55 main_v58 (Host.rsqrt : (⟨S100000, .f32⟩ : BufTy).Contents (Elt F) → (⟨S100000, .f32⟩ : BufTy).Contents (Elt F)),
    nullary main_cst_12 (constant S_ .f32 0x00000000#32),
    TRef.unary (TRef.of (T := ⟨S_, .f32⟩) main_cst_12) (TRef.of (T := ⟨S_, .f32⟩) main_call2_v0) id,
    TRef.unary (TRef.of (T := ⟨S_, .f32⟩) main_call2_v0) (TRef.of (T := ⟨S100000, .f32⟩) main_call2_v1) (broadcastInDim S100000 ![] bcast_S_S100000),
    TRef.ternary (TRef.of (T := ⟨S100000, .i1⟩) main_v57) (TRef.of (T := ⟨S100000, .f32⟩) main_v58) (TRef.of (T := ⟨S100000, .f32⟩) main_call2_v1) (TRef.of (T := ⟨S100000, .f32⟩) main_v59) select ]
/-- Operations 82 … 112 of the program. -/
abbrev segG : List (HloOp τ sig (Elt F)) :=
  [ nullary main_c_13 (constantI S_ 32 0#32),
    unary main_c_13 main_v60 (broadcastInDim S1700000 ![] bcast_S_S1700000 : (⟨S_, .i32⟩ : BufTy).Contents (Elt F) → (⟨S1700000, .i32⟩ : BufTy).Contents (Elt F)),
    binary main_v49 main_v60 main_v61 (cmpi .slt : (⟨S1700000, .i32⟩ : BufTy).Contents (Elt F) → (⟨S1700000, .i32⟩ : BufTy).Contents (Elt F) → (⟨S1700000, .i1⟩ : BufTy).Contents (Elt F)),
    nullary main_c_14 (constantI S_ 32 100000#32),
    unary main_c_14 main_v62 (broadcastInDim S1700000 ![] bcast_S_S1700000 : (⟨S_, .i32⟩ : BufTy).Contents (Elt F) → (⟨S1700000, .i32⟩ : BufTy).Contents (Elt F)),
    binary main_v49 main_v62 main_v63 (addi : (⟨S1700000, .i32⟩ : BufTy).Contents (Elt F) → (⟨S1700000, .i32⟩ : BufTy).Contents (Elt F) → (⟨S1700000, .i32⟩ : BufTy).Contents (Elt F)),
    ternary main_v61 main_v63 main_v49 main_v64 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v64 main_v65 (broadcastInDim S1700000x1 ![0] bcast_S1700000_S1700000x1_0 : (⟨S1700000, .i32⟩ : BufTy).Contents (Elt F) → (⟨S1700000x1, .i32⟩ : BufTy).Contents (Elt F)),
    binary main_v59 main_v65 main_v66 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_15 (constantI S_ 32 0#32),
    unary main_c_15 main_v67 (broadcastInDim S1700000 ![] bcast_S_S1700000 : (⟨S_, .i32⟩ : BufTy).Contents (Elt F) → (⟨S1700000, .i32⟩ : BufTy).Contents (Elt F)),
    binary main_v50 main_v67 main_v68 (cmpi .slt : (⟨S1700000, .i32⟩ : BufTy).Contents (Elt F) → (⟨S1700000, .i32⟩ : BufTy).Contents (Elt F) → (⟨S1700000, .i1⟩ : BufTy).Contents (Elt F)),
    nullary main_c_16 (constantI S_ 32 100000#32),
    unary main_c_16 main_v69 (broadcastInDim S1700000 ![] bcast_S_S1700000 : (⟨S_, .i32⟩ : BufTy).Contents (Elt F) → (⟨S1700000, .i32⟩ : BufTy).Contents (Elt F)),
    binary main_v50 main_v69 main_v70 (addi : (⟨S1700000, .i32⟩ : BufTy).Contents (Elt F) → (⟨S1700000, .i32⟩ : BufTy).Contents (Elt F) → (⟨S1700000, .i32⟩ : BufTy).Contents (Elt F)),
    ternary main_v68 main_v70 main_v50 main_v71 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v71 main_v72 (broadcastInDim S1700000x1 ![0] bcast_S1700000_S1700000x1_0 : (⟨S1700000, .i32⟩ : BufTy).Contents (Elt F) → (⟨S1700000x1, .i32⟩ : BufTy).Contents (Elt F)),
    binary main_v59 main_v72 main_v73 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v66 main_v73 main_v74 (mulf : (⟨S1700000, .f32⟩ : BufTy).Contents (Elt F) → (⟨S1700000, .f32⟩ : BufTy).Contents (Elt F) → (⟨S1700000, .f32⟩ : BufTy).Contents (Elt F)),
    unary main_v74 main_v75 (broadcastInDim S1700000x1 ![0] bcast_S1700000_S1700000x1_0 : (⟨S1700000, .f32⟩ : BufTy).Contents (Elt F) → (⟨S1700000x1, .f32⟩ : BufTy).Contents (Elt F)),
    nullary main_c_17 (constantI S_ 32 0#32),
    unary main_c_17 main_v76 (broadcastInDim S1700000 ![] bcast_S_S1700000 : (⟨S_, .i32⟩ : BufTy).Contents (Elt F) → (⟨S1700000, .i32⟩ : BufTy).Contents (Elt F)),
    binary main_v49 main_v76 main_v77 (cmpi .slt : (⟨S1700000, .i32⟩ : BufTy).Contents (Elt F) → (⟨S1700000, .i32⟩ : BufTy).Contents (Elt F) → (⟨S1700000, .i1⟩ : BufTy).Contents (Elt F)),
    nullary main_c_18 (constantI S_ 32 100000#32),
    unary main_c_18 main_v78 (broadcastInDim S1700000 ![] bcast_S_S1700000 : (⟨S_, .i32⟩ : BufTy).Contents (Elt F) → (⟨S1700000, .i32⟩ : BufTy).Contents (Elt F)),
    binary main_v49 main_v78 main_v79 (addi : (⟨S1700000, .i32⟩ : BufTy).Contents (Elt F) → (⟨S1700000, .i32⟩ : BufTy).Contents (Elt F) → (⟨S1700000, .i32⟩ : BufTy).Contents (Elt F)),
    ternary main_v77 main_v79 main_v49 main_v80 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v80 main_v81 (broadcastInDim S1700000x1 ![0] bcast_S1700000_S1700000x1_0 : (⟨S1700000, .i32⟩ : BufTy).Contents (Elt F) → (⟨S1700000x1, .i32⟩ : BufTy).Contents (Elt F)),
    binary main_v51 main_v81 main_v82 ((fun x i => Host.gather gather_S100000x16_S1700000x1_S1700000x16_1_0_n_n_0_1_116 x i) : (⟨S100000x16, .f32⟩ : BufTy).Contents (Elt F) → (⟨S1700000x1, .i32⟩ : BufTy).Contents (Elt F) → (⟨S1700000x16, .f32⟩ : BufTy).Contents (Elt F)),
    unary main_v75 main_v83 (broadcastInDim S1700000x16 ![0, 1] bcast_S1700000x1_S1700000x16_0_1 : (⟨S1700000x1, .f32⟩ : BufTy).Contents (Elt F) → (⟨S1700000x16, .f32⟩ : BufTy).Contents (Elt F)),
    binary main_v83 main_v82 main_v84 (mulf : (⟨S1700000x16, .f32⟩ : BufTy).Contents (Elt F) → (⟨S1700000x16, .f32⟩ : BufTy).Contents (Elt F) → (⟨S1700000x16, .f32⟩ : BufTy).Contents (Elt F)) ]
/-- Operations 113 … 119 of the program. -/
abbrev segH : List (HloOp τ sig (Elt F)) :=
  [ nullary main_cst_19 (constant S_ .f32 0x00000000#32),
    unary main_cst_19 main_v85 (broadcastInDim S100000x16 ![] bcast_S_S100000x16 : (⟨S_, .f32⟩ : BufTy).Contents (Elt F) → (⟨S100000x16, .f32⟩ : BufTy).Contents (Elt F)),
    unary main_v50 main_v86 (broadcastInDim S1700000x1 ![0] bcast_S1700000_S1700000x1_0 : (⟨S1700000, .i32⟩ : BufTy).Contents (Elt F) → (⟨S1700000x1, .i32⟩ : BufTy).Contents (Elt F)),
    ternary main_v85 main_v86 main_v84 main_v87 ((fun x i u => Host.scatterAdd scatter_S100000x16_S1700000x1_S1700000x16_1_0_0_1 x i u) : (⟨S100000x16, .f32⟩ : BufTy).Contents (Elt F) → (⟨S1700000x1, .i32⟩ : BufTy).Contents (Elt F) → (⟨S1700000x16, .f32⟩ : BufTy).Contents (Elt F) → (⟨S100000x16, .f32⟩ : BufTy).Contents (Elt F)),
    unary main_arg5 main_v88 (broadcastInDim S1x16 ![1] bcast_S16_S1x16_1 : (⟨S16, .f32⟩ : BufTy).Contents (Elt F) → (⟨S1x16, .f32⟩ : BufTy).Contents (Elt F)),
    unary main_v88 main_v89 (broadcastInDim S100000x16 ![0, 1] bcast_S1x16_S100000x16_0_1 : (⟨S1x16, .f32⟩ : BufTy).Contents (Elt F) → (⟨S100000x16, .f32⟩ : BufTy).Contents (Elt F)),
    binary main_v87 main_v89 main_v90 (addf : (⟨S100000x16, .f32⟩ : BufTy).Contents (Elt F) → (⟨S100000x16, .f32⟩ : BufTy).Contents (Elt F) → (⟨S100000x16, .f32⟩ : BufTy).Contents (Elt F)) ]

/-- The program is its segments in order. -/
theorem ops_split : (HostRun.ops : List (HloOp τ sig (Elt F))) = segA ++ (segB ++ (segC ++ (segD ++ (segE ++ (segFs ++ (segG ++ segH)))))) := rfl

/-- Running two lines one after the other is running their concatenation. -/
theorem after_append (l₁ l₂ : List (HloOp τ sig (Elt F))) (V : Valuation τ sig (Elt F)) : after (l₁ ++ l₂) V = after l₂ (after l₁ V) := by
  induction l₁ generalizing V with
  | nil => rfl
  | cons op l ih => simp only [List.cons_append, after_cons, ih]

variable (m : (ℓ : Loc nD τ sig) → Buf (Elt F) ℓ) (d : Dev nD)

/-! The buffer contents after each segment. -/
def VA : Valuation τ sig (Elt F) := after segA (launchContents m d)
def VB : Valuation τ sig (Elt F) := after segB (VA m d)
def VC : Valuation τ sig (Elt F) := after segC (VB m d)
def VD : Valuation τ sig (Elt F) := after segD (VC m d)
def VE : Valuation τ sig (Elt F) := after segE (VD m d)
def VFs : Valuation τ sig (Elt F) := after segFs (VE m d)
def VG : Valuation τ sig (Elt F) := after segG (VFs m d)
def VH : Valuation τ sig (Elt F) := after segH (VG m d)

theorem after_ops : after HostRun.ops (launchContents m d) = VH m d := by
  rw [ops_split]
  simp only [after_append]
  all_goals rfl

theorem a_v1 : VA m d (Proc.devRef .tc main_v1) = Cert.Gcn.edgeRow0 (m ((d.tc : Thread nD τ).loc main_arg1)) := by
  show after segA (launchContents m d) (Proc.devRef .tc main_v1) = _
  after_results_simp
  all_goals rfl

theorem a_v3 : VA m d (Proc.devRef .tc main_v3) = Cert.Gcn.edgeRow1 (m ((d.tc : Thread nD τ).loc main_arg1)) := by
  show after segA (launchContents m d) (Proc.devRef .tc main_v3) = _
  after_results_simp
  all_goals rfl

theorem a_v5 : VA m d (Proc.devRef .tc main_v5) = Cert.Gcn.sources (m ((d.tc : Thread nD τ).loc main_arg1)) := by
  show after segA (launchContents m d) (Proc.devRef .tc main_v5) = _
  after_results
  all_goals rfl

theorem a_v6 : VA m d (Proc.devRef .tc main_v6) = Cert.Gcn.targets (m ((d.tc : Thread nD τ).loc main_arg1)) := by
  show after segA (launchContents m d) (Proc.devRef .tc main_v6) = _
  after_results
  all_goals rfl

theorem a_v7 : VA m d (Proc.devRef .tc main_v7) = (Host.dotGeneral (F := F) dot_S100000x16_S16x32_S100000x32_1_0_0_1_n_n none (m ((d.tc : Thread nD τ).loc main_arg0)) (m ((d.tc : Thread nD τ).loc main_arg2))) := by
  show after segA (launchContents m d) (Proc.devRef .tc main_v7) = _
  after_results_simp
  all_goals rfl

theorem a_arg3 : VA m d (Proc.devRef .tc main_arg3) = (m ((d.tc : Thread nD τ).loc main_arg3)) :=
  (show after segA (launchContents m d) (Proc.devRef .tc main_arg3) = launchContents m d (Proc.devRef .tc main_arg3) from by untouched segA).trans rfl

theorem a_arg4 : VA m d (Proc.devRef .tc main_arg4) = (m ((d.tc : Thread nD τ).loc main_arg4)) :=
  (show after segA (launchContents m d) (Proc.devRef .tc main_arg4) = launchContents m d (Proc.devRef .tc main_arg4) from by untouched segA).trans rfl

theorem a_arg5 : VA m d (Proc.devRef .tc main_arg5) = (m ((d.tc : Thread nD τ).loc main_arg5)) :=
  (show after segA (launchContents m d) (Proc.devRef .tc main_arg5) = launchContents m d (Proc.devRef .tc main_arg5) from by untouched segA).trans rfl

theorem b_v15 : VB m d (Proc.devRef .tc main_v15) = Cert.Gcn.invSqrtDegree (F := F) (Cert.Gcn.targets (m ((d.tc : Thread nD τ).loc main_arg1))) := by
  have h0 := a_v6 m d
  show after segB (VA m d) (Proc.devRef .tc main_v15) = _
  generalize VA m d = V at h0 ⊢
  after_results_simp
  rw [h0]
  all_goals rfl

theorem b_v1 : VB m d (Proc.devRef .tc main_v1) = Cert.Gcn.edgeRow0 (m ((d.tc : Thread nD τ).loc main_arg1)) :=
  (show after segB (VA m d) (Proc.devRef .tc main_v1) = VA m d (Proc.devRef .tc main_v1) from by untouched segB).trans (a_v1 m d)

theorem b_v3 : VB m d (Proc.devRef .tc main_v3) = Cert.Gcn.edgeRow1 (m ((d.tc : Thread nD τ).loc main_arg1)) :=
  (show after segB (VA m d) (Proc.devRef .tc main_v3) = VA m d (Proc.devRef .tc main_v3) from by untouched segB).trans (a_v3 m d)

theorem b_v5 : VB m d (Proc.devRef .tc main_v5) = Cert.Gcn.sources (m ((d.tc : Thread nD τ).loc main_arg1)) :=
  (show after segB (VA m d) (Proc.devRef .tc main_v5) = VA m d (Proc.devRef .tc main_v5) from by untouched segB).trans (a_v5 m d)

theorem b_v6 : VB m d (Proc.devRef .tc main_v6) = Cert.Gcn.targets (m ((d.tc : Thread nD τ).loc main_arg1)) :=
  (show after segB (VA m d) (Proc.devRef .tc main_v6) = VA m d (Proc.devRef .tc main_v6) from by untouched segB).trans (a_v6 m d)

theorem b_v7 : VB m d (Proc.devRef .tc main_v7) = (Host.dotGeneral (F := F) dot_S100000x16_S16x32_S100000x32_1_0_0_1_n_n none (m ((d.tc : Thread nD τ).loc main_arg0)) (m ((d.tc : Thread nD τ).loc main_arg2))) :=
  (show after segB (VA m d) (Proc.devRef .tc main_v7) = VA m d (Proc.devRef .tc main_v7) from by untouched segB).trans (a_v7 m d)

theorem b_arg3 : VB m d (Proc.devRef .tc main_arg3) = (m ((d.tc : Thread nD τ).loc main_arg3)) :=
  (show after segB (VA m d) (Proc.devRef .tc main_arg3) = VA m d (Proc.devRef .tc main_arg3) from by untouched segB).trans (a_arg3 m d)

theorem b_arg4 : VB m d (Proc.devRef .tc main_arg4) = (m ((d.tc : Thread nD τ).loc main_arg4)) :=
  (show after segB (VA m d) (Proc.devRef .tc main_arg4) = VA m d (Proc.devRef .tc main_arg4) from by untouched segB).trans (a_arg4 m d)

theorem b_arg5 : VB m d (Proc.devRef .tc main_arg5) = (m ((d.tc : Thread nD τ).loc main_arg5)) :=
  (show after segB (VA m d) (Proc.devRef .tc main_arg5) = VA m d (Proc.devRef .tc main_arg5) from by untouched segB).trans (a_arg5 m d)

theorem c_v40 : VC m d (Proc.devRef .tc main_v40) = Cert.Gcn.messages32 (F := F) (Cert.Gcn.sources (m ((d.tc : Thread nD τ).loc main_arg1))) (Cert.Gcn.targets (m ((d.tc : Thread nD τ).loc main_arg1))) (Host.dotGeneral (F := F) dot_S100000x16_S16x32_S100000x32_1_0_0_1_n_n none (m ((d.tc : Thread nD τ).loc main_arg0)) (m ((d.tc : Thread nD τ).loc main_arg2))) := by
  have h0 := b_v5 m d
  have h1 := b_v6 m d
  have h2 := b_v15 m d
  have h3 := b_v7 m d
  show after segC (VB m d) (Proc.devRef .tc main_v40) = _
  generalize VB m d = V at h0 h1 h2 h3 ⊢
  after_results_simp
  rw [h0, h1, h2, h3]
  all_goals rfl

theorem c_v1 : VC m d (Proc.devRef .tc main_v1) = Cert.Gcn.edgeRow0 (m ((d.tc : Thread nD τ).loc main_arg1)) :=
  (show after segC (VB m d) (Proc.devRef .tc main_v1) = VB m d (Proc.devRef .tc main_v1) from by untouched segC).trans (b_v1 m d)

theorem c_v3 : VC m d (Proc.devRef .tc main_v3) = Cert.Gcn.edgeRow1 (m ((d.tc : Thread nD τ).loc main_arg1)) :=
  (show after segC (VB m d) (Proc.devRef .tc main_v3) = VB m d (Proc.devRef .tc main_v3) from by untouched segC).trans (b_v3 m d)

theorem c_v6 : VC m d (Proc.devRef .tc main_v6) = Cert.Gcn.targets (m ((d.tc : Thread nD τ).loc main_arg1)) :=
  (show after segC (VB m d) (Proc.devRef .tc main_v6) = VB m d (Proc.devRef .tc main_v6) from by untouched segC).trans (b_v6 m d)

theorem c_arg3 : VC m d (Proc.devRef .tc main_arg3) = (m ((d.tc : Thread nD τ).loc main_arg3)) :=
  (show after segC (VB m d) (Proc.devRef .tc main_arg3) = VB m d (Proc.devRef .tc main_arg3) from by untouched segC).trans (b_arg3 m d)

theorem c_arg4 : VC m d (Proc.devRef .tc main_arg4) = (m ((d.tc : Thread nD τ).loc main_arg4)) :=
  (show after segC (VB m d) (Proc.devRef .tc main_arg4) = VB m d (Proc.devRef .tc main_arg4) from by untouched segC).trans (b_arg4 m d)

theorem c_arg5 : VC m d (Proc.devRef .tc main_arg5) = (m ((d.tc : Thread nD τ).loc main_arg5)) :=
  (show after segC (VB m d) (Proc.devRef .tc main_arg5) = VB m d (Proc.devRef .tc main_arg5) from by untouched segC).trans (b_arg5 m d)

theorem d_v47 : VD m d (Proc.devRef .tc main_v47) = Cert.Gcn.hidden (F := F) (m ((d.tc : Thread nD τ).loc main_arg0)) (m ((d.tc : Thread nD τ).loc main_arg1)) (m ((d.tc : Thread nD τ).loc main_arg2)) (m ((d.tc : Thread nD τ).loc main_arg3)) := by
  have h0 := c_v40 m d
  have h1 := c_v6 m d
  have h2 := c_arg3 m d
  show after segD (VC m d) (Proc.devRef .tc main_v47) = _
  generalize VC m d = V at h0 h1 h2 ⊢
  after_results_simp
  rw [h0, h1, h2]
  all_goals rfl

theorem d_v1 : VD m d (Proc.devRef .tc main_v1) = Cert.Gcn.edgeRow0 (m ((d.tc : Thread nD τ).loc main_arg1)) :=
  (show after segD (VC m d) (Proc.devRef .tc main_v1) = VC m d (Proc.devRef .tc main_v1) from by untouched segD).trans (c_v1 m d)

theorem d_v3 : VD m d (Proc.devRef .tc main_v3) = Cert.Gcn.edgeRow1 (m ((d.tc : Thread nD τ).loc main_arg1)) :=
  (show after segD (VC m d) (Proc.devRef .tc main_v3) = VC m d (Proc.devRef .tc main_v3) from by untouched segD).trans (c_v3 m d)

theorem d_arg4 : VD m d (Proc.devRef .tc main_arg4) = (m ((d.tc : Thread nD τ).loc main_arg4)) :=
  (show after segD (VC m d) (Proc.devRef .tc main_arg4) = VC m d (Proc.devRef .tc main_arg4) from by untouched segD).trans (c_arg4 m d)

theorem d_arg5 : VD m d (Proc.devRef .tc main_arg5) = (m ((d.tc : Thread nD τ).loc main_arg5)) :=
  (show after segD (VC m d) (Proc.devRef .tc main_arg5) = VC m d (Proc.devRef .tc main_arg5) from by untouched segD).trans (c_arg5 m d)

theorem e_v49 : VE m d (Proc.devRef .tc main_v49) = Cert.Gcn.sources (m ((d.tc : Thread nD τ).loc main_arg1)) := by
  have h0 := d_v1 m d
  show after segE (VD m d) (Proc.devRef .tc main_v49) = _
  generalize VD m d = V at h0 ⊢
  after_results
  rw [h0]
  all_goals rfl

theorem e_v50 : VE m d (Proc.devRef .tc main_v50) = Cert.Gcn.targets (m ((d.tc : Thread nD τ).loc main_arg1)) := by
  have h0 := d_v3 m d
  show after segE (VD m d) (Proc.devRef .tc main_v50) = _
  generalize VD m d = V at h0 ⊢
  after_results
  rw [h0]
  all_goals rfl

theorem e_v51 : VE m d (Proc.devRef .tc main_v51) = (Host.dotGeneral (F := F) dot_S100000x32_S32x16_S100000x16_1_0_0_1_n_n none (Cert.Gcn.hidden (F := F) (m ((d.tc : Thread nD τ).loc main_arg0)) (m ((d.tc : Thread nD τ).loc main_arg1)) (m ((d.tc : Thread nD τ).loc main_arg2)) (m ((d.tc : Thread nD τ).loc main_arg3))) (m ((d.tc : Thread nD τ).loc main_arg4))) := by
  have h0 := d_v47 m d
  have h1 := d_arg4 m d
  show after segE (VD m d) (Proc.devRef .tc main_v51) = _
  generalize VD m d = V at h0 h1 ⊢
  after_results_simp
  rw [h0, h1]
  all_goals rfl

theorem e_arg5 : VE m d (Proc.devRef .tc main_arg5) = (m ((d.tc : Thread nD τ).loc main_arg5)) :=
  (show after segE (VD m d) (Proc.devRef .tc main_arg5) = VD m d (Proc.devRef .tc main_arg5) from by untouched segE).trans (d_arg5 m d)

theorem fs_v59 : VFs m d (Proc.devRef .tc main_v59) = Cert.Gcn.invSqrtDegree (F := F) (Cert.Gcn.targets (m ((d.tc : Thread nD τ).loc main_arg1))) := by
  have h0 := e_v50 m d
  show after segFs (VE m d) (Proc.devRef .tc main_v59) = _
  generalize VE m d = V at h0 ⊢
  after_results_simp
  rw [h0]
  all_goals rfl

theorem fs_v49 : VFs m d (Proc.devRef .tc main_v49) = Cert.Gcn.sources (m ((d.tc : Thread nD τ).loc main_arg1)) :=
  (show after segFs (VE m d) (Proc.devRef .tc main_v49) = VE m d (Proc.devRef .tc main_v49) from by untouched segFs).trans (e_v49 m d)

theorem fs_v50 : VFs m d (Proc.devRef .tc main_v50) = Cert.Gcn.targets (m ((d.tc : Thread nD τ).loc main_arg1)) :=
  (show after segFs (VE m d) (Proc.devRef .tc main_v50) = VE m d (Proc.devRef .tc main_v50) from by untouched segFs).trans (e_v50 m d)

theorem fs_v51 : VFs m d (Proc.devRef .tc main_v51) = (Host.dotGeneral (F := F) dot_S100000x32_S32x16_S100000x16_1_0_0_1_n_n none (Cert.Gcn.hidden (F := F) (m ((d.tc : Thread nD τ).loc main_arg0)) (m ((d.tc : Thread nD τ).loc main_arg1)) (m ((d.tc : Thread nD τ).loc main_arg2)) (m ((d.tc : Thread nD τ).loc main_arg3))) (m ((d.tc : Thread nD τ).loc main_arg4))) :=
  (show after segFs (VE m d) (Proc.devRef .tc main_v51) = VE m d (Proc.devRef .tc main_v51) from by untouched segFs).trans (e_v51 m d)

theorem fs_arg5 : VFs m d (Proc.devRef .tc main_arg5) = (m ((d.tc : Thread nD τ).loc main_arg5)) :=
  (show after segFs (VE m d) (Proc.devRef .tc main_arg5) = VE m d (Proc.devRef .tc main_arg5) from by untouched segFs).trans (e_arg5 m d)

theorem g_v84 : VG m d (Proc.devRef .tc main_v84) = Cert.Gcn.messages16 (F := F) (Cert.Gcn.sources (m ((d.tc : Thread nD τ).loc main_arg1))) (Cert.Gcn.targets (m ((d.tc : Thread nD τ).loc main_arg1))) (Host.dotGeneral (F := F) dot_S100000x32_S32x16_S100000x16_1_0_0_1_n_n none (Cert.Gcn.hidden (F := F) (m ((d.tc : Thread nD τ).loc main_arg0)) (m ((d.tc : Thread nD τ).loc main_arg1)) (m ((d.tc : Thread nD τ).loc main_arg2)) (m ((d.tc : Thread nD τ).loc main_arg3))) (m ((d.tc : Thread nD τ).loc main_arg4))) := by
  have h0 := fs_v49 m d
  have h1 := fs_v50 m d
  have h2 := fs_v59 m d
  have h3 := fs_v51 m d
  show after segG (VFs m d) (Proc.devRef .tc main_v84) = _
  generalize VFs m d = V at h0 h1 h2 h3 ⊢
  after_results_simp
  rw [h0, h1, h2, h3]
  all_goals rfl

theorem g_v50 : VG m d (Proc.devRef .tc main_v50) = Cert.Gcn.targets (m ((d.tc : Thread nD τ).loc main_arg1)) :=
  (show after segG (VFs m d) (Proc.devRef .tc main_v50) = VFs m d (Proc.devRef .tc main_v50) from by untouched segG).trans (fs_v50 m d)

theorem g_arg5 : VG m d (Proc.devRef .tc main_arg5) = (m ((d.tc : Thread nD τ).loc main_arg5)) :=
  (show after segG (VFs m d) (Proc.devRef .tc main_arg5) = VFs m d (Proc.devRef .tc main_arg5) from by untouched segG).trans (fs_arg5 m d)

theorem h_v90 : VH m d (Proc.devRef .tc main_v90) = Cert.Gcn.output (F := F) (m ((d.tc : Thread nD τ).loc main_arg0)) (m ((d.tc : Thread nD τ).loc main_arg1)) (m ((d.tc : Thread nD τ).loc main_arg2)) (m ((d.tc : Thread nD τ).loc main_arg3)) (m ((d.tc : Thread nD τ).loc main_arg4)) (m ((d.tc : Thread nD τ).loc main_arg5)) := by
  have h0 := g_v84 m d
  have h1 := g_v50 m d
  have h2 := g_arg5 m d
  show after segH (VG m d) (Proc.devRef .tc main_v90) = _
  generalize VG m d = V at h0 h1 h2 ⊢
  after_results_simp
  rw [h0, h1, h2]
  all_goals rfl

/-- The reference's result is the specification's output of the launch contents. -/
theorem result : after HostRun.ops (launchContents m d) (Proc.devRef .tc main_v90)
    = Cert.Gcn.output (F := F) (m ((d.tc : Thread nD τ).loc main_arg0)) (m ((d.tc : Thread nD τ).loc main_arg1)) (m ((d.tc : Thread nD τ).loc main_arg2)) (m ((d.tc : Thread nD τ).loc main_arg3)) (m ((d.tc : Thread nD τ).loc main_arg4)) (m ((d.tc : Thread nD τ).loc main_arg5)) := by
  rw [after_ops]; exact h_v90 m d

theorem kept_arg0 : after HostRun.ops (launchContents m d) (Proc.devRef .tc main_arg0) = m ((d.tc : Thread nD τ).loc main_arg0) :=
  (show after HostRun.ops (launchContents m d) (Proc.devRef .tc main_arg0) = launchContents m d (Proc.devRef .tc main_arg0) from by untouched HostRun.ops).trans rfl
theorem kept_arg1 : after HostRun.ops (launchContents m d) (Proc.devRef .tc main_arg1) = m ((d.tc : Thread nD τ).loc main_arg1) :=
  (show after HostRun.ops (launchContents m d) (Proc.devRef .tc main_arg1) = launchContents m d (Proc.devRef .tc main_arg1) from by untouched HostRun.ops).trans rfl
theorem kept_arg2 : after HostRun.ops (launchContents m d) (Proc.devRef .tc main_arg2) = m ((d.tc : Thread nD τ).loc main_arg2) :=
  (show after HostRun.ops (launchContents m d) (Proc.devRef .tc main_arg2) = launchContents m d (Proc.devRef .tc main_arg2) from by untouched HostRun.ops).trans rfl
theorem kept_arg3 : after HostRun.ops (launchContents m d) (Proc.devRef .tc main_arg3) = m ((d.tc : Thread nD τ).loc main_arg3) :=
  (show after HostRun.ops (launchContents m d) (Proc.devRef .tc main_arg3) = launchContents m d (Proc.devRef .tc main_arg3) from by untouched HostRun.ops).trans rfl
theorem kept_arg4 : after HostRun.ops (launchContents m d) (Proc.devRef .tc main_arg4) = m ((d.tc : Thread nD τ).loc main_arg4) :=
  (show after HostRun.ops (launchContents m d) (Proc.devRef .tc main_arg4) = launchContents m d (Proc.devRef .tc main_arg4) from by untouched HostRun.ops).trans rfl
theorem kept_arg5 : after HostRun.ops (launchContents m d) (Proc.devRef .tc main_arg5) = m ((d.tc : Thread nD τ).loc main_arg5) :=
  (show after HostRun.ops (launchContents m d) (Proc.devRef .tc main_arg5) = launchContents m d (Proc.devRef .tc main_arg5) from by untouched HostRun.ops).trans rfl

end Cert.ReferenceIdeal.HostValue

end
-- ==== Proof.lean ====
/-
  The certificate of the two-layer graph convolution kernel against its reference, over the extended reals.
  The kernel runs six pipelined regions — two blocked matrix products, two edge-wise scalings, two bias additions (the
  first clamped at zero) — between stretches of host operations (the degree, `1/√deg`, the gathers and scatter-adds);
  the reference is the same computation as 119 host operations. Both are read as ONE function of the six argument
  arrays (Proof/Spec.lean): the kernel through its segments' fold, each region's output array being a whole-array
  function of its inputs that the blocks tile; the reference segment by segment. No law beyond reading each operation
  entry by entry is needed, so the precondition is never opened. The idealization rewrote nothing, so `preserves` is trivial.
-/
import proofs.«114408_j70360154243503_2_alg».proof.Defs
import proofs.«114408_j70360154243503_2_alg».proof.Proof.Gen.Kernel
import proofs.«114408_j70360154243503_2_alg».proof.Proof.Gen.Kernel.Skeleton
import proofs.«114408_j70360154243503_2_alg».proof.Proof.Gen.Kernel.Launch
import proofs.«114408_j70360154243503_2_alg».proof.Proof.Gen.Kernel.Points
import proofs.«114408_j70360154243503_2_alg».proof.Proof.Gen.Kernel.Frame
import proofs.«114408_j70360154243503_2_alg».proof.Proof.Gen.KernelIdeal
import proofs.«114408_j70360154243503_2_alg».proof.Proof.Gen.KernelIdeal.Skeleton
import proofs.«114408_j70360154243503_2_alg».proof.Proof.Gen.KernelIdeal.Launch
import proofs.«114408_j70360154243503_2_alg».proof.Proof.Gen.KernelIdeal.Points
import proofs.«114408_j70360154243503_2_alg».proof.Proof.Gen.KernelIdeal.Frame
import proofs.«114408_j70360154243503_2_alg».proof.Proof.Gen.ReferenceIdeal
import proofs.«114408_j70360154243503_2_alg».proof.Proof.Gen.Pre_finite_inputs
import proofs.«114408_j70360154243503_2_alg».proof.Proof.KernelRun
import proofs.«114408_j70360154243503_2_alg».proof.Proof.KernelSpec
import proofs.«114408_j70360154243503_2_alg».proof.Proof.RefRun
import proofs.«114408_j70360154243503_2_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference runs, and no operation of it writes an argument. -/
theorem frame_referenceIdeal : Cert.frame_ReferenceIdeal := fun m ρ _ =>
  (θ_run Cert.ReferenceIdeal.defs _ _).mono (fun r h c =>
      ⟨(h c Cert.ReferenceIdeal.main_arg0).trans (Cert.ReferenceIdeal.HostValue.kept_arg0 m c),
       (h c Cert.ReferenceIdeal.main_arg1).trans (Cert.ReferenceIdeal.HostValue.kept_arg1 m c),
       (h c Cert.ReferenceIdeal.main_arg2).trans (Cert.ReferenceIdeal.HostValue.kept_arg2 m c),
       (h c Cert.ReferenceIdeal.main_arg3).trans (Cert.ReferenceIdeal.HostValue.kept_arg3 m c),
       (h c Cert.ReferenceIdeal.main_arg4).trans (Cert.ReferenceIdeal.HostValue.kept_arg4 m c),
       (h c Cert.ReferenceIdeal.main_arg5).trans (Cert.ReferenceIdeal.HostValue.kept_arg5 m c)⟩)
    (Cert.ReferenceIdeal.HostRun.run (F := Ideal) m ρ)

/-- Both idealized programs end with the specification's output of their (agreeing) arguments. -/
theorem algebraic : Cert.algebraic_KernelIdeal_ReferenceIdeal := by
  intro m ρ m' ρ' _ hagree
  refine ⟨fun c => Cert.Gcn.output (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono (fun r h c => ⟨(h c).1.trans (Cert.KernelIdeal.KernelValue.result m ρ c), (h c).2⟩)
      (Cert.KernelIdeal.Outcome.run_named (F := Ideal) m ρ)
  · refine (θ_run Cert.ReferenceIdeal.defs _ _).mono (fun r h c => ⟨?_,
      (h c Cert.ReferenceIdeal.main_arg0).trans (Cert.ReferenceIdeal.HostValue.kept_arg0 m' c),
      (h c Cert.ReferenceIdeal.main_arg1).trans (Cert.ReferenceIdeal.HostValue.kept_arg1 m' c),
      (h c Cert.ReferenceIdeal.main_arg2).trans (Cert.ReferenceIdeal.HostValue.kept_arg2 m' c),
      (h c Cert.ReferenceIdeal.main_arg3).trans (Cert.ReferenceIdeal.HostValue.kept_arg3 m' c),
      (h c Cert.ReferenceIdeal.main_arg4).trans (Cert.ReferenceIdeal.HostValue.kept_arg4 m' c),
      (h c Cert.ReferenceIdeal.main_arg5).trans (Cert.ReferenceIdeal.HostValue.kept_arg5 m' c)⟩)
      (Cert.ReferenceIdeal.HostRun.run (F := Ideal) m' ρ')
    refine (h c Cert.ReferenceIdeal.main_v90).trans ((Cert.ReferenceIdeal.HostValue.result m' c).trans ?_)
    obtain ⟨a0, a1, a2, a3, a4, a5⟩ := hagree c
    rw [a0, a1, a2, a3, a4, a5]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
